-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S100000x128 : Shape := ⟨2, ![100000, 128]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S5x128 .f32) (main_arg7 : FVec F S128x128 .f32) (main_arg8 : FVec F S128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S100000 32) (main_arg1 : IVec S2x600000 32) (main_arg2 : FVec F S100000x128 .f32) (main_arg3 : FVec F S5x128x128 .f32) (main_arg4 : FVec F S5x128 .f32) (main_arg5 : FVec F S5x128x128 .f32) (main_arg6 : FVec F S5x128 .f32) (main_arg7 : FVec F S128x128 .f32) (main_arg8 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg5
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg6 main_arg7 main_arg8 main_v13 main_v16
-- ==== Kernel.lean ====
abbrev S100000 : Shape := ⟨1, ![100000]⟩
abbrev S2x600000 : Shape := ⟨2, ![2, 600000]⟩
abbrev S100000x128 : Shape := ⟨2, ![100000, 128]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000x1 : Shape := ⟨2, ![100000, 1]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S2000x128 : Shape := ⟨2, ![2000, 128]⟩

abbrev nBuf : Space → Nat
  | .hbm => 144
  | .vmem => 56
  | .smem => 0
  | _ => 0

abbrev hbmTy0_0 (i : Nat) : BufTy := match i % 128 with
  | 0 => ⟨S100000, .i32⟩
  | 1 => ⟨S2x600000, .i32⟩
  | 2 => ⟨S100000x128, .f32⟩
  | 3 => ⟨S5x128x128, .f32⟩
  | 4 => ⟨S5x128, .f32⟩
  | 5 => ⟨S5x128x128, .f32⟩
  | 6 => ⟨S5x128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S100000x128, .f32⟩
  | 33 => ⟨S600000x1, .i32⟩
  | 34 => ⟨S100000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S1x128, .f32⟩
  | 45 => ⟨S100000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S1x128x128, .f32⟩
  | 60 => ⟨S128x128, .f32⟩
  | 61 => ⟨S1x128, .f32⟩
  | 62 => ⟨S128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S1x128, .f32⟩
  | 69 => ⟨S100000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S_, .f32⟩
  | 80 => ⟨S100000x128, .f32⟩
  | 81 => ⟨S600000x1, .i32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128, .f32⟩
  | 93 => ⟨S100000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S_, .f32⟩
  | 104 => ⟨S100000x128, .f32⟩
  | 105 => ⟨S600000x1, .i32⟩
  | 106 => ⟨S100000x128, .f32⟩
  | 107 => ⟨S1x128x128, .f32⟩
  | 108 => ⟨S128x128, .f32⟩
  | 109 => ⟨S1x128, .f32⟩
  | 110 => ⟨S128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S1x128, .f32⟩
  | 117 => ⟨S100000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S_, .f32⟩
  | _ => ⟨S100000, .i32⟩

abbrev hbmTy0_1 (i : Nat) : BufTy := match i % 128 with
  | 0 => ⟨S100000x128, .f32⟩
  | 1 => ⟨S600000x1, .i32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S1x128, .f32⟩
  | 13 => ⟨S100000x128, .f32⟩
  | 14 => ⟨S1x128, .f32⟩
  | 15 => ⟨S1x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_6 : Ref sig .tc := ⟨.hbm, 70, rfl⟩
abbrev main_v53 : Ref sig .tc := ⟨.hbm, 71, rfl⟩
abbrev main_v54 : Ref sig .tc := ⟨.hbm, 72, rfl⟩
abbrev main_c_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_9 : Ref sig .tc := ⟨.hbm, 94, rfl⟩
abbrev main_v74 : Ref sig .tc := ⟨.hbm, 95, rfl⟩
abbrev main_v75 : Ref sig .tc := ⟨.hbm, 96, rfl⟩
abbrev main_c_10 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_12 : Ref sig .tc := ⟨.hbm, 118, rfl⟩
abbrev main_v95 : Ref sig .tc := ⟨.hbm, 119, rfl⟩
abbrev main_v96 : Ref sig .tc := ⟨.hbm, 120, rfl⟩
abbrev main_c_13 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_14 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def k5_cond2 (i : grid5.Coords) : BitVec 1 :=
  let arg0 : BitVec 32 := BitVec.ofNat 32 (i 0).val
  let c49_i32 : BitVec 32 := 49#32
  let v12 : BitVec 1 := Scalar.cmpi .eq arg0 c49_i32
  let v13 : BitVec 32 := Scalar.extui v12
  let c0_i32_6 : BitVec 32 := 0#32
  let v14 : BitVec 1 := Scalar.cmpi .ne v13 c0_i32_6
  v14

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  reduces_S2000x128_S128 : S2000x128.Reduces [0] S128
  gather_S100000x128_S100000x1_S100000x128_1_0_n_n_0_1_1128_wf : GatherDims.WF S100000x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v94) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v94) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v115) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v115) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v116) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S1x128.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S100000 : Shape := ⟨1, ![100000]⟩
abbrev S2x600000 : Shape := ⟨2, ![2, 600000]⟩
abbrev S100000x128 : Shape := ⟨2, ![100000, 128]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000x1 : Shape := ⟨2, ![100000, 1]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩

abbrev nBuf : Space → Nat
  | .hbm => 208
  | .vmem => 0
  | .smem => 0
  | _ => 0

abbrev hbmTy0_0 (i : Nat) : BufTy := match i % 128 with
  | 0 => ⟨S100000, .i32⟩
  | 1 => ⟨S2x600000, .i32⟩
  | 2 => ⟨S100000x128, .f32⟩
  | 3 => ⟨S5x128x128, .f32⟩
  | 4 => ⟨S5x128, .f32⟩
  | 5 => ⟨S5x128x128, .f32⟩
  | 6 => ⟨S5x128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S100000x128, .f32⟩
  | 33 => ⟨S600000x1, .i32⟩
  | 34 => ⟨S100000x128, .f32⟩
  | 35 => ⟨S100000x128, .f32⟩
  | 36 => ⟨S1x128x128, .f32⟩
  | 37 => ⟨S128x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S_, .f32⟩
  | 68 => ⟨S100000x128, .f32⟩
  | 69 => ⟨S600000x1, .i32⟩
  | 70 => ⟨S100000x128, .f32⟩
  | 71 => ⟨S100000x128, .f32⟩
  | 72 => ⟨S1x128x128, .f32⟩
  | 73 => ⟨S128x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S1x128x128, .f32⟩
  | 84 => ⟨S128x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S_, .f32⟩
  | 104 => ⟨S100000x128, .f32⟩
  | 105 => ⟨S600000x1, .i32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000, .i32⟩

abbrev hbmTy0_1 (i : Nat) : BufTy := match i % 128 with
  | 0 => ⟨S100000x128, .f32⟩
  | 1 => ⟨S100000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S100000x128, .f32⟩
  | 13 => ⟨S600000x1, .i32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S100000x128, .f32⟩
  | 52 => ⟨S1x128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S1x128x128, .f32⟩
  | 64 => ⟨S128x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .f32⟩
  | 75 => ⟨S128, .f32⟩
  | 76 => ⟨S1x128, .f32⟩
  | 77 => ⟨S1x128, .f32⟩
  | 78 => ⟨S1x128, .f32⟩
  | 79 => ⟨S1x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_c_3 : Ref sig .tc := ⟨.hbm, 58, rfl⟩
abbrev main_v40 : Ref sig .tc := ⟨.hbm, 59, rfl⟩
abbrev main_v41 : Ref sig .tc := ⟨.hbm, 60, rfl⟩
abbrev main_c_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call2_cst : Ref sig .tc := ⟨.hbm, 80, rfl⟩
abbrev main_call2_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call3_cst : Ref sig .tc := ⟨.hbm, 91, rfl⟩
abbrev main_call3_v0 : Ref sig .tc := ⟨.hbm, 92, rfl⟩
abbrev main_v68 : Ref sig .tc := ⟨.hbm, 93, rfl⟩
abbrev main_c_6 : Ref sig .tc := ⟨.hbm, 94, rfl⟩
abbrev main_v69 : Ref sig .tc := ⟨.hbm, 95, rfl⟩
abbrev main_v70 : Ref sig .tc := ⟨.hbm, 96, rfl⟩
abbrev main_c_7 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_8 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_call4_cst : Ref sig .tc := ⟨.hbm, 116, rfl⟩
abbrev main_call4_v0 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call5_cst : Ref sig .tc := ⟨.hbm, 127, rfl⟩
abbrev main_call5_v0 : Ref sig .tc := ⟨.hbm, 128, rfl⟩
abbrev main_v97 : Ref sig .tc := ⟨.hbm, 129, rfl⟩
abbrev main_c_9 : Ref sig .tc := ⟨.hbm, 130, rfl⟩
abbrev main_v98 : Ref sig .tc := ⟨.hbm, 131, rfl⟩
abbrev main_v99 : Ref sig .tc := ⟨.hbm, 132, rfl⟩
abbrev main_c_10 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_11 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call6_cst : Ref sig .tc := ⟨.hbm, 152, rfl⟩
abbrev main_call6_v0 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_call7_cst : Ref sig .tc := ⟨.hbm, 163, rfl⟩
abbrev main_call7_v0 : Ref sig .tc := ⟨.hbm, 164, rfl⟩
abbrev main_v126 : Ref sig .tc := ⟨.hbm, 165, rfl⟩
abbrev main_c_12 : Ref sig .tc := ⟨.hbm, 166, rfl⟩
abbrev main_v127 : Ref sig .tc := ⟨.hbm, 167, rfl⟩
abbrev main_v128 : Ref sig .tc := ⟨.hbm, 168, rfl⟩
abbrev main_c_13 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_14 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_call8_cst : Ref sig .tc := ⟨.hbm, 188, rfl⟩
abbrev main_call8_v0 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_call9_cst : Ref sig .tc := ⟨.hbm, 199, rfl⟩
abbrev main_call9_v0 : Ref sig .tc := ⟨.hbm, 200, rfl⟩
abbrev main_v155 : Ref sig .tc := ⟨.hbm, 201, rfl⟩
abbrev main_cst_15 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  reducesTo_S100000x128_S128_d0 : S100000x128.ReducesTo [0] S128
  h_S_ : 0 < S_.numel
  gather_S100000x128_S100000x1_S100000x128_1_0_n_n_0_1_1128_wf : GatherDims.WF S100000x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

class Facts : Prop extends Facts₀ where

variable [Facts]
-- ==== Proof.WordLayer0.lean ====
/-
  Region 0 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one GIN layer on a block of 2000 rows, at the contents `V` the region is entered with -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (where it is not fetched the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (where it is not fetched the
    block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (where it is not fetched the
    block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (where it is not fetched the
    block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (where it is not fetched the
    block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (where it is not fetched the
    block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The one store of the body: the whole 2000×128 output block. -/
abbrev rOut0 : Rect S2000x128 := (Rect.unit (s := S2000x128) ![0, 0] S2000x128.size inb_S2000x128_S2000x128_0_0)

/-- What the body leaves in the output window's buffer: the layer's value on the block's rows, from the two row blocks,
    the two weight matrices and the two bias rows. -/
def out0_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut0, k0_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover0_6 (p0 : Vec F S2000x128 .f32) (y : S2000x128.Idx) :
    ∃ pc ∈ ([⟨rOut0, p0⟩] : List (View.Piece (Elt F) S2000x128 .f32)), y ∈ pc.1.set :=
  View.cover_of_tiled [⟨rOut0, p0⟩] S2000x128.size (by rfl) y

set_option maxHeartbeats 4000000 in
/-- The body on whole staging memrefs: the six inputs keep their contents, the output ends at `out0_6` of them. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)
/-- The proof data of pipeline 0 on core `c`: the arrays as the region finds them; after the body each input's buffer at
    its block and the output's at the layer's value of the input blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.WordLayer1.lean ====
/-
  Region 1 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one GIN layer on a block of 2000 rows, at the contents `V` the region is entered with -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not fetched the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not fetched the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (where it is not fetched the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (where it is not fetched the
    block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (where it is not fetched the
    block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (where it is not fetched the
    block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The one store of the body: the whole 2000×128 output block. -/
abbrev rOut1 : Rect S2000x128 := (Rect.unit (s := S2000x128) ![0, 0] S2000x128.size inb_S2000x128_S2000x128_0_0)

/-- What the body leaves in the output window's buffer: the layer's value on the block's rows, from the two row blocks,
    the two weight matrices and the two bias rows. -/
def out1_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut1, k1_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover1_6 (p0 : Vec F S2000x128 .f32) (y : S2000x128.Idx) :
    ∃ pc ∈ ([⟨rOut1, p0⟩] : List (View.Piece (Elt F) S2000x128 .f32)), y ∈ pc.1.set :=
  View.cover_of_tiled [⟨rOut1, p0⟩] S2000x128.size (by rfl) y

set_option maxHeartbeats 4000000 in
/-- The body on whole staging memrefs: the six inputs keep their contents, the output ends at `out1_6` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)
/-- The proof data of pipeline 1 on core `c`: the arrays as the region finds them; after the body each input's buffer at
    its block and the output's at the layer's value of the input blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.WordLayer2.lean ====
/-
  Region 2 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one GIN layer on a block of 2000 rows, at the contents `V` the region is entered with -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (where it is not fetched the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (where it is not fetched the
    block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (where it is not fetched the
    block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (where it is not fetched the
    block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (where it is not fetched the
    block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (where it is not fetched the
    block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The one store of the body: the whole 2000×128 output block. -/
abbrev rOut2 : Rect S2000x128 := (Rect.unit (s := S2000x128) ![0, 0] S2000x128.size inb_S2000x128_S2000x128_0_0)

/-- What the body leaves in the output window's buffer: the layer's value on the block's rows, from the two row blocks,
    the two weight matrices and the two bias rows. -/
def out2_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut2, k2_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover2_6 (p0 : Vec F S2000x128 .f32) (y : S2000x128.Idx) :
    ∃ pc ∈ ([⟨rOut2, p0⟩] : List (View.Piece (Elt F) S2000x128 .f32)), y ∈ pc.1.set :=
  View.cover_of_tiled [⟨rOut2, p0⟩] S2000x128.size (by rfl) y

set_option maxHeartbeats 4000000 in
/-- The body on whole staging memrefs: the six inputs keep their contents, the output ends at `out2_6` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)
/-- The proof data of pipeline 2 on core `c`: the arrays as the region finds them; after the body each input's buffer at
    its block and the output's at the layer's value of the input blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.WordLayer3.lean ====
/-
  Region 3 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one GIN layer on a block of 2000 rows, at the contents `V` the region is entered with -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (where it is not fetched the
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (where it is not fetched the
    block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (where it is not fetched the
    block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not (where it is not fetched the
    block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not (where it is not fetched the
    block index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not (where it is not fetched the
    block index has not moved). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The one store of the body: the whole 2000×128 output block. -/
abbrev rOut3 : Rect S2000x128 := (Rect.unit (s := S2000x128) ![0, 0] S2000x128.size inb_S2000x128_S2000x128_0_0)

/-- What the body leaves in the output window's buffer: the layer's value on the block's rows, from the two row blocks,
    the two weight matrices and the two bias rows. -/
def out3_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut3, k3_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover3_6 (p0 : Vec F S2000x128 .f32) (y : S2000x128.Idx) :
    ∃ pc ∈ ([⟨rOut3, p0⟩] : List (View.Piece (Elt F) S2000x128 .f32)), y ∈ pc.1.set :=
  View.cover_of_tiled [⟨rOut3, p0⟩] S2000x128.size (by rfl) y

set_option maxHeartbeats 4000000 in
/-- The body on whole staging memrefs: the six inputs keep their contents, the output ends at `out3_6` of them. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gin_layer_kernel i arg1 harg1 arg2 harg2 arg3 harg3 arg4 harg4 arg5 harg5 arg6 harg6 arg7 harg7) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)
/-- The proof data of pipeline 3 on core `c`: the arrays as the region finds them; after the body each input's buffer at
    its block and the output's at the layer's value of the input blocks; nothing carried between points, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Gen

end
-- ==== Proof.WordLayer4.lean ====
/-
  Region 4 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: one GIN layer on a block of 2000 rows, at the contents `V` the region is entered with -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (where it is not fetched the
    block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (where it is not fetched the
    block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (where it is not fetched the
    block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (where it is not fetched the
    block index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (where it is not fetched the
    block index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not (where it is not fetched the
    block index has not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The one store of the body: the whole 2000×128 output block. -/
abbrev rOut4 : Rect S2000x128 := (Rect.unit (s := S2000x128) ![0, 0] S2000x128.size inb_S2000x128_S2000x128_0_0)

/-- What the body leaves in the output window's buffer: the layer's value on the block's rows, from the two row blocks,
    the two weight matrices and the two bias rows. -/
def out4_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut4, k4_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover4_6 (p0 : Vec F S2000x128 .f32) (y : S2000x128.Idx) :
    ∃ pc ∈ ([⟨rOut4, p0⟩] : List (View.Piece (Elt F) S2000x128 .f32)), y ∈ pc.1.set :=
  View.cover_of_tiled [⟨rOut4, p0⟩] S2000x128.size (by rfl) y

set_option maxHeartbeats 4000000 in
/-- The body on whole staging memrefs: the six inputs keep their contents, the output ends at `out4_6` of them. -/
theorem sound_kernel4 (c : Dev nD) (E : Set ℕ) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__gin_layer_kernel i arg1 harg1 arg2 harg2 arg3 harg3 arg4 harg4 arg5 harg5 arg6 harg6 arg7 harg7) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)
/-- The proof data of pipeline 4 on core `c`: the arrays as the region finds them; after the body each input's buffer at
    its block and the output's at the layer's value of the input blocks; nothing carried between points, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 1000000 in
/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Gen

end
-- ==== Proof.WordPoolBody.lean ====
/-
  The pool call's body and its proof data (region 5), at any float instance.

  The kernel runs over 50 row blocks of `h` (2000 × 128 each) with a 1 × 128 accumulator of its own: at the first block
  the accumulator is zeroed; at every block the block's column sums are added to it; at the last block the accumulated
  row is multiplied by the 128 × 128 weights, the bias row is added, and the result is stored to the 1 × 128 output,
  whose window is written back there only and is idle at every other point.

  Here: the two branch conditions in closed form over the grid; the body's triple in each of the three cases they
  leave (first point, a middle point, last point) — every access is of a whole buffer, so each buffer ends at the
  stored payload itself —; the accumulation by recursion on the point; the region invariant carrying the accumulator;
  the proof data, its body obligation, and the invariant's two ends; and the value the region leaves in its output
  array. Everything is stated at a parameter `V`, the TensorCore's buffer contents when the region is entered.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pool kernel's two branch conditions, over the grid -/

/-- The condition of the body's first branch (the accumulator is zeroed under it), from the grid coordinate:
    the kernel's scalar chain `(coordinate = 0)` widened and compared against zero. -/
abbrev cond5_0 (i : grid5.Coords) : Prop :=
  (Scalar.cmpi .ne (Scalar.extui (Scalar.cmpi .eq (BitVec.ofNat 32 (i 0).val) 0#32)) 0#32) = 1#1

/-- It holds at the first point only. -/
theorem hcond5_0 : ∀ t : Fin cfg5.N, cond5_0 (grid5.coords t) ↔ t.val = 0 :=
  (by decide +kernel : ∀ t : Fin grid5.N, cond5_0 (grid5.coords t) ↔ t.val = 0)

/-- The condition of the body's second branch (the output is stored under it). -/
abbrev cond5_1 (i : grid5.Coords) : Prop := k5_cond2 i = 1#1

/-- It holds at the last point only. -/
theorem hcond5_1 : ∀ t : Fin cfg5.N, cond5_1 (grid5.coords t) ↔ t.val = 49 :=
  (by decide +kernel : ∀ t : Fin grid5.N, cond5_1 (grid5.coords t) ↔ t.val = 49)

/-! ## The body's triple, case by case

Every load and every store of the body goes through the whole-buffer rectangle at zero offsets, so a load reads the
buffer's contents and a store leaves its payload: what each buffer holds afterwards is the payload itself. -/

/-- The zero offsets of a rank-2 access, as a constant function. -/
theorem zeroOff5 : (![0, 0] : Fin 2 → Nat) = fun _ => 0 := funext fun a => by fin_cases a <;> rfl

/-- The one piece of a whole-buffer store covers the buffer. -/
theorem coverWhole5 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 4000000 in
/-- CASE A (the first point: the first branch taken, the second not). The accumulator, at anything, is zeroed, read
    back and left at the zero row plus the block's column sums; the inputs and the output's buffer are as they were. -/
theorem pool_body_A (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond5_0 i) (hc1 : ¬cond5_1 i)
    (x0 : Vec F S2000x128 .f32) (x1 : Vec F S128x128 .f32) (x2 : Vec F S1x128 .f32) (y : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare y ∗ owns (c : Thread nD τ) arg5 fullShare (k5_pay2 k5_pay1 x0)) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1
  sl_exec (disch := first | exact hc0 | exact hc1)
  sl_step
  iapply Hk
  isplitl [H1]
  · iexists _; isplitr; · ipureintro; exact harg1.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_run_names
  rw [View.read_writes_eq_canon _ _ _ (coverWhole5 zeroOff5 _ _ _), View.canon_cons_unit_zero zeroOff5]
  rw [View.readCov_unit_zero _ zeroOff5]
  simp only [View.readAt_eq_ld, harg1.read_unread, View.ld_unit_zero (S := S2000x128) zeroOff5]

set_option maxHeartbeats 4000000 in
/-- CASE B (a point strictly between the first and the last: neither branch taken). The accumulator at `a` is left
    at `a` plus the block's column sums; everything else is as it was. -/
theorem pool_body_B (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond5_0 i) (hc1 : ¬cond5_1 i)
    (x0 : Vec F S2000x128 .f32) (x1 : Vec F S128x128 .f32) (x2 : Vec F S1x128 .f32) (y : Vec F S1x128 .f32) (a : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare y ∗ owns (c : Thread nD τ) arg5 fullShare (k5_pay2 a x0)) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (coverWhole5 zeroOff5 _ _ _), View.canon_unit_zero zeroOff5]
  simp only [View.readAt_eq_ld, harg1.read_unread, harg5.read_unread, View.ld_unit_zero (S := S1x128) zeroOff5,
    View.ld_unit_zero (S := S2000x128) zeroOff5]

set_option maxHeartbeats 4000000 in
/-- CASE C (the last point: the first branch not taken, the second taken). The accumulator at `a` is left at `a` plus
    the block's column sums, and the output's buffer, at anything, at that row times the weights plus the bias. -/
theorem pool_body_C (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond5_0 i) (hc1 : cond5_1 i)
    (x0 : Vec F S2000x128 .f32) (x1 : Vec F S128x128 .f32) (x2 : Vec F S1x128 .f32) (a : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (k5_pay3 (k5_pay2 a x0) x1 x2) ∗ owns (c : Thread nD τ) arg5 fullShare (k5_pay2 a x0)) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverWhole5 zeroOff5 _ _ _), View.canon_unit_zero zeroOff5]
    rw [View.readCov_unit_zero _ zeroOff5]
    simp only [View.readAt_eq_ld, harg1.read_unread, harg2.read_unread, harg3.read_unread, harg5.read_unread,
      View.ld_unit_zero (S := S1x128) zeroOff5, View.ld_unit_zero (S := S2000x128) zeroOff5, View.ld_unit_zero (S := S128x128) zeroOff5]
  iexists _; isplitr
  swap; · iexact H5
  ipureintro
  sl_unfold_run_names
  rw [View.read_writes_eq_canon _ _ _ (coverWhole5 zeroOff5 _ _ _), View.canon_unit_zero zeroOff5]
  simp only [View.readAt_eq_ld, harg1.read_unread, harg5.read_unread, View.ld_unit_zero (S := S1x128) zeroOff5,
    View.ld_unit_zero (S := S2000x128) zeroOff5]

/-! ## The region's proof data, at the contents `V` the region is entered with -/

section Region5

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block of `h` (window 0, fetched at every point): its current staging buffer holds its block, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weights (window 1, fetched at the first point only: its block index never moves, so the buffer still holds
    the block at every later point). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The bias row (window 2, fetched at the first point only). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ### The accumulation -/

/-- What the accumulator holds after the body at point `n`: the zero row plus the first block's column sums, then
    each later block's column sums added in point order. -/
def accAt5 (c : Dev nD) : (n : ℕ) → n < cfg5.N → Vec F S1x128 .f32
  | 0, hn => k5_pay2 k5_pay1 (iblk5 V c 0 ⟨0, hn⟩)
  | n + 1, hn => k5_pay2 (accAt5 c n (Nat.lt_of_succ_lt hn)) (iblk5 V c 0 ⟨n + 1, hn⟩)

/-- At the first point. -/
theorem accAt5_zero (c : Dev nD) (t : Fin cfg5.N) (h0 : t.val = 0) :
    accAt5 V c t.val t.isLt = k5_pay2 k5_pay1 (iblk5 V c 0 t) := by
  obtain ⟨n, hn⟩ := t
  cases n with
  | zero => rfl
  | succ n => exact absurd h0 (Nat.succ_ne_zero n)

/-- At a later point: the point before's, plus this block's column sums. -/
theorem accAt5_pos (c : Dev nD) (t : Fin cfg5.N) (h0 : t.val ≠ 0) :
    accAt5 V c t.val t.isLt
      = k5_pay2 (accAt5 V c (t.val - 1) (Nat.lt_of_le_of_lt (Nat.sub_le _ _) t.isLt)) (iblk5 V c 0 t) := by
  obtain ⟨n, hn⟩ := t
  cases n with
  | zero => exact absurd rfl h0
  | succ n => rfl

/-! ### The invariant -/

/-- The accumulator: the call's own scratch operand, a whole scoped buffer. -/
abbrev scM5 : Memref sig .tc .vmem S1x128 .f32 := Memref.whole cc5_scratch0

/-- The class's invariant with the accumulator as a memref owned at some contents, beside the scoped rest it is
    split from and the generator register. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The region invariant before position `n`: before the first point the class's (the accumulator at anything);
    afterwards the accumulator at what the point before left in it, the other scoped buffers and the generator
    register as the class has them. -/
def Phi5 (c : Dev nD) : (n : ℕ) → n ≤ cfg5.N → sProp 𝕄
  | 0, _ => Pipeline.ΦA spec5 c
  | n + 1, hn => iprop(iprop(owns (c : Thread nD τ) scM5 fullShare (accAt5 V c n hn) ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(iprop(owns (c : Thread nD τ) scM5 fullShare (accAt5 V c n hn) ∗ Pipeline.scopedRestBut (Ix := Unit) (Name := ℕ) (U := UR sig nD τ) (Lvl := ℕ) (Val := Elt F) spec5 c [cc5_scratch0]) ∗ (∃ r, prngReg c r)) := rfl

theorem Phi5_pos (c : Dev nD) (n : ℕ) (h : n ≤ cfg5.N) (hz : n ≠ 0) :
    Phi5 V c n h = iprop(iprop(owns (c : Thread nD τ) scM5 fullShare (accAt5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ### The proof data -/

/-- The proof data of the pool call on core `c`: the arrays as the region finds them; after the body at point `t` each
    input's buffer at its block, and the output's at the accumulated row times the weights plus the bias (what the
    last point stores; at the other points, where the window is idle and not written back, nothing consults it); the
    invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (accAt5 V c t.val t.isLt) (iblk5 V c 1 t) (iblk5 V c 2 t)
  Φ t := Phi5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay3 (accAt5 V c t.val t.isLt) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ### Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
/-- Off the last point the output's window is idle (the body stores nothing into it), -/
theorem idleAt5_3 : ∀ t : Fin cfg5.N, ¬cond5_1 (grid5.coords t) → cfg5.idle 3 (grid5.coords t) = true := by decide +kernel
/-- and the pipeline does not write its block back; -/
theorem noFlush5_3 : ∀ t : Fin cfg5.N, ¬cond5_1 (grid5.coords t) → (cfg5.win 3).flush t = false := by decide +kernel
/-- at the last point it is live. -/
theorem liveAt5_3 : ∀ t : Fin cfg5.N, cond5_1 (grid5.coords t) → cfg5.idle 3 (grid5.coords t) = false := by decide +kernel

/-! ### The body obligation -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The inputs' memrefs hold their blocks; the closed forms of the two conditions say which
    case the point is in; the invariant hands the body the accumulator at what the point before left (at anything at
    the first point) and takes it back at this point's contents; off the last point the output's buffer is handed
    back as it was found, at the last point it holds the stored row; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Phi5 V c (t.val + 1) t.isLt from rfl, Phi5_succ]
  have hN : t.val < 50 := lt_of_lt_of_eq t.isLt (show cfg5.N = 50 from N_5)
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  rw [show (dat5 V c).leavesExact 2 t = owns (c : Thread nD τ) (st5_2 t) fullShare ((dat5 V c).after 2 t) from by
    unfold Dat.leavesExact; rw [liveAt5_2 t], after5_2]
  by_cases h0 : t.val = 0
  · have h1 : ¬t.val = 49 := by omega
    have hc0 : cond5_0 (grid5.coords t) := (hcond5_0 t).mpr h0
    have hc1 : ¬cond5_1 (grid5.coords t) := fun h => h1 ((hcond5_1 t).mp h)
    rw [Dat.leavesExact_idle (dat5 V c) 3 t (idleAt5_3 t hc1) (noFlush5_3 t hc1)]
    rw [accAt5_zero V c t h0, Phi5_castSucc V c t, Phi5_zero V c _ _ h0, PhiA5_eq]
    iintro ⟨⟨⟨HS, HR⟩, Hg⟩, Ho, ⟨%d0, H0⟩, ⟨%d1, H1⟩, ⟨%d2, H2⟩, ⟨%d3, H3⟩⟩
    iapply (pool_body_A c Set.univ (grid5.coords t) _ _ _ _ _ _ _ _ _ _ hc0 hc1 (iblk5 V c 0 t) (iblk5 V c 1 t) (iblk5 V c 2 t)
      ((dat5 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · by_cases h1 : t.val = 49
    · have hc0 : ¬cond5_0 (grid5.coords t) := fun h => h0 ((hcond5_0 t).mp h)
      have hc1 : cond5_1 (grid5.coords t) := (hcond5_1 t).mpr h1
      rw [show (dat5 V c).leavesExact 3 t = owns (c : Thread nD τ) (st5_3 t) fullShare ((dat5 V c).after 3 t) from by
        unfold Dat.leavesExact; rw [liveAt5_3 t hc1], after5_3]
      rw [accAt5_pos V c t h0, Phi5_castSucc V c t, Phi5_pos V c _ _ h0]
      iintro ⟨⟨⟨HS, HR⟩, Hg⟩, Ho, ⟨%d0, H0⟩, ⟨%d1, H1⟩, ⟨%d2, H2⟩, ⟨%d3, H3⟩⟩
      iapply (pool_body_C c Set.univ (grid5.coords t) _ _ _ _ _ _ _ _ _ _ hc0 hc1 (iblk5 V c 0 t) (iblk5 V c 1 t) (iblk5 V c 2 t)
        (accAt5 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc0 : ¬cond5_0 (grid5.coords t) := fun h => h0 ((hcond5_0 t).mp h)
      have hc1 : ¬cond5_1 (grid5.coords t) := fun h => h1 ((hcond5_1 t).mp h)
      rw [Dat.leavesExact_idle (dat5 V c) 3 t (idleAt5_3 t hc1) (noFlush5_3 t hc1)]
      rw [accAt5_pos V c t h0, Phi5_castSucc V c t, Phi5_pos V c _ _ h0]
      iintro ⟨⟨⟨HS, HR⟩, Hg⟩, Ho, ⟨%d0, H0⟩, ⟨%d1, H1⟩, ⟨%d2, H2⟩, ⟨%d3, H3⟩⟩
      iapply (pool_body_B c Set.univ (grid5.coords t) _ _ _ _ _ _ _ _ _ _ hc0 hc1 (iblk5 V c 0 t) (iblk5 V c 1 t) (iblk5 V c 2 t)
        ((dat5 V c).before 3 t d3) (accAt5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = Phi5 V c 0 (Nat.zero_le _) from rfl, Phi5_zero V c 0 _ rfl]
  try exact Idealize.SL.BI.Entails.refl _

/-- After any point but the first the invariant gives the class's back: what the accumulator holds is forgotten. -/
theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi5_out V c _ (by rw [Fin.val_last]; have : cfg5.N = 50 := N_5; omega)

/-! ### The value the region leaves in its output array -/

/-- The last point of the grid. -/
def tLast5 : Fin cfg5.N := ⟨49, by rw [show cfg5.N = 50 from N_5]; decide⟩

/-- The accumulated row after the last point times the weights plus the bias, as contents of the 1 × 128 output
    array (its one block is the whole array). -/
abbrev result5 (c : Dev nD) : Buf (Elt F) ((c : Thread nD τ).loc main_v117) :=
  k5_pay3 (accAt5 V c 49 tLast5.isLt) (iblk5 V c 1 tLast5) (iblk5 V c 2 tLast5)

/-- The one write-back, at the last point, writes it: block (0, 0) of the 1 × 128 array through zero offsets is the array. -/
theorem flushed5_eq (c : Dev nD) (t : Fin cfg5.N) (hf : (cfg5.win 3).flush t = true) :
    (dat5 V c).flushed 3 t = ((cfg5.win 3).blk t).view.read (Elt F) (result5 V c) := by
  have hN : cfg5.N = 50 := N_5
  have h49 : t.val = 49 := by have := (flush5_3 t).mp hf; have := t.isLt; omega
  obtain rfl : t = tLast5 := Fin.ext h49
  show (cfg5.win 3).cut (grid5.coords tLast5) ((dat5 V c).after 3 tLast5) = _
  rw [after5_3]
  have hz' : (fun a => win5_3.index tLast5 a * main_v117.ty.shape.size a) = fun _ => 0 := funext fun a => by fin_cases a <;> decide +kernel
  exact (Memref.read_access_unit_zero (Elt F) main_v117 hz' (fun a => by rw [congrFun hz' a]; simp) (result5 V c)).symm

/-- So the output array ends holding that row: the last point's block covers it. -/
theorem final5 (c : Dev nD) : (dat5 V c).arrAt 3 cfg5.N = result5 V c :=
  (dat5 V c).arrAt_eq_of_cover 3 (result5 V c) (flushed5_eq V c) fun i =>
    ⟨tLast5, (flush5_3 tLast5).mpr rfl, by
      show i ∈ ((View.whole main_v117).slice (win5_3.rect tLast5)).set
      rw [View.set_slice_whole, Rect.mem_set_unit]
      intro a
      have h0 : (i 0 : Nat) < 1 := (i 0).isLt
      have h1 : (i 1 : Nat) < 128 := (i 1).isLt
      match a with
      | ⟨0, _⟩ => show win5_3.index tLast5 0 * win5_3.size 0 ≤ (i 0 : Nat) ∧ (i 0 : Nat) < win5_3.index tLast5 0 * win5_3.size 0 + win5_3.xsize (grid5.coords tLast5) 0
                  rw [show win5_3.index tLast5 0 * win5_3.size 0 = 0 from by decide +kernel, show win5_3.xsize (grid5.coords tLast5) 0 = 1 from by decide +kernel]; omega
      | ⟨1, _⟩ => show win5_3.index tLast5 1 * win5_3.size 1 ≤ (i 1 : Nat) ∧ (i 1 : Nat) < win5_3.index tLast5 1 * win5_3.size 1 + win5_3.xsize (grid5.coords tLast5) 1
                  rw [show win5_3.index tLast5 1 * win5_3.size 1 = 0 from by decide +kernel, show win5_3.xsize (grid5.coords tLast5) 1 = 128 from by decide +kernel]; omega⟩

/-- The weights' window reads the whole 128 × 128 array at every point (its block index is constant zero). -/
theorem iblk5_1_eq (c : Dev nD) (t : Fin cfg5.N) : iblk5 V c 1 t = V c main_arg7 := by
  unfold iblk5
  have hz' : (fun a => win5_1.index t a * main_arg7.ty.shape.size a) = fun _ => 0 := funext fun a => by fin_cases a <;> rfl
  exact Memref.read_access_unit_zero (Elt F) main_arg7 hz' (fun a => by rw [congrFun hz' a]; simp) (V c main_arg7)

/-- The bias row's window reads the whole 1 × 128 array at every point. -/
theorem iblk5_2_eq (c : Dev nD) (t : Fin cfg5.N) : iblk5 V c 2 t = V c main_v116 := by
  unfold iblk5
  have hz' : (fun a => win5_2.index t a * main_v116.ty.shape.size a) = fun _ => 0 := funext fun a => by fin_cases a <;> rfl
  exact Memref.read_access_unit_zero (Elt F) main_v116 hz' (fun a => by rw [congrFun hz' a]; simp) (V c main_v116)

end Region5

end Cert.Kernel.Gen

end
-- ==== Proof.WordRun.lean ====
/-
  The whole program as a chain of segments: six stretches of host operations alternating with the six kernel regions.
  The contents of every unscoped buffer are followed through the chain as a fold from the launch memory — a stretch of
  host operations applies its operations, a region replaces its output array by what its write-backs leave and keeps
  every other buffer — so that at the end each argument is read back unchanged (no stretch and no region writes one) and
  the result buffer is the last region's one written block.
-/
import proofs.«136333_j35605278884121_1_alg».proof.Proof.Gen.Kernel.Launch
import proofs.«136333_j35605278884121_1_alg».proof.Proof.Gen.Kernel.Skeleton
import proofs.«136333_j35605278884121_1_alg».proof.Proof.Gen.Kernel.Points
import proofs.«136333_j35605278884121_1_alg».proof.Proof.Gen.Kernel.Regions
import proofs.«136333_j35605278884121_1_alg».proof.Proof.WordLayer0
import proofs.«136333_j35605278884121_1_alg».proof.Proof.WordLayer1
import proofs.«136333_j35605278884121_1_alg».proof.Proof.WordLayer2
import proofs.«136333_j35605278884121_1_alg».proof.Proof.WordLayer3
import proofs.«136333_j35605278884121_1_alg».proof.Proof.WordLayer4
import proofs.«136333_j35605278884121_1_alg».proof.Proof.WordPoolBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev Wc0 : Dev nD → Valuation τ sig (Elt F) := fun c b => m ((c : Dev nD), b)
/-- After the host operations before region 0: what region 0 is entered with. -/
abbrev Wc1 : Dev nD → Valuation τ sig (Elt F) := fun c => StableHlo.after hostOps0 (Wc0 m c)
/-- The same, read at the TensorCore's references. -/
abbrev Vc1 : (c : Dev nD) → (b : Ref sig .tc) → Buf (Elt F) ((c : Thread nD τ).loc b) := fun c b => Wc1 m c b
/-- At region 0's exit: its arrays at what its write-backs leave, every other buffer as entered. -/
def Wc2 (c : Dev nD) : Valuation τ sig (Elt F) :=
  Pipeline.withArrays spec0 c (Wc1 m c) fun w => (dat0 (Vc1 m) c).arrAt w cfg0.N
theorem Wc2_arr (c : Dev nD) (w : Fin cfg0.W) :
    Wc2 m c (Proc.devRef .tc (Pipeline.arrRef spec0 w)) = (dat0 (Vc1 m) c).arrAt w cfg0.N := by
  unfold Wc2; exact Pipeline.withArrays_arr spec0 launch0.win.arr_inj c _ _ w
theorem Wc2_of_ne (c : Dev nD) (b : Ref sig .tc) (hb : ∀ w, Pipeline.arrRef spec0 w ≠ b) :
    Wc2 m c (Proc.devRef .tc b) = Wc1 m c (Proc.devRef .tc b) := by
  unfold Wc2; exact Pipeline.withArrays_of_ne spec0 c _ _ b hb
abbrev Vc2 : (c : Dev nD) → (b : Ref sig .tc) → Buf (Elt F) ((c : Thread nD τ).loc b) := fun c b => Wc2 m c b
theorem hF0 (c : Dev nD) (w : Fin cfg0.W) : (dat0 (Vc1 m) c).arrAt w cfg0.N = Vc2 m c (Pipeline.arrRef spec0 w) :=
  (Wc2_arr m c w).symm
theorem hrest0 (c : Dev nD) : ∀ b, b ∉ Finset.univ.image (Pipeline.arrRef spec0) → Vc2 m c b = Vc1 m c b :=
  fun b hb => Wc2_of_ne m c b fun w e => hb (Finset.mem_image.mpr ⟨w, Finset.mem_univ _, e⟩)
/-- A buffer the host operations before region 0 do not write keeps its contents across them. -/
theorem Wc1_of (c : Dev nD) (r : Ref sig .tc) (h : r ∉ hostOps0_W) : Wc1 m c (Proc.devRef .tc r) = Wc0 m c (Proc.devRef .tc r) :=
  StableHlo.after_of_writes_sub hostOps0 _ hostOps0_writes h

/-- After the host operations before region 1: what region 1 is entered with. -/
abbrev Wc3 : Dev nD → Valuation τ sig (Elt F) := fun c => StableHlo.after hostOps1 (Wc2 m c)
/-- The same, read at the TensorCore's references. -/
abbrev Vc3 : (c : Dev nD) → (b : Ref sig .tc) → Buf (Elt F) ((c : Thread nD τ).loc b) := fun c b => Wc3 m c b
/-- At region 1's exit: its arrays at what its write-backs leave, every other buffer as entered. -/
def Wc4 (c : Dev nD) : Valuation τ sig (Elt F) :=
  Pipeline.withArrays spec1 c (Wc3 m c) fun w => (dat1 (Vc3 m) c).arrAt w cfg1.N
theorem Wc4_arr (c : Dev nD) (w : Fin cfg1.W) :
    Wc4 m c (Proc.devRef .tc (Pipeline.arrRef spec1 w)) = (dat1 (Vc3 m) c).arrAt w cfg1.N := by
  unfold Wc4; exact Pipeline.withArrays_arr spec1 launch1.win.arr_inj c _ _ w
theorem Wc4_of_ne (c : Dev nD) (b : Ref sig .tc) (hb : ∀ w, Pipeline.arrRef spec1 w ≠ b) :
    Wc4 m c (Proc.devRef .tc b) = Wc3 m c (Proc.devRef .tc b) := by
  unfold Wc4; exact Pipeline.withArrays_of_ne spec1 c _ _ b hb
abbrev Vc4 : (c : Dev nD) → (b : Ref sig .tc) → Buf (Elt F) ((c : Thread nD τ).loc b) := fun c b => Wc4 m c b
theorem hF1 (c : Dev nD) (w : Fin cfg1.W) : (dat1 (Vc3 m) c).arrAt w cfg1.N = Vc4 m c (Pipeline.arrRef spec1 w) :=
  (Wc4_arr m c w).symm
theorem hrest1 (c : Dev nD) : ∀ b, b ∉ Finset.univ.image (Pipeline.arrRef spec1) → Vc4 m c b = Vc3 m c b :=
  fun b hb => Wc4_of_ne m c b fun w e => hb (Finset.mem_image.mpr ⟨w, Finset.mem_univ _, e⟩)
/-- A buffer the host operations before region 1 do not write keeps its contents across them. -/
theorem Wc3_of (c : Dev nD) (r : Ref sig .tc) (h : r ∉ hostOps1_W) : Wc3 m c (Proc.devRef .tc r) = Wc2 m c (Proc.devRef .tc r) :=
  StableHlo.after_of_writes_sub hostOps1 _ hostOps1_writes h

/-- After the host operations before region 2: what region 2 is entered with. -/
abbrev Wc5 : Dev nD → Valuation τ sig (Elt F) := fun c => StableHlo.after hostOps2 (Wc4 m c)
/-- The same, read at the TensorCore's references. -/
abbrev Vc5 : (c : Dev nD) → (b : Ref sig .tc) → Buf (Elt F) ((c : Thread nD τ).loc b) := fun c b => Wc5 m c b
/-- At region 2's exit: its arrays at what its write-backs leave, every other buffer as entered. -/
def Wc6 (c : Dev nD) : Valuation τ sig (Elt F) :=
  Pipeline.withArrays spec2 c (Wc5 m c) fun w => (dat2 (Vc5 m) c).arrAt w cfg2.N
theorem Wc6_arr (c : Dev nD) (w : Fin cfg2.W) :
    Wc6 m c (Proc.devRef .tc (Pipeline.arrRef spec2 w)) = (dat2 (Vc5 m) c).arrAt w cfg2.N := by
  unfold Wc6; exact Pipeline.withArrays_arr spec2 launch2.win.arr_inj c _ _ w
theorem Wc6_of_ne (c : Dev nD) (b : Ref sig .tc) (hb : ∀ w, Pipeline.arrRef spec2 w ≠ b) :
    Wc6 m c (Proc.devRef .tc b) = Wc5 m c (Proc.devRef .tc b) := by
  unfold Wc6; exact Pipeline.withArrays_of_ne spec2 c _ _ b hb
abbrev Vc6 : (c : Dev nD) → (b : Ref sig .tc) → Buf (Elt F) ((c : Thread nD τ).loc b) := fun c b => Wc6 m c b
theorem hF2 (c : Dev nD) (w : Fin cfg2.W) : (dat2 (Vc5 m) c).arrAt w cfg2.N = Vc6 m c (Pipeline.arrRef spec2 w) :=
  (Wc6_arr m c w).symm
theorem hrest2 (c : Dev nD) : ∀ b, b ∉ Finset.univ.image (Pipeline.arrRef spec2) → Vc6 m c b = Vc5 m c b :=
  fun b hb => Wc6_of_ne m c b fun w e => hb (Finset.mem_image.mpr ⟨w, Finset.mem_univ _, e⟩)
/-- A buffer the host operations before region 2 do not write keeps its contents across them. -/
theorem Wc5_of (c : Dev nD) (r : Ref sig .tc) (h : r ∉ hostOps2_W) : Wc5 m c (Proc.devRef .tc r) = Wc4 m c (Proc.devRef .tc r) :=
  StableHlo.after_of_writes_sub hostOps2 _ hostOps2_writes h

/-- After the host operations before region 3: what region 3 is entered with. -/
abbrev Wc7 : Dev nD → Valuation τ sig (Elt F) := fun c => StableHlo.after hostOps3 (Wc6 m c)
/-- The same, read at the TensorCore's references. -/
abbrev Vc7 : (c : Dev nD) → (b : Ref sig .tc) → Buf (Elt F) ((c : Thread nD τ).loc b) := fun c b => Wc7 m c b
/-- At region 3's exit: its arrays at what its write-backs leave, every other buffer as entered. -/
def Wc8 (c : Dev nD) : Valuation τ sig (Elt F) :=
  Pipeline.withArrays spec3 c (Wc7 m c) fun w => (dat3 (Vc7 m) c).arrAt w cfg3.N
theorem Wc8_arr (c : Dev nD) (w : Fin cfg3.W) :
    Wc8 m c (Proc.devRef .tc (Pipeline.arrRef spec3 w)) = (dat3 (Vc7 m) c).arrAt w cfg3.N := by
  unfold Wc8; exact Pipeline.withArrays_arr spec3 launch3.win.arr_inj c _ _ w
theorem Wc8_of_ne (c : Dev nD) (b : Ref sig .tc) (hb : ∀ w, Pipeline.arrRef spec3 w ≠ b) :
    Wc8 m c (Proc.devRef .tc b) = Wc7 m c (Proc.devRef .tc b) := by
  unfold Wc8; exact Pipeline.withArrays_of_ne spec3 c _ _ b hb
abbrev Vc8 : (c : Dev nD) → (b : Ref sig .tc) → Buf (Elt F) ((c : Thread nD τ).loc b) := fun c b => Wc8 m c b
theorem hF3 (c : Dev nD) (w : Fin cfg3.W) : (dat3 (Vc7 m) c).arrAt w cfg3.N = Vc8 m c (Pipeline.arrRef spec3 w) :=
  (Wc8_arr m c w).symm
theorem hrest3 (c : Dev nD) : ∀ b, b ∉ Finset.univ.image (Pipeline.arrRef spec3) → Vc8 m c b = Vc7 m c b :=
  fun b hb => Wc8_of_ne m c b fun w e => hb (Finset.mem_image.mpr ⟨w, Finset.mem_univ _, e⟩)
/-- A buffer the host operations before region 3 do not write keeps its contents across them. -/
theorem Wc7_of (c : Dev nD) (r : Ref sig .tc) (h : r ∉ hostOps3_W) : Wc7 m c (Proc.devRef .tc r) = Wc6 m c (Proc.devRef .tc r) :=
  StableHlo.after_of_writes_sub hostOps3 _ hostOps3_writes h

/-- After the host operations before region 4: what region 4 is entered with. -/
abbrev Wc9 : Dev nD → Valuation τ sig (Elt F) := fun c => StableHlo.after hostOps4 (Wc8 m c)
/-- The same, read at the TensorCore's references. -/
abbrev Vc9 : (c : Dev nD) → (b : Ref sig .tc) → Buf (Elt F) ((c : Thread nD τ).loc b) := fun c b => Wc9 m c b
/-- At region 4's exit: its arrays at what its write-backs leave, every other buffer as entered. -/
def Wc10 (c : Dev nD) : Valuation τ sig (Elt F) :=
  Pipeline.withArrays spec4 c (Wc9 m c) fun w => (dat4 (Vc9 m) c).arrAt w cfg4.N
theorem Wc10_arr (c : Dev nD) (w : Fin cfg4.W) :
    Wc10 m c (Proc.devRef .tc (Pipeline.arrRef spec4 w)) = (dat4 (Vc9 m) c).arrAt w cfg4.N := by
  unfold Wc10; exact Pipeline.withArrays_arr spec4 launch4.win.arr_inj c _ _ w
theorem Wc10_of_ne (c : Dev nD) (b : Ref sig .tc) (hb : ∀ w, Pipeline.arrRef spec4 w ≠ b) :
    Wc10 m c (Proc.devRef .tc b) = Wc9 m c (Proc.devRef .tc b) := by
  unfold Wc10; exact Pipeline.withArrays_of_ne spec4 c _ _ b hb
abbrev Vc10 : (c : Dev nD) → (b : Ref sig .tc) → Buf (Elt F) ((c : Thread nD τ).loc b) := fun c b => Wc10 m c b
theorem hF4 (c : Dev nD) (w : Fin cfg4.W) : (dat4 (Vc9 m) c).arrAt w cfg4.N = Vc10 m c (Pipeline.arrRef spec4 w) :=
  (Wc10_arr m c w).symm
theorem hrest4 (c : Dev nD) : ∀ b, b ∉ Finset.univ.image (Pipeline.arrRef spec4) → Vc10 m c b = Vc9 m c b :=
  fun b hb => Wc10_of_ne m c b fun w e => hb (Finset.mem_image.mpr ⟨w, Finset.mem_univ _, e⟩)
/-- A buffer the host operations before region 4 do not write keeps its contents across them. -/
theorem Wc9_of (c : Dev nD) (r : Ref sig .tc) (h : r ∉ hostOps4_W) : Wc9 m c (Proc.devRef .tc r) = Wc8 m c (Proc.devRef .tc r) :=
  StableHlo.after_of_writes_sub hostOps4 _ hostOps4_writes h

/-- After the host operations before region 5: what region 5 is entered with. -/
abbrev Wc11 : Dev nD → Valuation τ sig (Elt F) := fun c => StableHlo.after hostOps5 (Wc10 m c)
/-- The same, read at the TensorCore's references. -/
abbrev Vc11 : (c : Dev nD) → (b : Ref sig .tc) → Buf (Elt F) ((c : Thread nD τ).loc b) := fun c b => Wc11 m c b
/-- At region 5's exit: its arrays at what its write-backs leave, every other buffer as entered. -/
def Wc12 (c : Dev nD) : Valuation τ sig (Elt F) :=
  Pipeline.withArrays spec5 c (Wc11 m c) fun w => (dat5 (Vc11 m) c).arrAt w cfg5.N
theorem Wc12_arr (c : Dev nD) (w : Fin cfg5.W) :
    Wc12 m c (Proc.devRef .tc (Pipeline.arrRef spec5 w)) = (dat5 (Vc11 m) c).arrAt w cfg5.N := by
  unfold Wc12; exact Pipeline.withArrays_arr spec5 launch5.win.arr_inj c _ _ w
theorem Wc12_of_ne (c : Dev nD) (b : Ref sig .tc) (hb : ∀ w, Pipeline.arrRef spec5 w ≠ b) :
    Wc12 m c (Proc.devRef .tc b) = Wc11 m c (Proc.devRef .tc b) := by
  unfold Wc12; exact Pipeline.withArrays_of_ne spec5 c _ _ b hb
abbrev Vc12 : (c : Dev nD) → (b : Ref sig .tc) → Buf (Elt F) ((c : Thread nD τ).loc b) := fun c b => Wc12 m c b
theorem hF5 (c : Dev nD) (w : Fin cfg5.W) : (dat5 (Vc11 m) c).arrAt w cfg5.N = Vc12 m c (Pipeline.arrRef spec5 w) :=
  (Wc12_arr m c w).symm
theorem hrest5 (c : Dev nD) : ∀ b, b ∉ Finset.univ.image (Pipeline.arrRef spec5) → Vc12 m c b = Vc11 m c b :=
  fun b hb => Wc12_of_ne m c b fun w e => hb (Finset.mem_image.mpr ⟨w, Finset.mem_univ _, e⟩)
/-- A buffer the host operations before region 5 do not write keeps its contents across them. -/
theorem Wc11_of (c : Dev nD) (r : Ref sig .tc) (h : r ∉ hostOps5_W) : Wc11 m c (Proc.devRef .tc r) = Wc10 m c (Proc.devRef .tc r) :=
  StableHlo.after_of_writes_sub hostOps5 _ hostOps5_writes h

/-! ### No host operation and no region writes an argument: the fold at an argument walks back to the launch memory -/

theorem Wc12_main_arg0 (c : Dev nD) : Wc12 m c (Proc.devRef .tc main_arg0) = m ((c : Thread nD τ).loc main_arg0) :=
  calc Wc12 m c (Proc.devRef .tc main_arg0)
    _ = Wc11 m c (Proc.devRef .tc main_arg0) := Wc12_of_ne m c main_arg0 (by decide)
    _ = Wc10 m c (Proc.devRef .tc main_arg0) := Wc11_of m c main_arg0 (by decide)
    _ = Wc9 m c (Proc.devRef .tc main_arg0) := Wc10_of_ne m c main_arg0 (by decide)
    _ = Wc8 m c (Proc.devRef .tc main_arg0) := Wc9_of m c main_arg0 (by decide)
    _ = Wc7 m c (Proc.devRef .tc main_arg0) := Wc8_of_ne m c main_arg0 (by decide)
    _ = Wc6 m c (Proc.devRef .tc main_arg0) := Wc7_of m c main_arg0 (by decide)
    _ = Wc5 m c (Proc.devRef .tc main_arg0) := Wc6_of_ne m c main_arg0 (by decide)
    _ = Wc4 m c (Proc.devRef .tc main_arg0) := Wc5_of m c main_arg0 (by decide)
    _ = Wc3 m c (Proc.devRef .tc main_arg0) := Wc4_of_ne m c main_arg0 (by decide)
    _ = Wc2 m c (Proc.devRef .tc main_arg0) := Wc3_of m c main_arg0 (by decide)
    _ = Wc1 m c (Proc.devRef .tc main_arg0) := Wc2_of_ne m c main_arg0 (by decide)
    _ = Wc0 m c (Proc.devRef .tc main_arg0) := Wc1_of m c main_arg0 (by decide)
    _ = m ((c : Thread nD τ).loc main_arg0) := rfl

theorem Wc12_main_arg1 (c : Dev nD) : Wc12 m c (Proc.devRef .tc main_arg1) = m ((c : Thread nD τ).loc main_arg1) :=
  calc Wc12 m c (Proc.devRef .tc main_arg1)
    _ = Wc11 m c (Proc.devRef .tc main_arg1) := Wc12_of_ne m c main_arg1 (by decide)
    _ = Wc10 m c (Proc.devRef .tc main_arg1) := Wc11_of m c main_arg1 (by decide)
    _ = Wc9 m c (Proc.devRef .tc main_arg1) := Wc10_of_ne m c main_arg1 (by decide)
    _ = Wc8 m c (Proc.devRef .tc main_arg1) := Wc9_of m c main_arg1 (by decide)
    _ = Wc7 m c (Proc.devRef .tc main_arg1) := Wc8_of_ne m c main_arg1 (by decide)
    _ = Wc6 m c (Proc.devRef .tc main_arg1) := Wc7_of m c main_arg1 (by decide)
    _ = Wc5 m c (Proc.devRef .tc main_arg1) := Wc6_of_ne m c main_arg1 (by decide)
    _ = Wc4 m c (Proc.devRef .tc main_arg1) := Wc5_of m c main_arg1 (by decide)
    _ = Wc3 m c (Proc.devRef .tc main_arg1) := Wc4_of_ne m c main_arg1 (by decide)
    _ = Wc2 m c (Proc.devRef .tc main_arg1) := Wc3_of m c main_arg1 (by decide)
    _ = Wc1 m c (Proc.devRef .tc main_arg1) := Wc2_of_ne m c main_arg1 (by decide)
    _ = Wc0 m c (Proc.devRef .tc main_arg1) := Wc1_of m c main_arg1 (by decide)
    _ = m ((c : Thread nD τ).loc main_arg1) := rfl

theorem Wc12_main_arg2 (c : Dev nD) : Wc12 m c (Proc.devRef .tc main_arg2) = m ((c : Thread nD τ).loc main_arg2) :=
  calc Wc12 m c (Proc.devRef .tc main_arg2)
    _ = Wc11 m c (Proc.devRef .tc main_arg2) := Wc12_of_ne m c main_arg2 (by decide)
    _ = Wc10 m c (Proc.devRef .tc main_arg2) := Wc11_of m c main_arg2 (by decide)
    _ = Wc9 m c (Proc.devRef .tc main_arg2) := Wc10_of_ne m c main_arg2 (by decide)
    _ = Wc8 m c (Proc.devRef .tc main_arg2) := Wc9_of m c main_arg2 (by decide)
    _ = Wc7 m c (Proc.devRef .tc main_arg2) := Wc8_of_ne m c main_arg2 (by decide)
    _ = Wc6 m c (Proc.devRef .tc main_arg2) := Wc7_of m c main_arg2 (by decide)
    _ = Wc5 m c (Proc.devRef .tc main_arg2) := Wc6_of_ne m c main_arg2 (by decide)
    _ = Wc4 m c (Proc.devRef .tc main_arg2) := Wc5_of m c main_arg2 (by decide)
    _ = Wc3 m c (Proc.devRef .tc main_arg2) := Wc4_of_ne m c main_arg2 (by decide)
    _ = Wc2 m c (Proc.devRef .tc main_arg2) := Wc3_of m c main_arg2 (by decide)
    _ = Wc1 m c (Proc.devRef .tc main_arg2) := Wc2_of_ne m c main_arg2 (by decide)
    _ = Wc0 m c (Proc.devRef .tc main_arg2) := Wc1_of m c main_arg2 (by decide)
    _ = m ((c : Thread nD τ).loc main_arg2) := rfl

theorem Wc12_main_arg3 (c : Dev nD) : Wc12 m c (Proc.devRef .tc main_arg3) = m ((c : Thread nD τ).loc main_arg3) :=
  calc Wc12 m c (Proc.devRef .tc main_arg3)
    _ = Wc11 m c (Proc.devRef .tc main_arg3) := Wc12_of_ne m c main_arg3 (by decide)
    _ = Wc10 m c (Proc.devRef .tc main_arg3) := Wc11_of m c main_arg3 (by decide)
    _ = Wc9 m c (Proc.devRef .tc main_arg3) := Wc10_of_ne m c main_arg3 (by decide)
    _ = Wc8 m c (Proc.devRef .tc main_arg3) := Wc9_of m c main_arg3 (by decide)
    _ = Wc7 m c (Proc.devRef .tc main_arg3) := Wc8_of_ne m c main_arg3 (by decide)
    _ = Wc6 m c (Proc.devRef .tc main_arg3) := Wc7_of m c main_arg3 (by decide)
    _ = Wc5 m c (Proc.devRef .tc main_arg3) := Wc6_of_ne m c main_arg3 (by decide)
    _ = Wc4 m c (Proc.devRef .tc main_arg3) := Wc5_of m c main_arg3 (by decide)
    _ = Wc3 m c (Proc.devRef .tc main_arg3) := Wc4_of_ne m c main_arg3 (by decide)
    _ = Wc2 m c (Proc.devRef .tc main_arg3) := Wc3_of m c main_arg3 (by decide)
    _ = Wc1 m c (Proc.devRef .tc main_arg3) := Wc2_of_ne m c main_arg3 (by decide)
    _ = Wc0 m c (Proc.devRef .tc main_arg3) := Wc1_of m c main_arg3 (by decide)
    _ = m ((c : Thread nD τ).loc main_arg3) := rfl

theorem Wc12_main_arg4 (c : Dev nD) : Wc12 m c (Proc.devRef .tc main_arg4) = m ((c : Thread nD τ).loc main_arg4) :=
  calc Wc12 m c (Proc.devRef .tc main_arg4)
    _ = Wc11 m c (Proc.devRef .tc main_arg4) := Wc12_of_ne m c main_arg4 (by decide)
    _ = Wc10 m c (Proc.devRef .tc main_arg4) := Wc11_of m c main_arg4 (by decide)
    _ = Wc9 m c (Proc.devRef .tc main_arg4) := Wc10_of_ne m c main_arg4 (by decide)
    _ = Wc8 m c (Proc.devRef .tc main_arg4) := Wc9_of m c main_arg4 (by decide)
    _ = Wc7 m c (Proc.devRef .tc main_arg4) := Wc8_of_ne m c main_arg4 (by decide)
    _ = Wc6 m c (Proc.devRef .tc main_arg4) := Wc7_of m c main_arg4 (by decide)
    _ = Wc5 m c (Proc.devRef .tc main_arg4) := Wc6_of_ne m c main_arg4 (by decide)
    _ = Wc4 m c (Proc.devRef .tc main_arg4) := Wc5_of m c main_arg4 (by decide)
    _ = Wc3 m c (Proc.devRef .tc main_arg4) := Wc4_of_ne m c main_arg4 (by decide)
    _ = Wc2 m c (Proc.devRef .tc main_arg4) := Wc3_of m c main_arg4 (by decide)
    _ = Wc1 m c (Proc.devRef .tc main_arg4) := Wc2_of_ne m c main_arg4 (by decide)
    _ = Wc0 m c (Proc.devRef .tc main_arg4) := Wc1_of m c main_arg4 (by decide)
    _ = m ((c : Thread nD τ).loc main_arg4) := rfl

theorem Wc12_main_arg5 (c : Dev nD) : Wc12 m c (Proc.devRef .tc main_arg5) = m ((c : Thread nD τ).loc main_arg5) :=
  calc Wc12 m c (Proc.devRef .tc main_arg5)
    _ = Wc11 m c (Proc.devRef .tc main_arg5) := Wc12_of_ne m c main_arg5 (by decide)
    _ = Wc10 m c (Proc.devRef .tc main_arg5) := Wc11_of m c main_arg5 (by decide)
    _ = Wc9 m c (Proc.devRef .tc main_arg5) := Wc10_of_ne m c main_arg5 (by decide)
    _ = Wc8 m c (Proc.devRef .tc main_arg5) := Wc9_of m c main_arg5 (by decide)
    _ = Wc7 m c (Proc.devRef .tc main_arg5) := Wc8_of_ne m c main_arg5 (by decide)
    _ = Wc6 m c (Proc.devRef .tc main_arg5) := Wc7_of m c main_arg5 (by decide)
    _ = Wc5 m c (Proc.devRef .tc main_arg5) := Wc6_of_ne m c main_arg5 (by decide)
    _ = Wc4 m c (Proc.devRef .tc main_arg5) := Wc5_of m c main_arg5 (by decide)
    _ = Wc3 m c (Proc.devRef .tc main_arg5) := Wc4_of_ne m c main_arg5 (by decide)
    _ = Wc2 m c (Proc.devRef .tc main_arg5) := Wc3_of m c main_arg5 (by decide)
    _ = Wc1 m c (Proc.devRef .tc main_arg5) := Wc2_of_ne m c main_arg5 (by decide)
    _ = Wc0 m c (Proc.devRef .tc main_arg5) := Wc1_of m c main_arg5 (by decide)
    _ = m ((c : Thread nD τ).loc main_arg5) := rfl

theorem Wc12_main_arg6 (c : Dev nD) : Wc12 m c (Proc.devRef .tc main_arg6) = m ((c : Thread nD τ).loc main_arg6) :=
  calc Wc12 m c (Proc.devRef .tc main_arg6)
    _ = Wc11 m c (Proc.devRef .tc main_arg6) := Wc12_of_ne m c main_arg6 (by decide)
    _ = Wc10 m c (Proc.devRef .tc main_arg6) := Wc11_of m c main_arg6 (by decide)
    _ = Wc9 m c (Proc.devRef .tc main_arg6) := Wc10_of_ne m c main_arg6 (by decide)
    _ = Wc8 m c (Proc.devRef .tc main_arg6) := Wc9_of m c main_arg6 (by decide)
    _ = Wc7 m c (Proc.devRef .tc main_arg6) := Wc8_of_ne m c main_arg6 (by decide)
    _ = Wc6 m c (Proc.devRef .tc main_arg6) := Wc7_of m c main_arg6 (by decide)
    _ = Wc5 m c (Proc.devRef .tc main_arg6) := Wc6_of_ne m c main_arg6 (by decide)
    _ = Wc4 m c (Proc.devRef .tc main_arg6) := Wc5_of m c main_arg6 (by decide)
    _ = Wc3 m c (Proc.devRef .tc main_arg6) := Wc4_of_ne m c main_arg6 (by decide)
    _ = Wc2 m c (Proc.devRef .tc main_arg6) := Wc3_of m c main_arg6 (by decide)
    _ = Wc1 m c (Proc.devRef .tc main_arg6) := Wc2_of_ne m c main_arg6 (by decide)
    _ = Wc0 m c (Proc.devRef .tc main_arg6) := Wc1_of m c main_arg6 (by decide)
    _ = m ((c : Thread nD τ).loc main_arg6) := rfl

theorem Wc12_main_arg7 (c : Dev nD) : Wc12 m c (Proc.devRef .tc main_arg7) = m ((c : Thread nD τ).loc main_arg7) :=
  calc Wc12 m c (Proc.devRef .tc main_arg7)
    _ = Wc11 m c (Proc.devRef .tc main_arg7) := (Wc12_arr m c 1).trans (((dat5 (Vc11 m) c).arrAt_in 1 rfl _).trans (A_eq5 (Vc11 m) c 1))
    _ = Wc10 m c (Proc.devRef .tc main_arg7) := Wc11_of m c main_arg7 (by decide)
    _ = Wc9 m c (Proc.devRef .tc main_arg7) := Wc10_of_ne m c main_arg7 (by decide)
    _ = Wc8 m c (Proc.devRef .tc main_arg7) := Wc9_of m c main_arg7 (by decide)
    _ = Wc7 m c (Proc.devRef .tc main_arg7) := Wc8_of_ne m c main_arg7 (by decide)
    _ = Wc6 m c (Proc.devRef .tc main_arg7) := Wc7_of m c main_arg7 (by decide)
    _ = Wc5 m c (Proc.devRef .tc main_arg7) := Wc6_of_ne m c main_arg7 (by decide)
    _ = Wc4 m c (Proc.devRef .tc main_arg7) := Wc5_of m c main_arg7 (by decide)
    _ = Wc3 m c (Proc.devRef .tc main_arg7) := Wc4_of_ne m c main_arg7 (by decide)
    _ = Wc2 m c (Proc.devRef .tc main_arg7) := Wc3_of m c main_arg7 (by decide)
    _ = Wc1 m c (Proc.devRef .tc main_arg7) := Wc2_of_ne m c main_arg7 (by decide)
    _ = Wc0 m c (Proc.devRef .tc main_arg7) := Wc1_of m c main_arg7 (by decide)
    _ = m ((c : Thread nD τ).loc main_arg7) := rfl

theorem Wc12_main_arg8 (c : Dev nD) : Wc12 m c (Proc.devRef .tc main_arg8) = m ((c : Thread nD τ).loc main_arg8) :=
  calc Wc12 m c (Proc.devRef .tc main_arg8)
    _ = Wc11 m c (Proc.devRef .tc main_arg8) := Wc12_of_ne m c main_arg8 (by decide)
    _ = Wc10 m c (Proc.devRef .tc main_arg8) := Wc11_of m c main_arg8 (by decide)
    _ = Wc9 m c (Proc.devRef .tc main_arg8) := Wc10_of_ne m c main_arg8 (by decide)
    _ = Wc8 m c (Proc.devRef .tc main_arg8) := Wc9_of m c main_arg8 (by decide)
    _ = Wc7 m c (Proc.devRef .tc main_arg8) := Wc8_of_ne m c main_arg8 (by decide)
    _ = Wc6 m c (Proc.devRef .tc main_arg8) := Wc7_of m c main_arg8 (by decide)
    _ = Wc5 m c (Proc.devRef .tc main_arg8) := Wc6_of_ne m c main_arg8 (by decide)
    _ = Wc4 m c (Proc.devRef .tc main_arg8) := Wc5_of m c main_arg8 (by decide)
    _ = Wc3 m c (Proc.devRef .tc main_arg8) := Wc4_of_ne m c main_arg8 (by decide)
    _ = Wc2 m c (Proc.devRef .tc main_arg8) := Wc3_of m c main_arg8 (by decide)
    _ = Wc1 m c (Proc.devRef .tc main_arg8) := Wc2_of_ne m c main_arg8 (by decide)
    _ = Wc0 m c (Proc.devRef .tc main_arg8) := Wc1_of m c main_arg8 (by decide)
    _ = m ((c : Thread nD τ).loc main_arg8) := rfl

/-- The result buffer ends at what the last region's one write-back leaves. -/
theorem Wc12_main_v117 (c : Dev nD) : Wc12 m c (Proc.devRef .tc main_v117) = (dat5 (Vc11 m) c).arrAt 3 cfg5.N :=
  Wc12_arr m c 3

/-! ## The proof data of the six pipelines, and the thread state -/

/-- Every pipeline's proof data, each at the contents its region is entered with. -/
def pdats : (p : Fin 6) → (c : Dev nD) → Dat τ (Elt F) Unit ℕ (UR sig nD τ) ℕ (Pipeline.pin (pcfgs (F := F)) adm p) c
  | ⟨0, _⟩ => fun c => dat0 (Vc1 m) c
  | ⟨1, _⟩ => fun c => dat1 (Vc3 m) c
  | ⟨2, _⟩ => fun c => dat2 (Vc5 m) c
  | ⟨3, _⟩ => fun c => dat3 (Vc7 m) c
  | ⟨4, _⟩ => fun c => dat4 (Vc9 m) c
  | ⟨5, _⟩ => fun c => dat5 (Vc11 m) c
abbrev 𝒱r : Variants := Variants.none
/-- No core owes another anything. -/
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment over the unscoped buffers from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (Wc12 m c) ∗ ∃ r, prngReg c r)

/-! ## The regions as segments -/

set_option backward.isDefEq.respectTransparency.types false in
/-- Region 0 over the thread state: entered with every unscoped buffer at `Wc1`, left with them at `Wc2`; its arrays are
    split out of the unscoped buffers and put back at what the write-backs leave; the generator register goes into the
    region's invariant and comes back; nothing is owed and the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vc1 m) c).loose
  hwaits := Pipeline.hwaits_of_owed_zero _ _ _ _ Lr lvr 0 fun _ _ => rfl
  pre c := iprop(StableHlo.held (c : Thread nD τ) (Pipeline.ucRefs τ sig) (Wc1 m c) ∗ Rr c)
  post c := iprop(StableHlo.held (c : Thread nD τ) (Pipeline.ucRefs τ sig) (Wc2 m c) ∗ Rr c)
  X c := iprop(∃ r, prngReg c r)
  Y c := iprop(∃ r, prngReg c r)
  Z c := Pipeline.unscopedRest (Ix := Unit) (Name := ℕ) (U := UR sig nD τ) (Lvl := ℕ) spec0 c (Vc1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vc1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vc1 m c) (Vc2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wc3`, left with them at `Wc4`; its arrays are
    split out of the unscoped buffers and put back at what the write-backs leave; the generator register goes into the
    region's invariant and comes back; nothing is owed and the kernel has no semaphore of its own. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Vc3 m) c).loose
  hwaits := Pipeline.hwaits_of_owed_zero _ _ _ _ Lr lvr 1 fun _ _ => rfl
  pre c := iprop(StableHlo.held (c : Thread nD τ) (Pipeline.ucRefs τ sig) (Wc3 m c) ∗ Rr c)
  post c := iprop(StableHlo.held (c : Thread nD τ) (Pipeline.ucRefs τ sig) (Wc4 m c) ∗ Rr c)
  X c := iprop(∃ r, prngReg c r)
  Y c := iprop(∃ r, prngReg c r)
  Z c := Pipeline.unscopedRest (Ix := Unit) (Name := ℕ) (U := UR sig nD τ) (Lvl := ℕ) spec1 c (Vc3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc3 m c) (Vc4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wc5`, left with them at `Wc6`; its arrays are
    split out of the unscoped buffers and put back at what the write-backs leave; the generator register goes into the
    region's invariant and comes back; nothing is owed and the kernel has no semaphore of its own. -/
def reg2 : Pipeline.RegionSeg (pcfgs (F := F)) adm (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Vc5 m) c).loose
  hwaits := Pipeline.hwaits_of_owed_zero _ _ _ _ Lr lvr 2 fun _ _ => rfl
  pre c := iprop(StableHlo.held (c : Thread nD τ) (Pipeline.ucRefs τ sig) (Wc5 m c) ∗ Rr c)
  post c := iprop(StableHlo.held (c : Thread nD τ) (Pipeline.ucRefs τ sig) (Wc6 m c) ∗ Rr c)
  X c := iprop(∃ r, prngReg c r)
  Y c := iprop(∃ r, prngReg c r)
  Z c := Pipeline.unscopedRest (Ix := Unit) (Name := ℕ) (U := UR sig nD τ) (Lvl := ℕ) spec2 c (Vc5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vc5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vc5 m c) (Vc6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `Wc7`, left with them at `Wc8`; its arrays are
    split out of the unscoped buffers and put back at what the write-backs leave; the generator register goes into the
    region's invariant and comes back; nothing is owed and the kernel has no semaphore of its own. -/
def reg3 : Pipeline.RegionSeg (pcfgs (F := F)) adm (pdats m) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (Vc7 m) c).loose
  hwaits := Pipeline.hwaits_of_owed_zero _ _ _ _ Lr lvr 3 fun _ _ => rfl
  pre c := iprop(StableHlo.held (c : Thread nD τ) (Pipeline.ucRefs τ sig) (Wc7 m c) ∗ Rr c)
  post c := iprop(StableHlo.held (c : Thread nD τ) (Pipeline.ucRefs τ sig) (Wc8 m c) ∗ Rr c)
  X c := iprop(∃ r, prngReg c r)
  Y c := iprop(∃ r, prngReg c r)
  Z c := Pipeline.unscopedRest (Ix := Unit) (Name := ℕ) (U := UR sig nD τ) (Lvl := ℕ) spec3 c (Vc7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vc7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vc7 m c) (Vc8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `Wc9`, left with them at `Wc10`; its arrays are
    split out of the unscoped buffers and put back at what the write-backs leave; the generator register goes into the
    region's invariant and comes back; nothing is owed and the kernel has no semaphore of its own. -/
def reg4 : Pipeline.RegionSeg (pcfgs (F := F)) adm (pdats m) () defs₀ 𝒱r Lr lvr 4 where
  win := launch4.win.to₀
  block_pos := launch4.block_pos
  stage_whole := launch4.stage_whole
  K := PEmpty
  osem k := k.elim
  ho := Pipeline.OwnSemFacts.none _
  hbody c := (body_obligation4 (Vc9 m) c).loose
  hwaits := Pipeline.hwaits_of_owed_zero _ _ _ _ Lr lvr 4 fun _ _ => rfl
  pre c := iprop(StableHlo.held (c : Thread nD τ) (Pipeline.ucRefs τ sig) (Wc9 m c) ∗ Rr c)
  post c := iprop(StableHlo.held (c : Thread nD τ) (Pipeline.ucRefs τ sig) (Wc10 m c) ∗ Rr c)
  X c := iprop(∃ r, prngReg c r)
  Y c := iprop(∃ r, prngReg c r)
  Z c := Pipeline.unscopedRest (Ix := Unit) (Name := ℕ) (U := UR sig nD τ) (Lvl := ℕ) spec4 c (Vc9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vc9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vc9 m c) (Vc10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `Wc11`, left with them at `Wc12`; its arrays are
    split out of the unscoped buffers and put back at what the write-backs leave; the generator register goes into the
    region's invariant and comes back; nothing is owed and the kernel has no semaphore of its own. -/
def reg5 : Pipeline.RegionSeg (pcfgs (F := F)) adm (pdats m) () defs₀ 𝒱r Lr lvr 5 where
  win := launch5.win.to₀
  block_pos := launch5.block_pos
  stage_whole := launch5.stage_whole
  K := PEmpty
  osem k := k.elim
  ho := Pipeline.OwnSemFacts.none _
  hbody c := (body_obligation5 (Vc11 m) c).loose
  hwaits := Pipeline.hwaits_of_owed_zero _ _ _ _ Lr lvr 5 fun _ _ => rfl
  pre c := iprop(StableHlo.held (c : Thread nD τ) (Pipeline.ucRefs τ sig) (Wc11 m c) ∗ Rr c)
  post c := iprop(StableHlo.held (c : Thread nD τ) (Pipeline.ucRefs τ sig) (Wc12 m c) ∗ Rr c)
  X c := iprop(∃ r, prngReg c r)
  Y c := iprop(∃ r, prngReg c r)
  Z c := Pipeline.unscopedRest (Ix := Unit) (Name := ℕ) (U := UR sig nD τ) (Lvl := ℕ) spec5 c (Vc11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vc11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 5).pre c (fun _ => fullShare) (adm (F := F) 5).1 ∗ Pipeline.scopedRest spec5 c) ⊢ (Pipeline.ΦA spec5 c : sProp 𝕄) from by
      unfold Pipeline.ΦA
      iintro ⟨Hp, -, Hr⟩
      isplitl [Hr]; · iexact Hr
      iexact Hp).trans (hin5 (Vc11 m) c)
  hout c := (hout5 (Vc11 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vc11 m c) (Vc12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsr : List (Pipeline.Seg (pcfgs (F := F)) adm (pdats m) () defs₀ 𝒱r Lr lvr) :=
  [ .host (hsegr hostOps0 hostOps0_sub hostOps0_fresh (Wc0 m)),
    .region (reg0 m),
    .host (hsegr hostOps1 hostOps1_sub hostOps1_fresh (Wc2 m)),
    .region (reg1 m),
    .host (hsegr hostOps2 hostOps2_sub hostOps2_fresh (Wc4 m)),
    .region (reg2 m),
    .host (hsegr hostOps3 hostOps3_sub hostOps3_fresh (Wc6 m)),
    .region (reg3 m),
    .host (hsegr hostOps4 hostOps4_sub hostOps4_fresh (Wc8 m)),
    .region (reg4 m),
    .host (hsegr hostOps5 hostOps5_sub hostOps5_fresh (Wc10 m)),
    .region (reg5 m) ]
/-- @main is the run of the segments. -/
theorem main_runr (c : Dev nD) : main (F := F) c = Pipeline.Seg.run (segsr m) := (main_chain c).trans (by chain_rfl)

set_option backward.isDefEq.respectTransparency.types false in
/-- THE RUN: from any memory with zero counters every weakly fair execution of @main terminates, nothing faulting, and in
    every final state each unscoped buffer of each core holds what the fold computes for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc12 m c b) :=
  Pipeline.θ_run_regions_kit (pcfgs (F := F)) adm (pdats m) () cellOf_inj emb₁ defs₀ 𝒱r Lr lvr m ρ main (segsr m)
    (fun c Q => by rw [main_runr m c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wc0 m c) ∗ Rr c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (Wc12 m c) ∗ Rr c) ⊢ (iprop(Tlast m c ∗ ∃ W, owes (c.tc : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach Lr lvr fun c => ?_
      rw [show unscopedBufs c (fun b => m ((c : Thread nD τ).loc b)) = StableHlo.held (c : Thread nD τ) (Pipeline.ucRefs τ sig) (Wc0 m c)
        from Pipeline.unscopedBufs_held c (Wc0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc12 m c b)
    (hfin := fun c s' => by
      iintro ⟨⟨Hh, -⟩, HSI⟩
      unfold StableHlo.held
      imodintro
      iapply (pointsTo_read_all (Pipeline.ucRefs τ sig) (fun b => (((c : Thread nD τ)).1, b)) (Wc12 m c) s')
      isplitl [Hh] <;> iassumption)
    (hQ := fun s h c => h c)

/-- THE FRAME with the result: every argument array ends as launched, and the result buffer at what the last region's
    write-back leaves. -/
theorem run_result : θ_run defs (onTc (τ := τ) (main (F := F))) ⟨m, fun _ => 0, ρ⟩ (fun r => ∀ c : Dev nD,
      r.2.mem ((c.tc : Thread nD τ).loc main_v117) = (dat5 (Vc11 m) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_ucr main_v117 (by decide))).trans (Wc12_main_v117 m c),
     (h c _ (mem_ucr main_arg0 (by decide))).trans (Wc12_main_arg0 m c),
     (h c _ (mem_ucr main_arg1 (by decide))).trans (Wc12_main_arg1 m c),
     (h c _ (mem_ucr main_arg2 (by decide))).trans (Wc12_main_arg2 m c),
     (h c _ (mem_ucr main_arg3 (by decide))).trans (Wc12_main_arg3 m c),
     (h c _ (mem_ucr main_arg4 (by decide))).trans (Wc12_main_arg4 m c),
     (h c _ (mem_ucr main_arg5 (by decide))).trans (Wc12_main_arg5 m c),
     (h c _ (mem_ucr main_arg6 (by decide))).trans (Wc12_main_arg6 m c),
     (h c _ (mem_ucr main_arg7 (by decide))).trans (Wc12_main_arg7 m c),
     (h c _ (mem_ucr main_arg8 (by decide))).trans (Wc12_main_arg8 m c)⟩)
    (run_all m ρ)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Gen

end
-- ==== Proof.IdealLayer0.lean ====
/-
  Region 0 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one GIN layer on a block of 2000 rows, at the contents `V` the region is entered with -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (where it is not fetched the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (where it is not fetched the
    block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (where it is not fetched the
    block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (where it is not fetched the
    block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (where it is not fetched the
    block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (where it is not fetched the
    block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The one store of the body: the whole 2000×128 output block. -/
abbrev rOut0 : Rect S2000x128 := (Rect.unit (s := S2000x128) ![0, 0] S2000x128.size inb_S2000x128_S2000x128_0_0)

/-- What the body leaves in the output window's buffer: the layer's value on the block's rows, from the two row blocks,
    the two weight matrices and the two bias rows. -/
def out0_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut0, k0_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover0_6 (p0 : Vec F S2000x128 .f32) (y : S2000x128.Idx) :
    ∃ pc ∈ ([⟨rOut0, p0⟩] : List (View.Piece (Elt F) S2000x128 .f32)), y ∈ pc.1.set :=
  View.cover_of_tiled [⟨rOut0, p0⟩] S2000x128.size (by rfl) y

set_option maxHeartbeats 4000000 in
/-- The body on whole staging memrefs: the six inputs keep their contents, the output ends at `out0_6` of them. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)
/-- The proof data of pipeline 0 on core `c`: the arrays as the region finds them; after the body each input's buffer at
    its block and the output's at the layer's value of the input blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.IdealLayer1.lean ====
/-
  Region 1 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one GIN layer on a block of 2000 rows, at the contents `V` the region is entered with -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not fetched the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not fetched the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (where it is not fetched the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (where it is not fetched the
    block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (where it is not fetched the
    block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (where it is not fetched the
    block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The one store of the body: the whole 2000×128 output block. -/
abbrev rOut1 : Rect S2000x128 := (Rect.unit (s := S2000x128) ![0, 0] S2000x128.size inb_S2000x128_S2000x128_0_0)

/-- What the body leaves in the output window's buffer: the layer's value on the block's rows, from the two row blocks,
    the two weight matrices and the two bias rows. -/
def out1_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut1, k1_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover1_6 (p0 : Vec F S2000x128 .f32) (y : S2000x128.Idx) :
    ∃ pc ∈ ([⟨rOut1, p0⟩] : List (View.Piece (Elt F) S2000x128 .f32)), y ∈ pc.1.set :=
  View.cover_of_tiled [⟨rOut1, p0⟩] S2000x128.size (by rfl) y

set_option maxHeartbeats 4000000 in
/-- The body on whole staging memrefs: the six inputs keep their contents, the output ends at `out1_6` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)
/-- The proof data of pipeline 1 on core `c`: the arrays as the region finds them; after the body each input's buffer at
    its block and the output's at the layer's value of the input blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.IdealLayer2.lean ====
/-
  Region 2 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one GIN layer on a block of 2000 rows, at the contents `V` the region is entered with -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (where it is not fetched the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (where it is not fetched the
    block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (where it is not fetched the
    block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (where it is not fetched the
    block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (where it is not fetched the
    block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (where it is not fetched the
    block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The one store of the body: the whole 2000×128 output block. -/
abbrev rOut2 : Rect S2000x128 := (Rect.unit (s := S2000x128) ![0, 0] S2000x128.size inb_S2000x128_S2000x128_0_0)

/-- What the body leaves in the output window's buffer: the layer's value on the block's rows, from the two row blocks,
    the two weight matrices and the two bias rows. -/
def out2_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut2, k2_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover2_6 (p0 : Vec F S2000x128 .f32) (y : S2000x128.Idx) :
    ∃ pc ∈ ([⟨rOut2, p0⟩] : List (View.Piece (Elt F) S2000x128 .f32)), y ∈ pc.1.set :=
  View.cover_of_tiled [⟨rOut2, p0⟩] S2000x128.size (by rfl) y

set_option maxHeartbeats 4000000 in
/-- The body on whole staging memrefs: the six inputs keep their contents, the output ends at `out2_6` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)
/-- The proof data of pipeline 2 on core `c`: the arrays as the region finds them; after the body each input's buffer at
    its block and the output's at the layer's value of the input blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.IdealLayer3.lean ====
/-
  Region 3 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one GIN layer on a block of 2000 rows, at the contents `V` the region is entered with -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (where it is not fetched the
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (where it is not fetched the
    block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (where it is not fetched the
    block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not (where it is not fetched the
    block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not (where it is not fetched the
    block index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not (where it is not fetched the
    block index has not moved). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The one store of the body: the whole 2000×128 output block. -/
abbrev rOut3 : Rect S2000x128 := (Rect.unit (s := S2000x128) ![0, 0] S2000x128.size inb_S2000x128_S2000x128_0_0)

/-- What the body leaves in the output window's buffer: the layer's value on the block's rows, from the two row blocks,
    the two weight matrices and the two bias rows. -/
def out3_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut3, k3_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover3_6 (p0 : Vec F S2000x128 .f32) (y : S2000x128.Idx) :
    ∃ pc ∈ ([⟨rOut3, p0⟩] : List (View.Piece (Elt F) S2000x128 .f32)), y ∈ pc.1.set :=
  View.cover_of_tiled [⟨rOut3, p0⟩] S2000x128.size (by rfl) y

set_option maxHeartbeats 4000000 in
/-- The body on whole staging memrefs: the six inputs keep their contents, the output ends at `out3_6` of them. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gin_layer_kernel i arg1 harg1 arg2 harg2 arg3 harg3 arg4 harg4 arg5 harg5 arg6 harg6 arg7 harg7) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)
/-- The proof data of pipeline 3 on core `c`: the arrays as the region finds them; after the body each input's buffer at
    its block and the output's at the layer's value of the input blocks; nothing carried between points, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Gen

end
-- ==== Proof.IdealLayer4.lean ====
/-
  Region 4 of the program: one graph-isomorphism layer. On a block of 2000 rows the body adds the rows of `h` and of the
  aggregated neighbours, multiplies by the first weight matrix, adds the first bias row, clamps below at zero, multiplies
  by the second weight matrix, adds the second bias row and clamps again; the 50 blocks tile the 100000 rows. Stated for
  any float instance: what the output window's buffer holds after the body is the one stored payload of the six input
  blocks, the inputs are left as found, and nothing is carried from one block to the next.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: one GIN layer on a block of 2000 rows, at the contents `V` the region is entered with -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (where it is not fetched the
    block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (where it is not fetched the
    block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (where it is not fetched the
    block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (where it is not fetched the
    block index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (where it is not fetched the
    block index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not (where it is not fetched the
    block index has not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The one store of the body: the whole 2000×128 output block. -/
abbrev rOut4 : Rect S2000x128 := (Rect.unit (s := S2000x128) ![0, 0] S2000x128.size inb_S2000x128_S2000x128_0_0)

/-- What the body leaves in the output window's buffer: the layer's value on the block's rows, from the two row blocks,
    the two weight matrices and the two bias rows. -/
def out4_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨rOut4, k4_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x128) ![0, 0] S128x128.size inb_S128x128_S128x128_0_0)) (View.ld x3 (Rect.unit (s := S1x128) ![0, 0] S1x128.size inb_S1x128_S1x128_0_0)) (View.ld x4 (Rect.unit (s := S128x128) ![0, 0] S128x128.size inb_S128x128_S128x128_0_0)) (View.ld x5 (Rect.unit (s := S1x128) ![0, 0] S1x128.size inb_S1x128_S1x128_0_0))⟩]

/-- The store covers the buffer. -/
theorem cover4_6 (p0 : Vec F S2000x128 .f32) (y : S2000x128.Idx) :
    ∃ pc ∈ ([⟨rOut4, p0⟩] : List (View.Piece (Elt F) S2000x128 .f32)), y ∈ pc.1.set :=
  View.cover_of_tiled [⟨rOut4, p0⟩] S2000x128.size (by rfl) y

set_option maxHeartbeats 4000000 in
/-- The body on whole staging memrefs: the six inputs keep their contents, the output ends at `out4_6` of them. -/
theorem sound_kernel4 (c : Dev nD) (E : Set ℕ) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__gin_layer_kernel i arg1 harg1 arg2 harg2 arg3 harg3 arg4 harg4 arg5 harg5 arg6 harg6 arg7 harg7) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)
/-- The proof data of pipeline 4 on core `c`: the arrays as the region finds them; after the body each input's buffer at
    its block and the output's at the layer's value of the input blocks; nothing carried between points, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 1000000 in
/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Gen

end
-- ==== Proof.PoolBody.lean ====
/-
  The pool call's body and its proof data (region 5), at any float instance.

  The kernel runs over 50 row blocks of `h` (2000 × 128 each) with a 1 × 128 accumulator of its own: at the first block
  the accumulator is zeroed; at every block the block's column sums are added to it; at the last block the accumulated
  row is multiplied by the 128 × 128 weights, the bias row is added, and the result is stored to the 1 × 128 output,
  whose window is written back there only and is idle at every other point.

  Here: the two branch conditions in closed form over the grid; the body's triple in each of the three cases they
  leave (first point, a middle point, last point) — every access is of a whole buffer, so each buffer ends at the
  stored payload itself —; the accumulation by recursion on the point; the region invariant carrying the accumulator;
  the proof data, its body obligation, and the invariant's two ends; and the value the region leaves in its output
  array. Everything is stated at a parameter `V`, the TensorCore's buffer contents when the region is entered.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pool kernel's two branch conditions, over the grid -/

/-- The condition of the body's first branch (the accumulator is zeroed under it), from the grid coordinate:
    the kernel's scalar chain `(coordinate = 0)` widened and compared against zero. -/
abbrev cond5_0 (i : grid5.Coords) : Prop :=
  (Scalar.cmpi .ne (Scalar.extui (Scalar.cmpi .eq (BitVec.ofNat 32 (i 0).val) 0#32)) 0#32) = 1#1

/-- It holds at the first point only. -/
theorem hcond5_0 : ∀ t : Fin cfg5.N, cond5_0 (grid5.coords t) ↔ t.val = 0 :=
  (by decide +kernel : ∀ t : Fin grid5.N, cond5_0 (grid5.coords t) ↔ t.val = 0)

/-- The condition of the body's second branch (the output is stored under it). -/
abbrev cond5_1 (i : grid5.Coords) : Prop := k5_cond2 i = 1#1

/-- It holds at the last point only. -/
theorem hcond5_1 : ∀ t : Fin cfg5.N, cond5_1 (grid5.coords t) ↔ t.val = 49 :=
  (by decide +kernel : ∀ t : Fin grid5.N, cond5_1 (grid5.coords t) ↔ t.val = 49)

/-! ## The body's triple, case by case

Every load and every store of the body goes through the whole-buffer rectangle at zero offsets, so a load reads the
buffer's contents and a store leaves its payload: what each buffer holds afterwards is the payload itself. -/

/-- The zero offsets of a rank-2 access, as a constant function. -/
theorem zeroOff5 : (![0, 0] : Fin 2 → Nat) = fun _ => 0 := funext fun a => by fin_cases a <;> rfl

/-- The one piece of a whole-buffer store covers the buffer. -/
theorem coverWhole5 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 4000000 in
/-- CASE A (the first point: the first branch taken, the second not). The accumulator, at anything, is zeroed, read
    back and left at the zero row plus the block's column sums; the inputs and the output's buffer are as they were. -/
theorem pool_body_A (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond5_0 i) (hc1 : ¬cond5_1 i)
    (x0 : Vec F S2000x128 .f32) (x1 : Vec F S128x128 .f32) (x2 : Vec F S1x128 .f32) (y : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare y ∗ owns (c : Thread nD τ) arg5 fullShare (k5_pay2 k5_pay1 x0)) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1
  sl_exec (disch := first | exact hc0 | exact hc1)
  sl_step
  iapply Hk
  isplitl [H1]
  · iexists _; isplitr; · ipureintro; exact harg1.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_run_names
  rw [View.read_writes_eq_canon _ _ _ (coverWhole5 zeroOff5 _ _ _), View.canon_cons_unit_zero zeroOff5]
  rw [View.readCov_unit_zero _ zeroOff5]
  simp only [View.readAt_eq_ld, harg1.read_unread, View.ld_unit_zero (S := S2000x128) zeroOff5]

set_option maxHeartbeats 4000000 in
/-- CASE B (a point strictly between the first and the last: neither branch taken). The accumulator at `a` is left
    at `a` plus the block's column sums; everything else is as it was. -/
theorem pool_body_B (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond5_0 i) (hc1 : ¬cond5_1 i)
    (x0 : Vec F S2000x128 .f32) (x1 : Vec F S128x128 .f32) (x2 : Vec F S1x128 .f32) (y : Vec F S1x128 .f32) (a : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare y ∗ owns (c : Thread nD τ) arg5 fullShare (k5_pay2 a x0)) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (coverWhole5 zeroOff5 _ _ _), View.canon_unit_zero zeroOff5]
  simp only [View.readAt_eq_ld, harg1.read_unread, harg5.read_unread, View.ld_unit_zero (S := S1x128) zeroOff5,
    View.ld_unit_zero (S := S2000x128) zeroOff5]

set_option maxHeartbeats 4000000 in
/-- CASE C (the last point: the first branch not taken, the second taken). The accumulator at `a` is left at `a` plus
    the block's column sums, and the output's buffer, at anything, at that row times the weights plus the bias. -/
theorem pool_body_C (c : Dev nD) (E : Set ℕ) (i : grid5.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond5_0 i) (hc1 : cond5_1 i)
    (x0 : Vec F S2000x128 .f32) (x1 : Vec F S128x128 .f32) (x2 : Vec F S1x128 .f32) (a : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (k5_pay3 (k5_pay2 a x0) x1 x2) ∗ owns (c : Thread nD τ) arg5 fullShare (k5_pay2 a x0)) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverWhole5 zeroOff5 _ _ _), View.canon_unit_zero zeroOff5]
    rw [View.readCov_unit_zero _ zeroOff5]
    simp only [View.readAt_eq_ld, harg1.read_unread, harg2.read_unread, harg3.read_unread, harg5.read_unread,
      View.ld_unit_zero (S := S1x128) zeroOff5, View.ld_unit_zero (S := S2000x128) zeroOff5, View.ld_unit_zero (S := S128x128) zeroOff5]
  iexists _; isplitr
  swap; · iexact H5
  ipureintro
  sl_unfold_run_names
  rw [View.read_writes_eq_canon _ _ _ (coverWhole5 zeroOff5 _ _ _), View.canon_unit_zero zeroOff5]
  simp only [View.readAt_eq_ld, harg1.read_unread, harg5.read_unread, View.ld_unit_zero (S := S1x128) zeroOff5,
    View.ld_unit_zero (S := S2000x128) zeroOff5]

/-! ## The region's proof data, at the contents `V` the region is entered with -/

section Region5

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block of `h` (window 0, fetched at every point): its current staging buffer holds its block, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weights (window 1, fetched at the first point only: its block index never moves, so the buffer still holds
    the block at every later point). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The bias row (window 2, fetched at the first point only). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ### The accumulation -/

/-- What the accumulator holds after the body at point `n`: the zero row plus the first block's column sums, then
    each later block's column sums added in point order. -/
def accAt5 (c : Dev nD) : (n : ℕ) → n < cfg5.N → Vec F S1x128 .f32
  | 0, hn => k5_pay2 k5_pay1 (iblk5 V c 0 ⟨0, hn⟩)
  | n + 1, hn => k5_pay2 (accAt5 c n (Nat.lt_of_succ_lt hn)) (iblk5 V c 0 ⟨n + 1, hn⟩)

/-- At the first point. -/
theorem accAt5_zero (c : Dev nD) (t : Fin cfg5.N) (h0 : t.val = 0) :
    accAt5 V c t.val t.isLt = k5_pay2 k5_pay1 (iblk5 V c 0 t) := by
  obtain ⟨n, hn⟩ := t
  cases n with
  | zero => rfl
  | succ n => exact absurd h0 (Nat.succ_ne_zero n)

/-- At a later point: the point before's, plus this block's column sums. -/
theorem accAt5_pos (c : Dev nD) (t : Fin cfg5.N) (h0 : t.val ≠ 0) :
    accAt5 V c t.val t.isLt
      = k5_pay2 (accAt5 V c (t.val - 1) (Nat.lt_of_le_of_lt (Nat.sub_le _ _) t.isLt)) (iblk5 V c 0 t) := by
  obtain ⟨n, hn⟩ := t
  cases n with
  | zero => exact absurd rfl h0
  | succ n => rfl

/-! ### The invariant -/

/-- The accumulator: the call's own scratch operand, a whole scoped buffer. -/
abbrev scM5 : Memref sig .tc .vmem S1x128 .f32 := Memref.whole cc5_scratch0

/-- The class's invariant with the accumulator as a memref owned at some contents, beside the scoped rest it is
    split from and the generator register. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The region invariant before position `n`: before the first point the class's (the accumulator at anything);
    afterwards the accumulator at what the point before left in it, the other scoped buffers and the generator
    register as the class has them. -/
def Phi5 (c : Dev nD) : (n : ℕ) → n ≤ cfg5.N → sProp 𝕄
  | 0, _ => Pipeline.ΦA spec5 c
  | n + 1, hn => iprop(iprop(owns (c : Thread nD τ) scM5 fullShare (accAt5 V c n hn) ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(iprop(owns (c : Thread nD τ) scM5 fullShare (accAt5 V c n hn) ∗ Pipeline.scopedRestBut (Ix := Unit) (Name := ℕ) (U := UR sig nD τ) (Lvl := ℕ) (Val := Elt F) spec5 c [cc5_scratch0]) ∗ (∃ r, prngReg c r)) := rfl

theorem Phi5_pos (c : Dev nD) (n : ℕ) (h : n ≤ cfg5.N) (hz : n ≠ 0) :
    Phi5 V c n h = iprop(iprop(owns (c : Thread nD τ) scM5 fullShare (accAt5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ### The proof data -/

/-- The proof data of the pool call on core `c`: the arrays as the region finds them; after the body at point `t` each
    input's buffer at its block, and the output's at the accumulated row times the weights plus the bias (what the
    last point stores; at the other points, where the window is idle and not written back, nothing consults it); the
    invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (accAt5 V c t.val t.isLt) (iblk5 V c 1 t) (iblk5 V c 2 t)
  Φ t := Phi5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay3 (accAt5 V c t.val t.isLt) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ### Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
/-- Off the last point the output's window is idle (the body stores nothing into it), -/
theorem idleAt5_3 : ∀ t : Fin cfg5.N, ¬cond5_1 (grid5.coords t) → cfg5.idle 3 (grid5.coords t) = true := by decide +kernel
/-- and the pipeline does not write its block back; -/
theorem noFlush5_3 : ∀ t : Fin cfg5.N, ¬cond5_1 (grid5.coords t) → (cfg5.win 3).flush t = false := by decide +kernel
/-- at the last point it is live. -/
theorem liveAt5_3 : ∀ t : Fin cfg5.N, cond5_1 (grid5.coords t) → cfg5.idle 3 (grid5.coords t) = false := by decide +kernel

/-! ### The body obligation -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point. The inputs' memrefs hold their blocks; the closed forms of the two conditions say which
    case the point is in; the invariant hands the body the accumulator at what the point before left (at anything at
    the first point) and takes it back at this point's contents; off the last point the output's buffer is handed
    back as it was found, at the last point it holds the stored row; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Phi5 V c (t.val + 1) t.isLt from rfl, Phi5_succ]
  have hN : t.val < 50 := lt_of_lt_of_eq t.isLt (show cfg5.N = 50 from N_5)
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  rw [show (dat5 V c).leavesExact 2 t = owns (c : Thread nD τ) (st5_2 t) fullShare ((dat5 V c).after 2 t) from by
    unfold Dat.leavesExact; rw [liveAt5_2 t], after5_2]
  by_cases h0 : t.val = 0
  · have h1 : ¬t.val = 49 := by omega
    have hc0 : cond5_0 (grid5.coords t) := (hcond5_0 t).mpr h0
    have hc1 : ¬cond5_1 (grid5.coords t) := fun h => h1 ((hcond5_1 t).mp h)
    rw [Dat.leavesExact_idle (dat5 V c) 3 t (idleAt5_3 t hc1) (noFlush5_3 t hc1)]
    rw [accAt5_zero V c t h0, Phi5_castSucc V c t, Phi5_zero V c _ _ h0, PhiA5_eq]
    iintro ⟨⟨⟨HS, HR⟩, Hg⟩, Ho, ⟨%d0, H0⟩, ⟨%d1, H1⟩, ⟨%d2, H2⟩, ⟨%d3, H3⟩⟩
    iapply (pool_body_A c Set.univ (grid5.coords t) _ _ _ _ _ _ _ _ _ _ hc0 hc1 (iblk5 V c 0 t) (iblk5 V c 1 t) (iblk5 V c 2 t)
      ((dat5 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · by_cases h1 : t.val = 49
    · have hc0 : ¬cond5_0 (grid5.coords t) := fun h => h0 ((hcond5_0 t).mp h)
      have hc1 : cond5_1 (grid5.coords t) := (hcond5_1 t).mpr h1
      rw [show (dat5 V c).leavesExact 3 t = owns (c : Thread nD τ) (st5_3 t) fullShare ((dat5 V c).after 3 t) from by
        unfold Dat.leavesExact; rw [liveAt5_3 t hc1], after5_3]
      rw [accAt5_pos V c t h0, Phi5_castSucc V c t, Phi5_pos V c _ _ h0]
      iintro ⟨⟨⟨HS, HR⟩, Hg⟩, Ho, ⟨%d0, H0⟩, ⟨%d1, H1⟩, ⟨%d2, H2⟩, ⟨%d3, H3⟩⟩
      iapply (pool_body_C c Set.univ (grid5.coords t) _ _ _ _ _ _ _ _ _ _ hc0 hc1 (iblk5 V c 0 t) (iblk5 V c 1 t) (iblk5 V c 2 t)
        (accAt5 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc0 : ¬cond5_0 (grid5.coords t) := fun h => h0 ((hcond5_0 t).mp h)
      have hc1 : ¬cond5_1 (grid5.coords t) := fun h => h1 ((hcond5_1 t).mp h)
      rw [Dat.leavesExact_idle (dat5 V c) 3 t (idleAt5_3 t hc1) (noFlush5_3 t hc1)]
      rw [accAt5_pos V c t h0, Phi5_castSucc V c t, Phi5_pos V c _ _ h0]
      iintro ⟨⟨⟨HS, HR⟩, Hg⟩, Ho, ⟨%d0, H0⟩, ⟨%d1, H1⟩, ⟨%d2, H2⟩, ⟨%d3, H3⟩⟩
      iapply (pool_body_B c Set.univ (grid5.coords t) _ _ _ _ _ _ _ _ _ _ hc0 hc1 (iblk5 V c 0 t) (iblk5 V c 1 t) (iblk5 V c 2 t)
        ((dat5 V c).before 3 t d3) (accAt5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = Phi5 V c 0 (Nat.zero_le _) from rfl, Phi5_zero V c 0 _ rfl]
  try exact Idealize.SL.BI.Entails.refl _

/-- After any point but the first the invariant gives the class's back: what the accumulator holds is forgotten. -/
theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨⟨HS, HR⟩, Hg⟩
  isplitl [HS HR]
  · isplitl [HS]
    · iexists _; iexact HS
    iexact HR
  iexact Hg

/-- The same after the last point. -/
theorem hout5 (c : Dev nD) : (dat5 V c).Φ (Fin.last cfg5.N) ⊢ Pipeline.ΦA spec5 c :=
  Phi5_out V c _ (by rw [Fin.val_last]; have : cfg5.N = 50 := N_5; omega)

/-! ### The value the region leaves in its output array -/

/-- The last point of the grid. -/
def tLast5 : Fin cfg5.N := ⟨49, by rw [show cfg5.N = 50 from N_5]; decide⟩

/-- The accumulated row after the last point times the weights plus the bias, as contents of the 1 × 128 output
    array (its one block is the whole array). -/
abbrev result5 (c : Dev nD) : Buf (Elt F) ((c : Thread nD τ).loc main_v117) :=
  k5_pay3 (accAt5 V c 49 tLast5.isLt) (iblk5 V c 1 tLast5) (iblk5 V c 2 tLast5)

/-- The one write-back, at the last point, writes it: block (0, 0) of the 1 × 128 array through zero offsets is the array. -/
theorem flushed5_eq (c : Dev nD) (t : Fin cfg5.N) (hf : (cfg5.win 3).flush t = true) :
    (dat5 V c).flushed 3 t = ((cfg5.win 3).blk t).view.read (Elt F) (result5 V c) := by
  have hN : cfg5.N = 50 := N_5
  have h49 : t.val = 49 := by have := (flush5_3 t).mp hf; have := t.isLt; omega
  obtain rfl : t = tLast5 := Fin.ext h49
  show (cfg5.win 3).cut (grid5.coords tLast5) ((dat5 V c).after 3 tLast5) = _
  rw [after5_3]
  have hz' : (fun a => win5_3.index tLast5 a * main_v117.ty.shape.size a) = fun _ => 0 := funext fun a => by fin_cases a <;> decide +kernel
  exact (Memref.read_access_unit_zero (Elt F) main_v117 hz' (fun a => by rw [congrFun hz' a]; simp) (result5 V c)).symm

/-- So the output array ends holding that row: the last point's block covers it. -/
theorem final5 (c : Dev nD) : (dat5 V c).arrAt 3 cfg5.N = result5 V c :=
  (dat5 V c).arrAt_eq_of_cover 3 (result5 V c) (flushed5_eq V c) fun i =>
    ⟨tLast5, (flush5_3 tLast5).mpr rfl, by
      show i ∈ ((View.whole main_v117).slice (win5_3.rect tLast5)).set
      rw [View.set_slice_whole, Rect.mem_set_unit]
      intro a
      have h0 : (i 0 : Nat) < 1 := (i 0).isLt
      have h1 : (i 1 : Nat) < 128 := (i 1).isLt
      match a with
      | ⟨0, _⟩ => show win5_3.index tLast5 0 * win5_3.size 0 ≤ (i 0 : Nat) ∧ (i 0 : Nat) < win5_3.index tLast5 0 * win5_3.size 0 + win5_3.xsize (grid5.coords tLast5) 0
                  rw [show win5_3.index tLast5 0 * win5_3.size 0 = 0 from by decide +kernel, show win5_3.xsize (grid5.coords tLast5) 0 = 1 from by decide +kernel]; omega
      | ⟨1, _⟩ => show win5_3.index tLast5 1 * win5_3.size 1 ≤ (i 1 : Nat) ∧ (i 1 : Nat) < win5_3.index tLast5 1 * win5_3.size 1 + win5_3.xsize (grid5.coords tLast5) 1
                  rw [show win5_3.index tLast5 1 * win5_3.size 1 = 0 from by decide +kernel, show win5_3.xsize (grid5.coords tLast5) 1 = 128 from by decide +kernel]; omega⟩

/-- The weights' window reads the whole 128 × 128 array at every point (its block index is constant zero). -/
theorem iblk5_1_eq (c : Dev nD) (t : Fin cfg5.N) : iblk5 V c 1 t = V c main_arg7 := by
  unfold iblk5
  have hz' : (fun a => win5_1.index t a * main_arg7.ty.shape.size a) = fun _ => 0 := funext fun a => by fin_cases a <;> rfl
  exact Memref.read_access_unit_zero (Elt F) main_arg7 hz' (fun a => by rw [congrFun hz' a]; simp) (V c main_arg7)

/-- The bias row's window reads the whole 1 × 128 array at every point. -/
theorem iblk5_2_eq (c : Dev nD) (t : Fin cfg5.N) : iblk5 V c 2 t = V c main_v116 := by
  unfold iblk5
  have hz' : (fun a => win5_2.index t a * main_v116.ty.shape.size a) = fun _ => 0 := funext fun a => by fin_cases a <;> rfl
  exact Memref.read_access_unit_zero (Elt F) main_v116 hz' (fun a => by rw [congrFun hz' a]; simp) (V c main_v116)

end Region5

end Cert.KernelIdeal.Gen

end
-- ==== Proof.IdealRun.lean ====
/-
  The whole program as a chain of segments: six stretches of host operations alternating with the six kernel regions.
  The contents of every unscoped buffer are followed through the chain as a fold from the launch memory — a stretch of
  host operations applies its operations, a region replaces its output array by what its write-backs leave and keeps
  every other buffer — so that at the end each argument is read back unchanged (no stretch and no region writes one) and
  the result buffer is the last region's one written block.
-/
import proofs.«136333_j35605278884121_1_alg».proof.Proof.Gen.KernelIdeal.Launch
import proofs.«136333_j35605278884121_1_alg».proof.Proof.Gen.KernelIdeal.Skeleton
import proofs.«136333_j35605278884121_1_alg».proof.Proof.Gen.KernelIdeal.Points
import proofs.«136333_j35605278884121_1_alg».proof.Proof.Gen.KernelIdeal.Regions
import proofs.«136333_j35605278884121_1_alg».proof.Proof.IdealLayer0
import proofs.«136333_j35605278884121_1_alg».proof.Proof.IdealLayer1
import proofs.«136333_j35605278884121_1_alg».proof.Proof.IdealLayer2
import proofs.«136333_j35605278884121_1_alg».proof.Proof.IdealLayer3
import proofs.«136333_j35605278884121_1_alg».proof.Proof.IdealLayer4
import proofs.«136333_j35605278884121_1_alg».proof.Proof.PoolBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev Wc0 : Dev nD → Valuation τ sig (Elt F) := fun c b => m ((c : Dev nD), b)
/-- After the host operations before region 0: what region 0 is entered with. -/
abbrev Wc1 : Dev nD → Valuation τ sig (Elt F) := fun c => StableHlo.after hostOps0 (Wc0 m c)
/-- The same, read at the TensorCore's references. -/
abbrev Vc1 : (c : Dev nD) → (b : Ref sig .tc) → Buf (Elt F) ((c : Thread nD τ).loc b) := fun c b => Wc1 m c b
/-- At region 0's exit: its arrays at what its write-backs leave, every other buffer as entered. -/
def Wc2 (c : Dev nD) : Valuation τ sig (Elt F) :=
  Pipeline.withArrays spec0 c (Wc1 m c) fun w => (dat0 (Vc1 m) c).arrAt w cfg0.N
theorem Wc2_arr (c : Dev nD) (w : Fin cfg0.W) :
    Wc2 m c (Proc.devRef .tc (Pipeline.arrRef spec0 w)) = (dat0 (Vc1 m) c).arrAt w cfg0.N := by
  unfold Wc2; exact Pipeline.withArrays_arr spec0 launch0.win.arr_inj c _ _ w
theorem Wc2_of_ne (c : Dev nD) (b : Ref sig .tc) (hb : ∀ w, Pipeline.arrRef spec0 w ≠ b) :
    Wc2 m c (Proc.devRef .tc b) = Wc1 m c (Proc.devRef .tc b) := by
  unfold Wc2; exact Pipeline.withArrays_of_ne spec0 c _ _ b hb
abbrev Vc2 : (c : Dev nD) → (b : Ref sig .tc) → Buf (Elt F) ((c : Thread nD τ).loc b) := fun c b => Wc2 m c b
theorem hF0 (c : Dev nD) (w : Fin cfg0.W) : (dat0 (Vc1 m) c).arrAt w cfg0.N = Vc2 m c (Pipeline.arrRef spec0 w) :=
  (Wc2_arr m c w).symm
theorem hrest0 (c : Dev nD) : ∀ b, b ∉ Finset.univ.image (Pipeline.arrRef spec0) → Vc2 m c b = Vc1 m c b :=
  fun b hb => Wc2_of_ne m c b fun w e => hb (Finset.mem_image.mpr ⟨w, Finset.mem_univ _, e⟩)
/-- A buffer the host operations before region 0 do not write keeps its contents across them. -/
theorem Wc1_of (c : Dev nD) (r : Ref sig .tc) (h : r ∉ hostOps0_W) : Wc1 m c (Proc.devRef .tc r) = Wc0 m c (Proc.devRef .tc r) :=
  StableHlo.after_of_writes_sub hostOps0 _ hostOps0_writes h

/-- After the host operations before region 1: what region 1 is entered with. -/
abbrev Wc3 : Dev nD → Valuation τ sig (Elt F) := fun c => StableHlo.after hostOps1 (Wc2 m c)
/-- The same, read at the TensorCore's references. -/
abbrev Vc3 : (c : Dev nD) → (b : Ref sig .tc) → Buf (Elt F) ((c : Thread nD τ).loc b) := fun c b => Wc3 m c b
/-- At region 1's exit: its arrays at what its write-backs leave, every other buffer as entered. -/
def Wc4 (c : Dev nD) : Valuation τ sig (Elt F) :=
  Pipeline.withArrays spec1 c (Wc3 m c) fun w => (dat1 (Vc3 m) c).arrAt w cfg1.N
theorem Wc4_arr (c : Dev nD) (w : Fin cfg1.W) :
    Wc4 m c (Proc.devRef .tc (Pipeline.arrRef spec1 w)) = (dat1 (Vc3 m) c).arrAt w cfg1.N := by
  unfold Wc4; exact Pipeline.withArrays_arr spec1 launch1.win.arr_inj c _ _ w
theorem Wc4_of_ne (c : Dev nD) (b : Ref sig .tc) (hb : ∀ w, Pipeline.arrRef spec1 w ≠ b) :
    Wc4 m c (Proc.devRef .tc b) = Wc3 m c (Proc.devRef .tc b) := by
  unfold Wc4; exact Pipeline.withArrays_of_ne spec1 c _ _ b hb
abbrev Vc4 : (c : Dev nD) → (b : Ref sig .tc) → Buf (Elt F) ((c : Thread nD τ).loc b) := fun c b => Wc4 m c b
theorem hF1 (c : Dev nD) (w : Fin cfg1.W) : (dat1 (Vc3 m) c).arrAt w cfg1.N = Vc4 m c (Pipeline.arrRef spec1 w) :=
  (Wc4_arr m c w).symm
theorem hrest1 (c : Dev nD) : ∀ b, b ∉ Finset.univ.image (Pipeline.arrRef spec1) → Vc4 m c b = Vc3 m c b :=
  fun b hb => Wc4_of_ne m c b fun w e => hb (Finset.mem_image.mpr ⟨w, Finset.mem_univ _, e⟩)
/-- A buffer the host operations before region 1 do not write keeps its contents across them. -/
theorem Wc3_of (c : Dev nD) (r : Ref sig .tc) (h : r ∉ hostOps1_W) : Wc3 m c (Proc.devRef .tc r) = Wc2 m c (Proc.devRef .tc r) :=
  StableHlo.after_of_writes_sub hostOps1 _ hostOps1_writes h

/-- After the host operations before region 2: what region 2 is entered with. -/
abbrev Wc5 : Dev nD → Valuation τ sig (Elt F) := fun c => StableHlo.after hostOps2 (Wc4 m c)
/-- The same, read at the TensorCore's references. -/
abbrev Vc5 : (c : Dev nD) → (b : Ref sig .tc) → Buf (Elt F) ((c : Thread nD τ).loc b) := fun c b => Wc5 m c b
/-- At region 2's exit: its arrays at what its write-backs leave, every other buffer as entered. -/
def Wc6 (c : Dev nD) : Valuation τ sig (Elt F) :=
  Pipeline.withArrays spec2 c (Wc5 m c) fun w => (dat2 (Vc5 m) c).arrAt w cfg2.N
theorem Wc6_arr (c : Dev nD) (w : Fin cfg2.W) :
    Wc6 m c (Proc.devRef .tc (Pipeline.arrRef spec2 w)) = (dat2 (Vc5 m) c).arrAt w cfg2.N := by
  unfold Wc6; exact Pipeline.withArrays_arr spec2 launch2.win.arr_inj c _ _ w
theorem Wc6_of_ne (c : Dev nD) (b : Ref sig .tc) (hb : ∀ w, Pipeline.arrRef spec2 w ≠ b) :
    Wc6 m c (Proc.devRef .tc b) = Wc5 m c (Proc.devRef .tc b) := by
  unfold Wc6; exact Pipeline.withArrays_of_ne spec2 c _ _ b hb
abbrev Vc6 : (c : Dev nD) → (b : Ref sig .tc) → Buf (Elt F) ((c : Thread nD τ).loc b) := fun c b => Wc6 m c b
theorem hF2 (c : Dev nD) (w : Fin cfg2.W) : (dat2 (Vc5 m) c).arrAt w cfg2.N = Vc6 m c (Pipeline.arrRef spec2 w) :=
  (Wc6_arr m c w).symm
theorem hrest2 (c : Dev nD) : ∀ b, b ∉ Finset.univ.image (Pipeline.arrRef spec2) → Vc6 m c b = Vc5 m c b :=
  fun b hb => Wc6_of_ne m c b fun w e => hb (Finset.mem_image.mpr ⟨w, Finset.mem_univ _, e⟩)
/-- A buffer the host operations before region 2 do not write keeps its contents across them. -/
theorem Wc5_of (c : Dev nD) (r : Ref sig .tc) (h : r ∉ hostOps2_W) : Wc5 m c (Proc.devRef .tc r) = Wc4 m c (Proc.devRef .tc r) :=
  StableHlo.after_of_writes_sub hostOps2 _ hostOps2_writes h

/-- After the host operations before region 3: what region 3 is entered with. -/
abbrev Wc7 : Dev nD → Valuation τ sig (Elt F) := fun c => StableHlo.after hostOps3 (Wc6 m c)
/-- The same, read at the TensorCore's references. -/
abbrev Vc7 : (c : Dev nD) → (b : Ref sig .tc) → Buf (Elt F) ((c : Thread nD τ).loc b) := fun c b => Wc7 m c b
/-- At region 3's exit: its arrays at what its write-backs leave, every other buffer as entered. -/
def Wc8 (c : Dev nD) : Valuation τ sig (Elt F) :=
  Pipeline.withArrays spec3 c (Wc7 m c) fun w => (dat3 (Vc7 m) c).arrAt w cfg3.N
theorem Wc8_arr (c : Dev nD) (w : Fin cfg3.W) :
    Wc8 m c (Proc.devRef .tc (Pipeline.arrRef spec3 w)) = (dat3 (Vc7 m) c).arrAt w cfg3.N := by
  unfold Wc8; exact Pipeline.withArrays_arr spec3 launch3.win.arr_inj c _ _ w
theorem Wc8_of_ne (c : Dev nD) (b : Ref sig .tc) (hb : ∀ w, Pipeline.arrRef spec3 w ≠ b) :
    Wc8 m c (Proc.devRef .tc b) = Wc7 m c (Proc.devRef .tc b) := by
  unfold Wc8; exact Pipeline.withArrays_of_ne spec3 c _ _ b hb
abbrev Vc8 : (c : Dev nD) → (b : Ref sig .tc) → Buf (Elt F) ((c : Thread nD τ).loc b) := fun c b => Wc8 m c b
theorem hF3 (c : Dev nD) (w : Fin cfg3.W) : (dat3 (Vc7 m) c).arrAt w cfg3.N = Vc8 m c (Pipeline.arrRef spec3 w) :=
  (Wc8_arr m c w).symm
theorem hrest3 (c : Dev nD) : ∀ b, b ∉ Finset.univ.image (Pipeline.arrRef spec3) → Vc8 m c b = Vc7 m c b :=
  fun b hb => Wc8_of_ne m c b fun w e => hb (Finset.mem_image.mpr ⟨w, Finset.mem_univ _, e⟩)
/-- A buffer the host operations before region 3 do not write keeps its contents across them. -/
theorem Wc7_of (c : Dev nD) (r : Ref sig .tc) (h : r ∉ hostOps3_W) : Wc7 m c (Proc.devRef .tc r) = Wc6 m c (Proc.devRef .tc r) :=
  StableHlo.after_of_writes_sub hostOps3 _ hostOps3_writes h

/-- After the host operations before region 4: what region 4 is entered with. -/
abbrev Wc9 : Dev nD → Valuation τ sig (Elt F) := fun c => StableHlo.after hostOps4 (Wc8 m c)
/-- The same, read at the TensorCore's references. -/
abbrev Vc9 : (c : Dev nD) → (b : Ref sig .tc) → Buf (Elt F) ((c : Thread nD τ).loc b) := fun c b => Wc9 m c b
/-- At region 4's exit: its arrays at what its write-backs leave, every other buffer as entered. -/
def Wc10 (c : Dev nD) : Valuation τ sig (Elt F) :=
  Pipeline.withArrays spec4 c (Wc9 m c) fun w => (dat4 (Vc9 m) c).arrAt w cfg4.N
theorem Wc10_arr (c : Dev nD) (w : Fin cfg4.W) :
    Wc10 m c (Proc.devRef .tc (Pipeline.arrRef spec4 w)) = (dat4 (Vc9 m) c).arrAt w cfg4.N := by
  unfold Wc10; exact Pipeline.withArrays_arr spec4 launch4.win.arr_inj c _ _ w
theorem Wc10_of_ne (c : Dev nD) (b : Ref sig .tc) (hb : ∀ w, Pipeline.arrRef spec4 w ≠ b) :
    Wc10 m c (Proc.devRef .tc b) = Wc9 m c (Proc.devRef .tc b) := by
  unfold Wc10; exact Pipeline.withArrays_of_ne spec4 c _ _ b hb
abbrev Vc10 : (c : Dev nD) → (b : Ref sig .tc) → Buf (Elt F) ((c : Thread nD τ).loc b) := fun c b => Wc10 m c b
theorem hF4 (c : Dev nD) (w : Fin cfg4.W) : (dat4 (Vc9 m) c).arrAt w cfg4.N = Vc10 m c (Pipeline.arrRef spec4 w) :=
  (Wc10_arr m c w).symm
theorem hrest4 (c : Dev nD) : ∀ b, b ∉ Finset.univ.image (Pipeline.arrRef spec4) → Vc10 m c b = Vc9 m c b :=
  fun b hb => Wc10_of_ne m c b fun w e => hb (Finset.mem_image.mpr ⟨w, Finset.mem_univ _, e⟩)
/-- A buffer the host operations before region 4 do not write keeps its contents across them. -/
theorem Wc9_of (c : Dev nD) (r : Ref sig .tc) (h : r ∉ hostOps4_W) : Wc9 m c (Proc.devRef .tc r) = Wc8 m c (Proc.devRef .tc r) :=
  StableHlo.after_of_writes_sub hostOps4 _ hostOps4_writes h

/-- After the host operations before region 5: what region 5 is entered with. -/
abbrev Wc11 : Dev nD → Valuation τ sig (Elt F) := fun c => StableHlo.after hostOps5 (Wc10 m c)
/-- The same, read at the TensorCore's references. -/
abbrev Vc11 : (c : Dev nD) → (b : Ref sig .tc) → Buf (Elt F) ((c : Thread nD τ).loc b) := fun c b => Wc11 m c b
/-- At region 5's exit: its arrays at what its write-backs leave, every other buffer as entered. -/
def Wc12 (c : Dev nD) : Valuation τ sig (Elt F) :=
  Pipeline.withArrays spec5 c (Wc11 m c) fun w => (dat5 (Vc11 m) c).arrAt w cfg5.N
theorem Wc12_arr (c : Dev nD) (w : Fin cfg5.W) :
    Wc12 m c (Proc.devRef .tc (Pipeline.arrRef spec5 w)) = (dat5 (Vc11 m) c).arrAt w cfg5.N := by
  unfold Wc12; exact Pipeline.withArrays_arr spec5 launch5.win.arr_inj c _ _ w
theorem Wc12_of_ne (c : Dev nD) (b : Ref sig .tc) (hb : ∀ w, Pipeline.arrRef spec5 w ≠ b) :
    Wc12 m c (Proc.devRef .tc b) = Wc11 m c (Proc.devRef .tc b) := by
  unfold Wc12; exact Pipeline.withArrays_of_ne spec5 c _ _ b hb
abbrev Vc12 : (c : Dev nD) → (b : Ref sig .tc) → Buf (Elt F) ((c : Thread nD τ).loc b) := fun c b => Wc12 m c b
theorem hF5 (c : Dev nD) (w : Fin cfg5.W) : (dat5 (Vc11 m) c).arrAt w cfg5.N = Vc12 m c (Pipeline.arrRef spec5 w) :=
  (Wc12_arr m c w).symm
theorem hrest5 (c : Dev nD) : ∀ b, b ∉ Finset.univ.image (Pipeline.arrRef spec5) → Vc12 m c b = Vc11 m c b :=
  fun b hb => Wc12_of_ne m c b fun w e => hb (Finset.mem_image.mpr ⟨w, Finset.mem_univ _, e⟩)
/-- A buffer the host operations before region 5 do not write keeps its contents across them. -/
theorem Wc11_of (c : Dev nD) (r : Ref sig .tc) (h : r ∉ hostOps5_W) : Wc11 m c (Proc.devRef .tc r) = Wc10 m c (Proc.devRef .tc r) :=
  StableHlo.after_of_writes_sub hostOps5 _ hostOps5_writes h

/-! ### No host operation and no region writes an argument: the fold at an argument walks back to the launch memory -/

theorem Wc12_main_arg0 (c : Dev nD) : Wc12 m c (Proc.devRef .tc main_arg0) = m ((c : Thread nD τ).loc main_arg0) :=
  calc Wc12 m c (Proc.devRef .tc main_arg0)
    _ = Wc11 m c (Proc.devRef .tc main_arg0) := Wc12_of_ne m c main_arg0 (by decide)
    _ = Wc10 m c (Proc.devRef .tc main_arg0) := Wc11_of m c main_arg0 (by decide)
    _ = Wc9 m c (Proc.devRef .tc main_arg0) := Wc10_of_ne m c main_arg0 (by decide)
    _ = Wc8 m c (Proc.devRef .tc main_arg0) := Wc9_of m c main_arg0 (by decide)
    _ = Wc7 m c (Proc.devRef .tc main_arg0) := Wc8_of_ne m c main_arg0 (by decide)
    _ = Wc6 m c (Proc.devRef .tc main_arg0) := Wc7_of m c main_arg0 (by decide)
    _ = Wc5 m c (Proc.devRef .tc main_arg0) := Wc6_of_ne m c main_arg0 (by decide)
    _ = Wc4 m c (Proc.devRef .tc main_arg0) := Wc5_of m c main_arg0 (by decide)
    _ = Wc3 m c (Proc.devRef .tc main_arg0) := Wc4_of_ne m c main_arg0 (by decide)
    _ = Wc2 m c (Proc.devRef .tc main_arg0) := Wc3_of m c main_arg0 (by decide)
    _ = Wc1 m c (Proc.devRef .tc main_arg0) := Wc2_of_ne m c main_arg0 (by decide)
    _ = Wc0 m c (Proc.devRef .tc main_arg0) := Wc1_of m c main_arg0 (by decide)
    _ = m ((c : Thread nD τ).loc main_arg0) := rfl

theorem Wc12_main_arg1 (c : Dev nD) : Wc12 m c (Proc.devRef .tc main_arg1) = m ((c : Thread nD τ).loc main_arg1) :=
  calc Wc12 m c (Proc.devRef .tc main_arg1)
    _ = Wc11 m c (Proc.devRef .tc main_arg1) := Wc12_of_ne m c main_arg1 (by decide)
    _ = Wc10 m c (Proc.devRef .tc main_arg1) := Wc11_of m c main_arg1 (by decide)
    _ = Wc9 m c (Proc.devRef .tc main_arg1) := Wc10_of_ne m c main_arg1 (by decide)
    _ = Wc8 m c (Proc.devRef .tc main_arg1) := Wc9_of m c main_arg1 (by decide)
    _ = Wc7 m c (Proc.devRef .tc main_arg1) := Wc8_of_ne m c main_arg1 (by decide)
    _ = Wc6 m c (Proc.devRef .tc main_arg1) := Wc7_of m c main_arg1 (by decide)
    _ = Wc5 m c (Proc.devRef .tc main_arg1) := Wc6_of_ne m c main_arg1 (by decide)
    _ = Wc4 m c (Proc.devRef .tc main_arg1) := Wc5_of m c main_arg1 (by decide)
    _ = Wc3 m c (Proc.devRef .tc main_arg1) := Wc4_of_ne m c main_arg1 (by decide)
    _ = Wc2 m c (Proc.devRef .tc main_arg1) := Wc3_of m c main_arg1 (by decide)
    _ = Wc1 m c (Proc.devRef .tc main_arg1) := Wc2_of_ne m c main_arg1 (by decide)
    _ = Wc0 m c (Proc.devRef .tc main_arg1) := Wc1_of m c main_arg1 (by decide)
    _ = m ((c : Thread nD τ).loc main_arg1) := rfl

theorem Wc12_main_arg2 (c : Dev nD) : Wc12 m c (Proc.devRef .tc main_arg2) = m ((c : Thread nD τ).loc main_arg2) :=
  calc Wc12 m c (Proc.devRef .tc main_arg2)
    _ = Wc11 m c (Proc.devRef .tc main_arg2) := Wc12_of_ne m c main_arg2 (by decide)
    _ = Wc10 m c (Proc.devRef .tc main_arg2) := Wc11_of m c main_arg2 (by decide)
    _ = Wc9 m c (Proc.devRef .tc main_arg2) := Wc10_of_ne m c main_arg2 (by decide)
    _ = Wc8 m c (Proc.devRef .tc main_arg2) := Wc9_of m c main_arg2 (by decide)
    _ = Wc7 m c (Proc.devRef .tc main_arg2) := Wc8_of_ne m c main_arg2 (by decide)
    _ = Wc6 m c (Proc.devRef .tc main_arg2) := Wc7_of m c main_arg2 (by decide)
    _ = Wc5 m c (Proc.devRef .tc main_arg2) := Wc6_of_ne m c main_arg2 (by decide)
    _ = Wc4 m c (Proc.devRef .tc main_arg2) := Wc5_of m c main_arg2 (by decide)
    _ = Wc3 m c (Proc.devRef .tc main_arg2) := Wc4_of_ne m c main_arg2 (by decide)
    _ = Wc2 m c (Proc.devRef .tc main_arg2) := Wc3_of m c main_arg2 (by decide)
    _ = Wc1 m c (Proc.devRef .tc main_arg2) := Wc2_of_ne m c main_arg2 (by decide)
    _ = Wc0 m c (Proc.devRef .tc main_arg2) := Wc1_of m c main_arg2 (by decide)
    _ = m ((c : Thread nD τ).loc main_arg2) := rfl

theorem Wc12_main_arg3 (c : Dev nD) : Wc12 m c (Proc.devRef .tc main_arg3) = m ((c : Thread nD τ).loc main_arg3) :=
  calc Wc12 m c (Proc.devRef .tc main_arg3)
    _ = Wc11 m c (Proc.devRef .tc main_arg3) := Wc12_of_ne m c main_arg3 (by decide)
    _ = Wc10 m c (Proc.devRef .tc main_arg3) := Wc11_of m c main_arg3 (by decide)
    _ = Wc9 m c (Proc.devRef .tc main_arg3) := Wc10_of_ne m c main_arg3 (by decide)
    _ = Wc8 m c (Proc.devRef .tc main_arg3) := Wc9_of m c main_arg3 (by decide)
    _ = Wc7 m c (Proc.devRef .tc main_arg3) := Wc8_of_ne m c main_arg3 (by decide)
    _ = Wc6 m c (Proc.devRef .tc main_arg3) := Wc7_of m c main_arg3 (by decide)
    _ = Wc5 m c (Proc.devRef .tc main_arg3) := Wc6_of_ne m c main_arg3 (by decide)
    _ = Wc4 m c (Proc.devRef .tc main_arg3) := Wc5_of m c main_arg3 (by decide)
    _ = Wc3 m c (Proc.devRef .tc main_arg3) := Wc4_of_ne m c main_arg3 (by decide)
    _ = Wc2 m c (Proc.devRef .tc main_arg3) := Wc3_of m c main_arg3 (by decide)
    _ = Wc1 m c (Proc.devRef .tc main_arg3) := Wc2_of_ne m c main_arg3 (by decide)
    _ = Wc0 m c (Proc.devRef .tc main_arg3) := Wc1_of m c main_arg3 (by decide)
    _ = m ((c : Thread nD τ).loc main_arg3) := rfl

theorem Wc12_main_arg4 (c : Dev nD) : Wc12 m c (Proc.devRef .tc main_arg4) = m ((c : Thread nD τ).loc main_arg4) :=
  calc Wc12 m c (Proc.devRef .tc main_arg4)
    _ = Wc11 m c (Proc.devRef .tc main_arg4) := Wc12_of_ne m c main_arg4 (by decide)
    _ = Wc10 m c (Proc.devRef .tc main_arg4) := Wc11_of m c main_arg4 (by decide)
    _ = Wc9 m c (Proc.devRef .tc main_arg4) := Wc10_of_ne m c main_arg4 (by decide)
    _ = Wc8 m c (Proc.devRef .tc main_arg4) := Wc9_of m c main_arg4 (by decide)
    _ = Wc7 m c (Proc.devRef .tc main_arg4) := Wc8_of_ne m c main_arg4 (by decide)
    _ = Wc6 m c (Proc.devRef .tc main_arg4) := Wc7_of m c main_arg4 (by decide)
    _ = Wc5 m c (Proc.devRef .tc main_arg4) := Wc6_of_ne m c main_arg4 (by decide)
    _ = Wc4 m c (Proc.devRef .tc main_arg4) := Wc5_of m c main_arg4 (by decide)
    _ = Wc3 m c (Proc.devRef .tc main_arg4) := Wc4_of_ne m c main_arg4 (by decide)
    _ = Wc2 m c (Proc.devRef .tc main_arg4) := Wc3_of m c main_arg4 (by decide)
    _ = Wc1 m c (Proc.devRef .tc main_arg4) := Wc2_of_ne m c main_arg4 (by decide)
    _ = Wc0 m c (Proc.devRef .tc main_arg4) := Wc1_of m c main_arg4 (by decide)
    _ = m ((c : Thread nD τ).loc main_arg4) := rfl

theorem Wc12_main_arg5 (c : Dev nD) : Wc12 m c (Proc.devRef .tc main_arg5) = m ((c : Thread nD τ).loc main_arg5) :=
  calc Wc12 m c (Proc.devRef .tc main_arg5)
    _ = Wc11 m c (Proc.devRef .tc main_arg5) := Wc12_of_ne m c main_arg5 (by decide)
    _ = Wc10 m c (Proc.devRef .tc main_arg5) := Wc11_of m c main_arg5 (by decide)
    _ = Wc9 m c (Proc.devRef .tc main_arg5) := Wc10_of_ne m c main_arg5 (by decide)
    _ = Wc8 m c (Proc.devRef .tc main_arg5) := Wc9_of m c main_arg5 (by decide)
    _ = Wc7 m c (Proc.devRef .tc main_arg5) := Wc8_of_ne m c main_arg5 (by decide)
    _ = Wc6 m c (Proc.devRef .tc main_arg5) := Wc7_of m c main_arg5 (by decide)
    _ = Wc5 m c (Proc.devRef .tc main_arg5) := Wc6_of_ne m c main_arg5 (by decide)
    _ = Wc4 m c (Proc.devRef .tc main_arg5) := Wc5_of m c main_arg5 (by decide)
    _ = Wc3 m c (Proc.devRef .tc main_arg5) := Wc4_of_ne m c main_arg5 (by decide)
    _ = Wc2 m c (Proc.devRef .tc main_arg5) := Wc3_of m c main_arg5 (by decide)
    _ = Wc1 m c (Proc.devRef .tc main_arg5) := Wc2_of_ne m c main_arg5 (by decide)
    _ = Wc0 m c (Proc.devRef .tc main_arg5) := Wc1_of m c main_arg5 (by decide)
    _ = m ((c : Thread nD τ).loc main_arg5) := rfl

theorem Wc12_main_arg6 (c : Dev nD) : Wc12 m c (Proc.devRef .tc main_arg6) = m ((c : Thread nD τ).loc main_arg6) :=
  calc Wc12 m c (Proc.devRef .tc main_arg6)
    _ = Wc11 m c (Proc.devRef .tc main_arg6) := Wc12_of_ne m c main_arg6 (by decide)
    _ = Wc10 m c (Proc.devRef .tc main_arg6) := Wc11_of m c main_arg6 (by decide)
    _ = Wc9 m c (Proc.devRef .tc main_arg6) := Wc10_of_ne m c main_arg6 (by decide)
    _ = Wc8 m c (Proc.devRef .tc main_arg6) := Wc9_of m c main_arg6 (by decide)
    _ = Wc7 m c (Proc.devRef .tc main_arg6) := Wc8_of_ne m c main_arg6 (by decide)
    _ = Wc6 m c (Proc.devRef .tc main_arg6) := Wc7_of m c main_arg6 (by decide)
    _ = Wc5 m c (Proc.devRef .tc main_arg6) := Wc6_of_ne m c main_arg6 (by decide)
    _ = Wc4 m c (Proc.devRef .tc main_arg6) := Wc5_of m c main_arg6 (by decide)
    _ = Wc3 m c (Proc.devRef .tc main_arg6) := Wc4_of_ne m c main_arg6 (by decide)
    _ = Wc2 m c (Proc.devRef .tc main_arg6) := Wc3_of m c main_arg6 (by decide)
    _ = Wc1 m c (Proc.devRef .tc main_arg6) := Wc2_of_ne m c main_arg6 (by decide)
    _ = Wc0 m c (Proc.devRef .tc main_arg6) := Wc1_of m c main_arg6 (by decide)
    _ = m ((c : Thread nD τ).loc main_arg6) := rfl

theorem Wc12_main_arg7 (c : Dev nD) : Wc12 m c (Proc.devRef .tc main_arg7) = m ((c : Thread nD τ).loc main_arg7) :=
  calc Wc12 m c (Proc.devRef .tc main_arg7)
    _ = Wc11 m c (Proc.devRef .tc main_arg7) := (Wc12_arr m c 1).trans (((dat5 (Vc11 m) c).arrAt_in 1 rfl _).trans (A_eq5 (Vc11 m) c 1))
    _ = Wc10 m c (Proc.devRef .tc main_arg7) := Wc11_of m c main_arg7 (by decide)
    _ = Wc9 m c (Proc.devRef .tc main_arg7) := Wc10_of_ne m c main_arg7 (by decide)
    _ = Wc8 m c (Proc.devRef .tc main_arg7) := Wc9_of m c main_arg7 (by decide)
    _ = Wc7 m c (Proc.devRef .tc main_arg7) := Wc8_of_ne m c main_arg7 (by decide)
    _ = Wc6 m c (Proc.devRef .tc main_arg7) := Wc7_of m c main_arg7 (by decide)
    _ = Wc5 m c (Proc.devRef .tc main_arg7) := Wc6_of_ne m c main_arg7 (by decide)
    _ = Wc4 m c (Proc.devRef .tc main_arg7) := Wc5_of m c main_arg7 (by decide)
    _ = Wc3 m c (Proc.devRef .tc main_arg7) := Wc4_of_ne m c main_arg7 (by decide)
    _ = Wc2 m c (Proc.devRef .tc main_arg7) := Wc3_of m c main_arg7 (by decide)
    _ = Wc1 m c (Proc.devRef .tc main_arg7) := Wc2_of_ne m c main_arg7 (by decide)
    _ = Wc0 m c (Proc.devRef .tc main_arg7) := Wc1_of m c main_arg7 (by decide)
    _ = m ((c : Thread nD τ).loc main_arg7) := rfl

theorem Wc12_main_arg8 (c : Dev nD) : Wc12 m c (Proc.devRef .tc main_arg8) = m ((c : Thread nD τ).loc main_arg8) :=
  calc Wc12 m c (Proc.devRef .tc main_arg8)
    _ = Wc11 m c (Proc.devRef .tc main_arg8) := Wc12_of_ne m c main_arg8 (by decide)
    _ = Wc10 m c (Proc.devRef .tc main_arg8) := Wc11_of m c main_arg8 (by decide)
    _ = Wc9 m c (Proc.devRef .tc main_arg8) := Wc10_of_ne m c main_arg8 (by decide)
    _ = Wc8 m c (Proc.devRef .tc main_arg8) := Wc9_of m c main_arg8 (by decide)
    _ = Wc7 m c (Proc.devRef .tc main_arg8) := Wc8_of_ne m c main_arg8 (by decide)
    _ = Wc6 m c (Proc.devRef .tc main_arg8) := Wc7_of m c main_arg8 (by decide)
    _ = Wc5 m c (Proc.devRef .tc main_arg8) := Wc6_of_ne m c main_arg8 (by decide)
    _ = Wc4 m c (Proc.devRef .tc main_arg8) := Wc5_of m c main_arg8 (by decide)
    _ = Wc3 m c (Proc.devRef .tc main_arg8) := Wc4_of_ne m c main_arg8 (by decide)
    _ = Wc2 m c (Proc.devRef .tc main_arg8) := Wc3_of m c main_arg8 (by decide)
    _ = Wc1 m c (Proc.devRef .tc main_arg8) := Wc2_of_ne m c main_arg8 (by decide)
    _ = Wc0 m c (Proc.devRef .tc main_arg8) := Wc1_of m c main_arg8 (by decide)
    _ = m ((c : Thread nD τ).loc main_arg8) := rfl

/-- The result buffer ends at what the last region's one write-back leaves. -/
theorem Wc12_main_v117 (c : Dev nD) : Wc12 m c (Proc.devRef .tc main_v117) = (dat5 (Vc11 m) c).arrAt 3 cfg5.N :=
  Wc12_arr m c 3

/-! ## The proof data of the six pipelines, and the thread state -/

/-- Every pipeline's proof data, each at the contents its region is entered with. -/
def pdats : (p : Fin 6) → (c : Dev nD) → Dat τ (Elt F) Unit ℕ (UR sig nD τ) ℕ (Pipeline.pin (pcfgs (F := F)) adm p) c
  | ⟨0, _⟩ => fun c => dat0 (Vc1 m) c
  | ⟨1, _⟩ => fun c => dat1 (Vc3 m) c
  | ⟨2, _⟩ => fun c => dat2 (Vc5 m) c
  | ⟨3, _⟩ => fun c => dat3 (Vc7 m) c
  | ⟨4, _⟩ => fun c => dat4 (Vc9 m) c
  | ⟨5, _⟩ => fun c => dat5 (Vc11 m) c
abbrev 𝒱r : Variants := Variants.none
/-- No core owes another anything. -/
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment over the unscoped buffers from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (Wc12 m c) ∗ ∃ r, prngReg c r)

/-! ## The regions as segments -/

set_option backward.isDefEq.respectTransparency.types false in
/-- Region 0 over the thread state: entered with every unscoped buffer at `Wc1`, left with them at `Wc2`; its arrays are
    split out of the unscoped buffers and put back at what the write-backs leave; the generator register goes into the
    region's invariant and comes back; nothing is owed and the kernel has no semaphore of its own. -/
def reg0 : Pipeline.RegionSeg (pcfgs (F := F)) adm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vc1 m) c).loose
  hwaits := Pipeline.hwaits_of_owed_zero _ _ _ _ Lr lvr 0 fun _ _ => rfl
  pre c := iprop(StableHlo.held (c : Thread nD τ) (Pipeline.ucRefs τ sig) (Wc1 m c) ∗ Rr c)
  post c := iprop(StableHlo.held (c : Thread nD τ) (Pipeline.ucRefs τ sig) (Wc2 m c) ∗ Rr c)
  X c := iprop(∃ r, prngReg c r)
  Y c := iprop(∃ r, prngReg c r)
  Z c := Pipeline.unscopedRest (Ix := Unit) (Name := ℕ) (U := UR sig nD τ) (Lvl := ℕ) spec0 c (Vc1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vc1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vc1 m c) (Vc2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wc3`, left with them at `Wc4`; its arrays are
    split out of the unscoped buffers and put back at what the write-backs leave; the generator register goes into the
    region's invariant and comes back; nothing is owed and the kernel has no semaphore of its own. -/
def reg1 : Pipeline.RegionSeg (pcfgs (F := F)) adm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Vc3 m) c).loose
  hwaits := Pipeline.hwaits_of_owed_zero _ _ _ _ Lr lvr 1 fun _ _ => rfl
  pre c := iprop(StableHlo.held (c : Thread nD τ) (Pipeline.ucRefs τ sig) (Wc3 m c) ∗ Rr c)
  post c := iprop(StableHlo.held (c : Thread nD τ) (Pipeline.ucRefs τ sig) (Wc4 m c) ∗ Rr c)
  X c := iprop(∃ r, prngReg c r)
  Y c := iprop(∃ r, prngReg c r)
  Z c := Pipeline.unscopedRest (Ix := Unit) (Name := ℕ) (U := UR sig nD τ) (Lvl := ℕ) spec1 c (Vc3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc3 m c) (Vc4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wc5`, left with them at `Wc6`; its arrays are
    split out of the unscoped buffers and put back at what the write-backs leave; the generator register goes into the
    region's invariant and comes back; nothing is owed and the kernel has no semaphore of its own. -/
def reg2 : Pipeline.RegionSeg (pcfgs (F := F)) adm (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Vc5 m) c).loose
  hwaits := Pipeline.hwaits_of_owed_zero _ _ _ _ Lr lvr 2 fun _ _ => rfl
  pre c := iprop(StableHlo.held (c : Thread nD τ) (Pipeline.ucRefs τ sig) (Wc5 m c) ∗ Rr c)
  post c := iprop(StableHlo.held (c : Thread nD τ) (Pipeline.ucRefs τ sig) (Wc6 m c) ∗ Rr c)
  X c := iprop(∃ r, prngReg c r)
  Y c := iprop(∃ r, prngReg c r)
  Z c := Pipeline.unscopedRest (Ix := Unit) (Name := ℕ) (U := UR sig nD τ) (Lvl := ℕ) spec2 c (Vc5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vc5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vc5 m c) (Vc6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `Wc7`, left with them at `Wc8`; its arrays are
    split out of the unscoped buffers and put back at what the write-backs leave; the generator register goes into the
    region's invariant and comes back; nothing is owed and the kernel has no semaphore of its own. -/
def reg3 : Pipeline.RegionSeg (pcfgs (F := F)) adm (pdats m) () defs₀ 𝒱r Lr lvr 3 where
  win := launch3.win.to₀
  block_pos := launch3.block_pos
  stage_whole := launch3.stage_whole
  K := PEmpty
  osem k := k.elim
  ho := Pipeline.OwnSemFacts.none _
  hbody c := (body_obligation3 (Vc7 m) c).loose
  hwaits := Pipeline.hwaits_of_owed_zero _ _ _ _ Lr lvr 3 fun _ _ => rfl
  pre c := iprop(StableHlo.held (c : Thread nD τ) (Pipeline.ucRefs τ sig) (Wc7 m c) ∗ Rr c)
  post c := iprop(StableHlo.held (c : Thread nD τ) (Pipeline.ucRefs τ sig) (Wc8 m c) ∗ Rr c)
  X c := iprop(∃ r, prngReg c r)
  Y c := iprop(∃ r, prngReg c r)
  Z c := Pipeline.unscopedRest (Ix := Unit) (Name := ℕ) (U := UR sig nD τ) (Lvl := ℕ) spec3 c (Vc7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vc7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vc7 m c) (Vc8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `Wc9`, left with them at `Wc10`; its arrays are
    split out of the unscoped buffers and put back at what the write-backs leave; the generator register goes into the
    region's invariant and comes back; nothing is owed and the kernel has no semaphore of its own. -/
def reg4 : Pipeline.RegionSeg (pcfgs (F := F)) adm (pdats m) () defs₀ 𝒱r Lr lvr 4 where
  win := launch4.win.to₀
  block_pos := launch4.block_pos
  stage_whole := launch4.stage_whole
  K := PEmpty
  osem k := k.elim
  ho := Pipeline.OwnSemFacts.none _
  hbody c := (body_obligation4 (Vc9 m) c).loose
  hwaits := Pipeline.hwaits_of_owed_zero _ _ _ _ Lr lvr 4 fun _ _ => rfl
  pre c := iprop(StableHlo.held (c : Thread nD τ) (Pipeline.ucRefs τ sig) (Wc9 m c) ∗ Rr c)
  post c := iprop(StableHlo.held (c : Thread nD τ) (Pipeline.ucRefs τ sig) (Wc10 m c) ∗ Rr c)
  X c := iprop(∃ r, prngReg c r)
  Y c := iprop(∃ r, prngReg c r)
  Z c := Pipeline.unscopedRest (Ix := Unit) (Name := ℕ) (U := UR sig nD τ) (Lvl := ℕ) spec4 c (Vc9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vc9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vc9 m c) (Vc10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `Wc11`, left with them at `Wc12`; its arrays are
    split out of the unscoped buffers and put back at what the write-backs leave; the generator register goes into the
    region's invariant and comes back; nothing is owed and the kernel has no semaphore of its own. -/
def reg5 : Pipeline.RegionSeg (pcfgs (F := F)) adm (pdats m) () defs₀ 𝒱r Lr lvr 5 where
  win := launch5.win.to₀
  block_pos := launch5.block_pos
  stage_whole := launch5.stage_whole
  K := PEmpty
  osem k := k.elim
  ho := Pipeline.OwnSemFacts.none _
  hbody c := (body_obligation5 (Vc11 m) c).loose
  hwaits := Pipeline.hwaits_of_owed_zero _ _ _ _ Lr lvr 5 fun _ _ => rfl
  pre c := iprop(StableHlo.held (c : Thread nD τ) (Pipeline.ucRefs τ sig) (Wc11 m c) ∗ Rr c)
  post c := iprop(StableHlo.held (c : Thread nD τ) (Pipeline.ucRefs τ sig) (Wc12 m c) ∗ Rr c)
  X c := iprop(∃ r, prngReg c r)
  Y c := iprop(∃ r, prngReg c r)
  Z c := Pipeline.unscopedRest (Ix := Unit) (Name := ℕ) (U := UR sig nD τ) (Lvl := ℕ) spec5 c (Vc11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vc11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 5).pre c (fun _ => fullShare) (adm (F := F) 5).1 ∗ Pipeline.scopedRest spec5 c) ⊢ (Pipeline.ΦA spec5 c : sProp 𝕄) from by
      unfold Pipeline.ΦA
      iintro ⟨Hp, -, Hr⟩
      isplitl [Hr]; · iexact Hr
      iexact Hp).trans (hin5 (Vc11 m) c)
  hout c := (hout5 (Vc11 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vc11 m c) (Vc12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsr : List (Pipeline.Seg (pcfgs (F := F)) adm (pdats m) () defs₀ 𝒱r Lr lvr) :=
  [ .host (hsegr hostOps0 hostOps0_sub hostOps0_fresh (Wc0 m)),
    .region (reg0 m),
    .host (hsegr hostOps1 hostOps1_sub hostOps1_fresh (Wc2 m)),
    .region (reg1 m),
    .host (hsegr hostOps2 hostOps2_sub hostOps2_fresh (Wc4 m)),
    .region (reg2 m),
    .host (hsegr hostOps3 hostOps3_sub hostOps3_fresh (Wc6 m)),
    .region (reg3 m),
    .host (hsegr hostOps4 hostOps4_sub hostOps4_fresh (Wc8 m)),
    .region (reg4 m),
    .host (hsegr hostOps5 hostOps5_sub hostOps5_fresh (Wc10 m)),
    .region (reg5 m) ]
/-- @main is the run of the segments. -/
theorem main_runr (c : Dev nD) : main (F := F) c = Pipeline.Seg.run (segsr m) := (main_chain c).trans (by chain_rfl)

set_option backward.isDefEq.respectTransparency.types false in
/-- THE RUN: from any memory with zero counters every weakly fair execution of @main terminates, nothing faulting, and in
    every final state each unscoped buffer of each core holds what the fold computes for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc12 m c b) :=
  Pipeline.θ_run_regions_kit (pcfgs (F := F)) adm (pdats m) () cellOf_inj emb₁ defs₀ 𝒱r Lr lvr m ρ main (segsr m)
    (fun c Q => by rw [main_runr m c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wc0 m c) ∗ Rr c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (Wc12 m c) ∗ Rr c) ⊢ (iprop(Tlast m c ∗ ∃ W, owes (c.tc : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach Lr lvr fun c => ?_
      rw [show unscopedBufs c (fun b => m ((c : Thread nD τ).loc b)) = StableHlo.held (c : Thread nD τ) (Pipeline.ucRefs τ sig) (Wc0 m c)
        from Pipeline.unscopedBufs_held c (Wc0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc12 m c b)
    (hfin := fun c s' => by
      iintro ⟨⟨Hh, -⟩, HSI⟩
      unfold StableHlo.held
      imodintro
      iapply (pointsTo_read_all (Pipeline.ucRefs τ sig) (fun b => (((c : Thread nD τ)).1, b)) (Wc12 m c) s')
      isplitl [Hh] <;> iassumption)
    (hQ := fun s h c => h c)

/-- THE FRAME with the result: every argument array ends as launched, and the result buffer at what the last region's
    write-back leaves. -/
theorem run_result : θ_run defs (onTc (τ := τ) (main (F := F))) ⟨m, fun _ => 0, ρ⟩ (fun r => ∀ c : Dev nD,
      r.2.mem ((c.tc : Thread nD τ).loc main_v117) = (dat5 (Vc11 m) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_ucr main_v117 (by decide))).trans (Wc12_main_v117 m c),
     (h c _ (mem_ucr main_arg0 (by decide))).trans (Wc12_main_arg0 m c),
     (h c _ (mem_ucr main_arg1 (by decide))).trans (Wc12_main_arg1 m c),
     (h c _ (mem_ucr main_arg2 (by decide))).trans (Wc12_main_arg2 m c),
     (h c _ (mem_ucr main_arg3 (by decide))).trans (Wc12_main_arg3 m c),
     (h c _ (mem_ucr main_arg4 (by decide))).trans (Wc12_main_arg4 m c),
     (h c _ (mem_ucr main_arg5 (by decide))).trans (Wc12_main_arg5 m c),
     (h c _ (mem_ucr main_arg6 (by decide))).trans (Wc12_main_arg6 m c),
     (h c _ (mem_ucr main_arg7 (by decide))).trans (Wc12_main_arg7 m c),
     (h c _ (mem_ucr main_arg8 (by decide))).trans (Wc12_main_arg8 m c)⟩)
    (run_all m ρ)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Gen

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«136333_j35605278884121_1_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.LayerMath.lean ====
/-
  One layer of the network, read one entry at a time at the exact (extended-real) values.

  A layer sends the node features h and the aggregated neighbour features agg (both 100000×128) to
      max( (max( (h + agg) · Wa + ba , 0 )) · Wb + bb , 0 ),
  every row going through the two dense layers on its own.  Entry (r, q) of the result is therefore a function of
  row r of h and agg alone: the specification `layerFn` below.  The vector unit computes a block of 2000
  consecutive rows at a time (changes of float format before each product keep every value at the exact values);
  entry (p, q) of block t is `layerFn` at row 2000·t + p.
-/
import proofs.«136333_j35605278884121_1_alg».proof.Proof.Gen.KernelIdeal.Skeleton
import proofs.«136333_j35605278884121_1_alg».proof.Proof.LibDense

noncomputable section

open scoped BigOperators

namespace Cert.LayerMath

open Idealize.ShloMosaic Idealize.ShloMosaic.ValueIdx Cert.RowDot Cert.Dense Cert.KernelIdeal

/-- Entry (r, q) of one layer: both dense layers with their rectifiers, applied to row r of h + agg. -/
def layerFn (h agg : Fin 100000 → Fin 128 → EReal) (wa wb : Fin 128 → Fin 128 → EReal) (ba bb : Fin 128 → EReal) :
    Fin 100000 → Fin 128 → EReal :=
  fun r q => max ((∑ k, (max ((∑ j, (h r j + agg r j) * wa j k) + ba k) 0) * wb k q) + bb q) 0

/-- Row p of block t is row 2000·t + p of the whole array. -/
theorem blockRow_lt (t : Fin 50) (p : Fin 2000) : 2000 * t.val + p.val < 100000 := by
  have := t.isLt; have := p.isLt; omega

/-- A dense layer with its rectifier on a block of M rows, the matrix changing float format before the product
    (which keeps every value): entry (p, q) is the layer applied to row p of the block. -/
theorem relu_dense_fmt_block_apply {M K N : Nat} {φ₁ ψ : FTy} (prec : Option ContractPrecision)
    (a : FVec Ideal (⟨2, ![M, K]⟩ : Shape) φ₁) (w : FVec Ideal (⟨2, ![K, N]⟩ : Shape) .f32)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    maximumf (addf (matmul (DotDims.plain M K N) prec a (truncf ψ (shapeCast ⟨2, ![K, N]⟩ w hw) hψ)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32)) (ix2 p q)
      = relu (dense w (biasRow b) (rowOf a p)) q :=
  relu_dense_block_apply (ψ := ψ) prec a w b hw hb hbc hψ p q

/-- The vector unit's layer on block t, at entry (p, q): the layer at row 2000·t + p. -/
theorem k0_pay1_apply (h agg : Fin 100000 → Fin 128 → EReal) (wa wb : Fin 128 → Fin 128 → EReal)
    (ba bb : Fin 128 → EReal)
    (x0 x2 : Vec Ideal S2000x128 .f32) (x6 x17 : Vec Ideal S128x128 .f32) (x10 x21 : Vec Ideal S1x128 .f32)
    (t : Fin 50)
    (hx0 : ∀ (p : Fin 2000) (q : Fin 128), x0 (ix2 p q) = h ⟨2000 * t.val + p.val, blockRow_lt t p⟩ q)
    (hx2 : ∀ (p : Fin 2000) (q : Fin 128), x2 (ix2 p q) = agg ⟨2000 * t.val + p.val, blockRow_lt t p⟩ q)
    (hx6 : ∀ (j k : Fin 128), x6 (ix2 j k) = wa j k) (hx10 : ∀ k : Fin 128, x10 (ix2 0 k) = ba k)
    (hx17 : ∀ (j k : Fin 128), x17 (ix2 j k) = wb j k) (hx21 : ∀ k : Fin 128, x21 (ix2 0 k) = bb k)
    (p : Fin 2000) (q : Fin 128) :
    Gen.k0_pay1 (F := Ideal) x0 x2 x6 x10 x17 x21 (ix2 p q)
      = layerFn h agg wa wb ba bb ⟨2000 * t.val + p.val, blockRow_lt t p⟩ q := by
  unfold Gen.k0_pay1
  refine (relu_dense_fmt_block_apply (M := 2000) (K := 128) (N := 128) none _ x17 x21 _ _ _ _ p q).trans ?_
  unfold relu dense rowDot biasRow layerFn
  rw [Ideal.ofBits_zero_f32, hx21]
  refine congrArg (fun z : EReal => max (z + bb q) 0) (Finset.sum_congr rfl fun k _ => ?_)
  rw [hx17]
  refine congrArg (fun z : EReal => z * wb k q) ?_
  show rowOf _ p k = _
  unfold rowOf
  refine (relu_dense_fmt_block_apply (M := 2000) (K := 128) (N := 128) none _ x6 x10 _ _ _ _ p k).trans ?_
  unfold relu dense rowDot biasRow
  rw [Ideal.ofBits_zero_f32, hx10]
  refine congrArg (fun z : EReal => max (z + ba k) 0) (Finset.sum_congr rfl fun j _ => ?_)
  rw [hx6]
  refine congrArg (fun z : EReal => z * wa j k) ?_
  rw [shapeCast_self, shapeCast_self]
  show x0 (ix2 p j) + x2 (ix2 p j) = _
  rw [hx0, hx2]

/-- The five layer programs compute the same function of the values they read. -/
theorem k1_pay1_eq : @Gen.k1_pay1 = @Gen.k0_pay1 := rfl
theorem k2_pay1_eq : @Gen.k2_pay1 = @Gen.k0_pay1 := rfl
theorem k3_pay1_eq : @Gen.k3_pay1 = @Gen.k0_pay1 := rfl
theorem k4_pay1_eq : @Gen.k4_pay1 = @Gen.k0_pay1 := rfl

end Cert.LayerMath

end
-- ==== Proof.IdealLayerValue.lean ====
/-
  The value each layer region leaves in its output array, at the exact instance: the 50 write-backs are the 50 blocks of
  2000 rows of ONE whole-array function, the layer  relu(relu((h + agg)·Wa + ba)·Wb + bb)  of the arrays the region is
  entered with, because a row of the result depends only on the same row of `h` and `agg`; the blocks tile the rows.
-/
import proofs.«136333_j35605278884121_1_alg».proof.Proof.IdealLayer0
import proofs.«136333_j35605278884121_1_alg».proof.Proof.IdealLayer1
import proofs.«136333_j35605278884121_1_alg».proof.Proof.IdealLayer2
import proofs.«136333_j35605278884121_1_alg».proof.Proof.IdealLayer3
import proofs.«136333_j35605278884121_1_alg».proof.Proof.IdealLayer4
import proofs.«136333_j35605278884121_1_alg».proof.Proof.LayerMath
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.ShloMosaic.Pipeline (Dat)
open Cert.LayerMath

theorem hz : (![0, 0] : Fin 2 → Nat) = fun _ => 0 := funext fun a => by fin_cases a <;> rfl

/-- One layer on whole arrays: entry (r, q) is the layer's value of row r of `H` and `A`. -/
def layerArr (H A : S100000x128.Idx → EReal) (Wa : S128x128.Idx → EReal) (Ba : S1x128.Idx → EReal)
    (Wb : S128x128.Idx → EReal) (Bb : S1x128.Idx → EReal) : S100000x128.Idx → EReal :=
  fun i => layerFn (fun r j => H (ix2 r j)) (fun r j => A (ix2 r j)) (fun j k => Wa (ix2 j k)) (fun j k => Wb (ix2 j k))
    (fun k => Ba (ix2 0 k)) (fun k => Bb (ix2 0 k)) (i 0) (i 1)

/-! ## Region 0 -/

section Value0
variable (V : (c : Dev nD) → (b : Ref sig .tc) → Buf (Elt Ideal) ((c : Thread nD τ).loc b))

/-- The printed index maps over the grid: the two row-block windows and the output follow the grid point, the weights and
    the bias rows stay at block 0. -/
theorem idx_facts0 : ∀ t : Fin cfg0.N, win0_0.index t (0 : Fin 2) = t.val ∧ win0_0.index t (1 : Fin 2) = 0 ∧ win0_1.index t (0 : Fin 2) = t.val ∧ win0_1.index t (1 : Fin 2) = 0 ∧ win0_6.index t (0 : Fin 2) = t.val ∧ win0_6.index t (1 : Fin 2) = 0
    ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 :=
  (by decide +kernel : ∀ t : Fin grid0.N, _)

theorem pt_lt0 (t : Fin cfg0.N) : t.val < 50 := lt_of_lt_of_eq t.isLt (show cfg0.N = 50 from N_0)

/-- Block `t` of row-block window 0 is rows 2000·t … 2000·t + 1999 of its array. -/
theorem rd0_0 (c : Dev nD) (t : Fin cfg0.N) (p : Fin 2000) (q : Fin 128) :
    iblk0 V c 0 t (ix2 p q) = (V c (Pipeline.arrRef spec0 0)) (ix2 ⟨2000 * t.val + p.val, blockRow_lt ⟨t.val, pt_lt0 t⟩ p⟩ q) := by
  obtain ⟨e00, e01, e10, e11, e60, e61, e20, e21, e30, e31, e40, e41, e50, e51⟩ := idx_facts0 t
  show (V c (Pipeline.arrRef spec0 0)) (((cfg0.win 0).blk t).view.emb (ix2 p q)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * q.val = q.val; omega
/-- Block `t` of row-block window 1 is rows 2000·t … 2000·t + 1999 of its array. -/
theorem rd0_1 (c : Dev nD) (t : Fin cfg0.N) (p : Fin 2000) (q : Fin 128) :
    iblk0 V c 1 t (ix2 p q) = (V c (Pipeline.arrRef spec0 1)) (ix2 ⟨2000 * t.val + p.val, blockRow_lt ⟨t.val, pt_lt0 t⟩ p⟩ q) := by
  obtain ⟨e00, e01, e10, e11, e60, e61, e20, e21, e30, e31, e40, e41, e50, e51⟩ := idx_facts0 t
  show (V c (Pipeline.arrRef spec0 1)) (((cfg0.win 1).blk t).view.emb (ix2 p q)) = _
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * q.val = q.val; omega
/-- The one block of weight window 2 is its whole array. -/
theorem rd0_2 (c : Dev nD) (t : Fin cfg0.N) (j k : Fin 128) :
    iblk0 V c 2 t (ix2 j k) = (V c (Pipeline.arrRef spec0 2)) (ix2 j k) := by
  obtain ⟨e00, e01, e10, e11, e60, e61, e20, e21, e30, e31, e40, e41, e50, e51⟩ := idx_facts0 t
  show (V c (Pipeline.arrRef spec0 2)) (((cfg0.win 2).blk t).view.emb (ix2 j k)) = _
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega
/-- The one block of weight window 4 is its whole array. -/
theorem rd0_4 (c : Dev nD) (t : Fin cfg0.N) (j k : Fin 128) :
    iblk0 V c 4 t (ix2 j k) = (V c (Pipeline.arrRef spec0 4)) (ix2 j k) := by
  obtain ⟨e00, e01, e10, e11, e60, e61, e20, e21, e30, e31, e40, e41, e50, e51⟩ := idx_facts0 t
  show (V c (Pipeline.arrRef spec0 4)) (((cfg0.win 4).blk t).view.emb (ix2 j k)) = _
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega
/-- The one block of bias window 3 is its whole 1×128 array. -/
theorem rd0_3 (c : Dev nD) (t : Fin cfg0.N) (k : Fin 128) :
    iblk0 V c 3 t (ix2 0 k) = (V c (Pipeline.arrRef spec0 3)) (ix2 0 k) := by
  obtain ⟨e00, e01, e10, e11, e60, e61, e20, e21, e30, e31, e40, e41, e50, e51⟩ := idx_facts0 t
  show (V c (Pipeline.arrRef spec0 3)) (((cfg0.win 3).blk t).view.emb (ix2 0 k)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * k.val = k.val; omega
/-- The one block of bias window 5 is its whole 1×128 array. -/
theorem rd0_5 (c : Dev nD) (t : Fin cfg0.N) (k : Fin 128) :
    iblk0 V c 5 t (ix2 0 k) = (V c (Pipeline.arrRef spec0 5)) (ix2 0 k) := by
  obtain ⟨e00, e01, e10, e11, e60, e61, e20, e21, e30, e31, e40, e41, e50, e51⟩ := idx_facts0 t
  show (V c (Pipeline.arrRef spec0 5)) (((cfg0.win 5).blk t).view.emb (ix2 0 k)) = _
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 128 + 1 * k.val = k.val; omega

/-- Row p of output block `t` is row 2000·t + p of the output array. -/
theorem emb0_6 (t : Fin cfg0.N) (p : Fin 2000) (q : Fin 128) :
    ((cfg0.win 6).blk t).view.emb (ix2 p q) = ix2 ⟨2000 * t.val + p.val, blockRow_lt ⟨t.val, pt_lt0 t⟩ p⟩ q := by
  obtain ⟨e00, e01, e10, e11, e60, e61, e20, e21, e30, e31, e40, e41, e50, e51⟩ := idx_facts0 t
  refine funext fun a => Fin.ext ?_
  match a with
  | ⟨0, _⟩ => show win0_6.index t (0 : Fin 2) * 2000 + 1 * p.val = 2000 * t.val + p.val; omega
  | ⟨1, _⟩ => show win0_6.index t (1 : Fin 2) * 128 + 1 * q.val = q.val; omega

set_option maxHeartbeats 1000000 in
/-- WHAT POINT `t` WRITES BACK is block `t` of the layer's value on the whole arrays the region is entered with. -/
theorem flushed0_eq (c : Dev nD) (t : Fin cfg0.N) :
    (dat0 V c).flushed 6 t = ((cfg0.win 6).blk t).view.read (Elt Ideal) (layerArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
      = layerArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 p q))
  rw [emb0_6 t p q]
  exact k0_pay1_apply (fun r j => (V c (Pipeline.arrRef spec0 0)) (ix2 r j)) (fun r j => (V c (Pipeline.arrRef spec0 1)) (ix2 r j)) (fun j k => (V c (Pipeline.arrRef spec0 2)) (ix2 j k)) (fun j k => (V c (Pipeline.arrRef spec0 4)) (ix2 j k))
    (fun k => (V c (Pipeline.arrRef spec0 3)) (ix2 0 k)) (fun k => (V c (Pipeline.arrRef spec0 5)) (ix2 0 k)) (iblk0 V c 0 t) (iblk0 V c 1 t) (iblk0 V c 2 t) (iblk0 V c 4 t) (iblk0 V c 3 t) (iblk0 V c 5 t)
    ⟨t.val, pt_lt0 t⟩ (rd0_0 V c t) (rd0_1 V c t) (rd0_2 V c t) (rd0_3 V c t) (rd0_4 V c t) (rd0_5 V c t) p q

/-- An index of the output array is in point `t`'s block iff each coordinate is in the block's range. -/
theorem mem_blk0 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v31).slice (win0_6.rect t)).set ↔ _
  rw [View.set_slice_whole, Rect.mem_set_unit]
  exact Iff.rfl

/-- The 50 blocks of 2000 rows tile the 100000 rows: row `r` is in the block of point `r / 2000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 2000 < cfg0.N := by rw [show cfg0.N = 50 from N_0]; omega
  obtain ⟨-, -, -, -, e60, e61, -⟩ := idx_facts0 ⟨(i 0).val / 2000, hN⟩
  have e60' : win0_6.index ⟨(i 0).val / 2000, hN⟩ (0 : Fin 2) = (i 0).val / 2000 := e60
  refine ⟨⟨(i 0).val / 2000, hN⟩, flush0_6 _, ?_⟩
  rw [mem_blk0]
  intro a
  match a with
  | ⟨0, _⟩ => show win0_6.index ⟨(i 0).val / 2000, hN⟩ (0 : Fin 2) * 2000 ≤ (i 0).val ∧ (i 0).val < win0_6.index ⟨(i 0).val / 2000, hN⟩ (0 : Fin 2) * 2000 + 2000; omega
  | ⟨1, _⟩ => show win0_6.index ⟨(i 0).val / 2000, hN⟩ (1 : Fin 2) * 128 ≤ (i 1).val ∧ (i 1).val < win0_6.index ⟨(i 0).val / 2000, hN⟩ (1 : Fin 2) * 128 + 128; omega

/-- THE OUTPUT ARRAY after region 0: the layer's value on the whole arrays the region is entered with. -/
theorem final0 (c : Dev nD) : (dat0 V c).arrAt 6 cfg0.N = layerArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 _ (fun t _ => flushed0_eq V c t) (cover0)

end Value0

/-! ## Region 1 -/

section Value1
variable (V : (c : Dev nD) → (b : Ref sig .tc) → Buf (Elt Ideal) ((c : Thread nD τ).loc b))

/-- The printed index maps over the grid: the two row-block windows and the output follow the grid point, the weights and
    the bias rows stay at block 0. -/
theorem idx_facts1 : ∀ t : Fin cfg1.N, win1_0.index t (0 : Fin 2) = t.val ∧ win1_0.index t (1 : Fin 2) = 0 ∧ win1_1.index t (0 : Fin 2) = t.val ∧ win1_1.index t (1 : Fin 2) = 0 ∧ win1_6.index t (0 : Fin 2) = t.val ∧ win1_6.index t (1 : Fin 2) = 0
    ∧ win1_2.index t (0 : Fin 2) = 0 ∧ win1_2.index t (1 : Fin 2) = 0 ∧ win1_3.index t (0 : Fin 2) = 0 ∧ win1_3.index t (1 : Fin 2) = 0 ∧ win1_4.index t (0 : Fin 2) = 0 ∧ win1_4.index t (1 : Fin 2) = 0 ∧ win1_5.index t (0 : Fin 2) = 0 ∧ win1_5.index t (1 : Fin 2) = 0 :=
  (by decide +kernel : ∀ t : Fin grid1.N, _)

theorem pt_lt1 (t : Fin cfg1.N) : t.val < 50 := lt_of_lt_of_eq t.isLt (show cfg1.N = 50 from N_1)

/-- Block `t` of row-block window 0 is rows 2000·t … 2000·t + 1999 of its array. -/
theorem rd1_0 (c : Dev nD) (t : Fin cfg1.N) (p : Fin 2000) (q : Fin 128) :
    iblk1 V c 0 t (ix2 p q) = (V c (Pipeline.arrRef spec1 0)) (ix2 ⟨2000 * t.val + p.val, blockRow_lt ⟨t.val, pt_lt1 t⟩ p⟩ q) := by
  obtain ⟨e00, e01, e10, e11, e60, e61, e20, e21, e30, e31, e40, e41, e50, e51⟩ := idx_facts1 t
  show (V c (Pipeline.arrRef spec1 0)) (((cfg1.win 0).blk t).view.emb (ix2 p q)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * q.val = q.val; omega
/-- Block `t` of row-block window 1 is rows 2000·t … 2000·t + 1999 of its array. -/
theorem rd1_1 (c : Dev nD) (t : Fin cfg1.N) (p : Fin 2000) (q : Fin 128) :
    iblk1 V c 1 t (ix2 p q) = (V c (Pipeline.arrRef spec1 1)) (ix2 ⟨2000 * t.val + p.val, blockRow_lt ⟨t.val, pt_lt1 t⟩ p⟩ q) := by
  obtain ⟨e00, e01, e10, e11, e60, e61, e20, e21, e30, e31, e40, e41, e50, e51⟩ := idx_facts1 t
  show (V c (Pipeline.arrRef spec1 1)) (((cfg1.win 1).blk t).view.emb (ix2 p q)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * q.val = q.val; omega
/-- The one block of weight window 2 is its whole array. -/
theorem rd1_2 (c : Dev nD) (t : Fin cfg1.N) (j k : Fin 128) :
    iblk1 V c 2 t (ix2 j k) = (V c (Pipeline.arrRef spec1 2)) (ix2 j k) := by
  obtain ⟨e00, e01, e10, e11, e60, e61, e20, e21, e30, e31, e40, e41, e50, e51⟩ := idx_facts1 t
  show (V c (Pipeline.arrRef spec1 2)) (((cfg1.win 2).blk t).view.emb (ix2 j k)) = _
  refine congrArg _ (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega
/-- The one block of weight window 4 is its whole array. -/
theorem rd1_4 (c : Dev nD) (t : Fin cfg1.N) (j k : Fin 128) :
    iblk1 V c 4 t (ix2 j k) = (V c (Pipeline.arrRef spec1 4)) (ix2 j k) := by
  obtain ⟨e00, e01, e10, e11, e60, e61, e20, e21, e30, e31, e40, e41, e50, e51⟩ := idx_facts1 t
  show (V c (Pipeline.arrRef spec1 4)) (((cfg1.win 4).blk t).view.emb (ix2 j k)) = _
  refine congrArg _ (funext fun a => Fin.ext ?_)
  match a with
  | ⟨0, _⟩ => show win1_4.index t (0 : Fin 2) * 128 + 1 * j.val = j.val; omega
  | ⟨1, _⟩ => show win1_4.index t (1 : Fin 2) * 128 + 1 * k.val = k.val; omega
/-- The one block of bias window 3 is its whole 1×128 array. -/
theorem rd1_3 (c : Dev nD) (t : Fin cfg1.N) (k : Fin 128) :
    iblk1 V c 3 t (ix2 0 k) = (V c (Pipeline.arrRef spec1 3)) (ix2 0 k) := by
  obtain ⟨e00, e01, e10, e11, e60, e61, e20, e21, e30, e31, e40, e41, e50, e51⟩ := idx_facts1 t
  show (V c (Pipeline.arrRef spec1 3)) (((cfg1.win 3).blk t).view.emb (ix2 0 k)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * k.val = k.val; omega
/-- The one block of bias window 5 is its whole 1×128 array. -/
theorem rd1_5 (c : Dev nD) (t : Fin cfg1.N) (k : Fin 128) :
    iblk1 V c 5 t (ix2 0 k) = (V c (Pipeline.arrRef spec1 5)) (ix2 0 k) := by
  obtain ⟨e00, e01, e10, e11, e60, e61, e20, e21, e30, e31, e40, e41, e50, e51⟩ := idx_facts1 t
  show (V c (Pipeline.arrRef spec1 5)) (((cfg1.win 5).blk t).view.emb (ix2 0 k)) = _
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 128 + 1 * k.val = k.val; omega

/-- Row p of output block `t` is row 2000·t + p of the output array. -/
theorem emb1_6 (t : Fin cfg1.N) (p : Fin 2000) (q : Fin 128) :
    ((cfg1.win 6).blk t).view.emb (ix2 p q) = ix2 ⟨2000 * t.val + p.val, blockRow_lt ⟨t.val, pt_lt1 t⟩ p⟩ q := by
  obtain ⟨e00, e01, e10, e11, e60, e61, e20, e21, e30, e31, e40, e41, e50, e51⟩ := idx_facts1 t
  refine funext fun a => Fin.ext ?_
  match a with
  | ⟨0, _⟩ => show win1_6.index t (0 : Fin 2) * 2000 + 1 * p.val = 2000 * t.val + p.val; omega
  | ⟨1, _⟩ => show win1_6.index t (1 : Fin 2) * 128 + 1 * q.val = q.val; omega

set_option maxHeartbeats 1000000 in
/-- WHAT POINT `t` WRITES BACK is block `t` of the layer's value on the whole arrays the region is entered with. -/
theorem flushed1_eq (c : Dev nD) (t : Fin cfg1.N) :
    (dat1 V c).flushed 6 t = ((cfg1.win 6).blk t).view.read (Elt Ideal) (layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
      = layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p q))
  rw [emb1_6 t p q]
  rw [k1_pay1_eq]
  exact k0_pay1_apply (fun r j => (V c (Pipeline.arrRef spec1 0)) (ix2 r j)) (fun r j => (V c (Pipeline.arrRef spec1 1)) (ix2 r j)) (fun j k => (V c (Pipeline.arrRef spec1 2)) (ix2 j k)) (fun j k => (V c (Pipeline.arrRef spec1 4)) (ix2 j k))
    (fun k => (V c (Pipeline.arrRef spec1 3)) (ix2 0 k)) (fun k => (V c (Pipeline.arrRef spec1 5)) (ix2 0 k)) (iblk1 V c 0 t) (iblk1 V c 1 t) (iblk1 V c 2 t) (iblk1 V c 4 t) (iblk1 V c 3 t) (iblk1 V c 5 t)
    ⟨t.val, pt_lt1 t⟩ (rd1_0 V c t) (rd1_1 V c t) (rd1_2 V c t) (rd1_3 V c t) (rd1_4 V c t) (rd1_5 V c t) p q

/-- An index of the output array is in point `t`'s block iff each coordinate is in the block's range. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v52).slice (win1_6.rect t)).set ↔ _
  rw [View.set_slice_whole, Rect.mem_set_unit]
  exact Iff.rfl

/-- The 50 blocks of 2000 rows tile the 100000 rows: row `r` is in the block of point `r / 2000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 2000 < cfg1.N := by rw [show cfg1.N = 50 from N_1]; omega
  obtain ⟨-, -, -, -, e60, e61, -⟩ := idx_facts1 ⟨(i 0).val / 2000, hN⟩
  have e60' : win1_6.index ⟨(i 0).val / 2000, hN⟩ (0 : Fin 2) = (i 0).val / 2000 := e60
  refine ⟨⟨(i 0).val / 2000, hN⟩, flush1_6 _, ?_⟩
  rw [mem_blk1]
  intro a
  match a with
  | ⟨0, _⟩ => show win1_6.index ⟨(i 0).val / 2000, hN⟩ (0 : Fin 2) * 2000 ≤ (i 0).val ∧ (i 0).val < win1_6.index ⟨(i 0).val / 2000, hN⟩ (0 : Fin 2) * 2000 + 2000; omega
  | ⟨1, _⟩ => show win1_6.index ⟨(i 0).val / 2000, hN⟩ (1 : Fin 2) * 128 ≤ (i 1).val ∧ (i 1).val < win1_6.index ⟨(i 0).val / 2000, hN⟩ (1 : Fin 2) * 128 + 128; omega

/-- THE OUTPUT ARRAY after region 1: the layer's value on the whole arrays the region is entered with. -/
theorem final1 (c : Dev nD) : (dat1 V c).arrAt 6 cfg1.N = layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_eq V c t) (cover1)

end Value1

/-! ## Region 2 -/

section Value2
variable (V : (c : Dev nD) → (b : Ref sig .tc) → Buf (Elt Ideal) ((c : Thread nD τ).loc b))

/-- The printed index maps over the grid: the two row-block windows and the output follow the grid point, the weights and
    the bias rows stay at block 0. -/
theorem idx_facts2 : ∀ t : Fin cfg2.N, win2_0.index t (0 : Fin 2) = t.val ∧ win2_0.index t (1 : Fin 2) = 0 ∧ win2_1.index t (0 : Fin 2) = t.val ∧ win2_1.index t (1 : Fin 2) = 0 ∧ win2_6.index t (0 : Fin 2) = t.val ∧ win2_6.index t (1 : Fin 2) = 0
    ∧ win2_2.index t (0 : Fin 2) = 0 ∧ win2_2.index t (1 : Fin 2) = 0 ∧ win2_3.index t (0 : Fin 2) = 0 ∧ win2_3.index t (1 : Fin 2) = 0 ∧ win2_4.index t (0 : Fin 2) = 0 ∧ win2_4.index t (1 : Fin 2) = 0 ∧ win2_5.index t (0 : Fin 2) = 0 ∧ win2_5.index t (1 : Fin 2) = 0 :=
  (by decide +kernel : ∀ t : Fin grid2.N, _)

theorem pt_lt2 (t : Fin cfg2.N) : t.val < 50 := lt_of_lt_of_eq t.isLt (show cfg2.N = 50 from N_2)

/-- Block `t` of row-block window 0 is rows 2000·t … 2000·t + 1999 of its array. -/
theorem rd2_0 (c : Dev nD) (t : Fin cfg2.N) (p : Fin 2000) (q : Fin 128) :
    iblk2 V c 0 t (ix2 p q) = (V c (Pipeline.arrRef spec2 0)) (ix2 ⟨2000 * t.val + p.val, blockRow_lt ⟨t.val, pt_lt2 t⟩ p⟩ q) := by
  obtain ⟨e00, e01, e10, e11, e60, e61, e20, e21, e30, e31, e40, e41, e50, e51⟩ := idx_facts2 t
  show (V c (Pipeline.arrRef spec2 0)) (((cfg2.win 0).blk t).view.emb (ix2 p q)) = _
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * q.val = q.val; omega
/-- Block `t` of row-block window 1 is rows 2000·t … 2000·t + 1999 of its array. -/
theorem rd2_1 (c : Dev nD) (t : Fin cfg2.N) (p : Fin 2000) (q : Fin 128) :
    iblk2 V c 1 t (ix2 p q) = (V c (Pipeline.arrRef spec2 1)) (ix2 ⟨2000 * t.val + p.val, blockRow_lt ⟨t.val, pt_lt2 t⟩ p⟩ q) := by
  obtain ⟨e00, e01, e10, e11, e60, e61, e20, e21, e30, e31, e40, e41, e50, e51⟩ := idx_facts2 t
  show (V c (Pipeline.arrRef spec2 1)) (((cfg2.win 1).blk t).view.emb (ix2 p q)) = _
  refine congrArg _ (funext fun a => Fin.ext ?_)
  match a with
  | ⟨0, _⟩ => show win2_1.index t (0 : Fin 2) * 2000 + 1 * p.val = 2000 * t.val + p.val; omega
  | ⟨1, _⟩ => show win2_1.index t (1 : Fin 2) * 128 + 1 * q.val = q.val; omega
/-- The one block of weight window 2 is its whole array. -/
theorem rd2_2 (c : Dev nD) (t : Fin cfg2.N) (j k : Fin 128) :
    iblk2 V c 2 t (ix2 j k) = (V c (Pipeline.arrRef spec2 2)) (ix2 j k) := by
  obtain ⟨e00, e01, e10, e11, e60, e61, e20, e21, e30, e31, e40, e41, e50, e51⟩ := idx_facts2 t
  show (V c (Pipeline.arrRef spec2 2)) (((cfg2.win 2).blk t).view.emb (ix2 j k)) = _
  refine congrArg _ (funext fun a => Fin.ext ?_)
  match a with
  | ⟨0, _⟩ => show win2_2.index t (0 : Fin 2) * 128 + 1 * j.val = j.val; omega
  | ⟨1, _⟩ => show win2_2.index t (1 : Fin 2) * 128 + 1 * k.val = k.val; omega
/-- The one block of weight window 4 is its whole array. -/
theorem rd2_4 (c : Dev nD) (t : Fin cfg2.N) (j k : Fin 128) :
    iblk2 V c 4 t (ix2 j k) = (V c (Pipeline.arrRef spec2 4)) (ix2 j k) := by
  obtain ⟨e00, e01, e10, e11, e60, e61, e20, e21, e30, e31, e40, e41, e50, e51⟩ := idx_facts2 t
  show (V c (Pipeline.arrRef spec2 4)) (((cfg2.win 4).blk t).view.emb (ix2 j k)) = _
  refine congrArg _ (funext fun a => Fin.ext ?_)
  match a with
  | ⟨0, _⟩ => show win2_4.index t (0 : Fin 2) * 128 + 1 * j.val = j.val; omega
  | ⟨1, _⟩ => show win2_4.index t (1 : Fin 2) * 128 + 1 * k.val = k.val; omega
/-- The one block of bias window 3 is its whole 1×128 array. -/
theorem rd2_3 (c : Dev nD) (t : Fin cfg2.N) (k : Fin 128) :
    iblk2 V c 3 t (ix2 0 k) = (V c (Pipeline.arrRef spec2 3)) (ix2 0 k) := by
  obtain ⟨e00, e01, e10, e11, e60, e61, e20, e21, e30, e31, e40, e41, e50, e51⟩ := idx_facts2 t
  show (V c (Pipeline.arrRef spec2 3)) (((cfg2.win 3).blk t).view.emb (ix2 0 k)) = _
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * k.val = k.val; omega
/-- The one block of bias window 5 is its whole 1×128 array. -/
theorem rd2_5 (c : Dev nD) (t : Fin cfg2.N) (k : Fin 128) :
    iblk2 V c 5 t (ix2 0 k) = (V c (Pipeline.arrRef spec2 5)) (ix2 0 k) := by
  obtain ⟨e00, e01, e10, e11, e60, e61, e20, e21, e30, e31, e40, e41, e50, e51⟩ := idx_facts2 t
  show (V c (Pipeline.arrRef spec2 5)) (((cfg2.win 5).blk t).view.emb (ix2 0 k)) = _
  refine congrArg _ (funext fun a => Fin.ext ?_)
  match a with
  | ⟨0, _⟩ => show win2_5.index t (0 : Fin 2) * 1 + 1 * (0 : Fin 1).val = (0 : Fin 1).val; omega
  | ⟨1, _⟩ => show win2_5.index t (1 : Fin 2) * 128 + 1 * k.val = k.val; omega

/-- Row p of output block `t` is row 2000·t + p of the output array. -/
theorem emb2_6 (t : Fin cfg2.N) (p : Fin 2000) (q : Fin 128) :
    ((cfg2.win 6).blk t).view.emb (ix2 p q) = ix2 ⟨2000 * t.val + p.val, blockRow_lt ⟨t.val, pt_lt2 t⟩ p⟩ q := by
  obtain ⟨e00, e01, e10, e11, e60, e61, e20, e21, e30, e31, e40, e41, e50, e51⟩ := idx_facts2 t
  refine funext fun a => Fin.ext ?_
  match a with
  | ⟨0, _⟩ => show win2_6.index t (0 : Fin 2) * 2000 + 1 * p.val = 2000 * t.val + p.val; omega
  | ⟨1, _⟩ => show win2_6.index t (1 : Fin 2) * 128 + 1 * q.val = q.val; omega

set_option maxHeartbeats 1000000 in
/-- WHAT POINT `t` WRITES BACK is block `t` of the layer's value on the whole arrays the region is entered with. -/
theorem flushed2_eq (c : Dev nD) (t : Fin cfg2.N) :
    (dat2 V c).flushed 6 t = ((cfg2.win 6).blk t).view.read (Elt Ideal) (layerArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
      = layerArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 p q))
  rw [emb2_6 t p q]
  rw [k2_pay1_eq]
  exact k0_pay1_apply (fun r j => (V c (Pipeline.arrRef spec2 0)) (ix2 r j)) (fun r j => (V c (Pipeline.arrRef spec2 1)) (ix2 r j)) (fun j k => (V c (Pipeline.arrRef spec2 2)) (ix2 j k)) (fun j k => (V c (Pipeline.arrRef spec2 4)) (ix2 j k))
    (fun k => (V c (Pipeline.arrRef spec2 3)) (ix2 0 k)) (fun k => (V c (Pipeline.arrRef spec2 5)) (ix2 0 k)) (iblk2 V c 0 t) (iblk2 V c 1 t) (iblk2 V c 2 t) (iblk2 V c 4 t) (iblk2 V c 3 t) (iblk2 V c 5 t)
    ⟨t.val, pt_lt2 t⟩ (rd2_0 V c t) (rd2_1 V c t) (rd2_2 V c t) (rd2_3 V c t) (rd2_4 V c t) (rd2_5 V c t) p q

/-- An index of the output array is in point `t`'s block iff each coordinate is in the block's range. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v73).slice (win2_6.rect t)).set ↔ _
  rw [View.set_slice_whole, Rect.mem_set_unit]
  exact Iff.rfl

/-- The 50 blocks of 2000 rows tile the 100000 rows: row `r` is in the block of point `r / 2000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : (i 0).val / 2000 < cfg2.N := by rw [show cfg2.N = 50 from N_2]; omega
  obtain ⟨-, -, -, -, e60, e61, -⟩ := idx_facts2 ⟨(i 0).val / 2000, hN⟩
  have e60' : win2_6.index ⟨(i 0).val / 2000, hN⟩ (0 : Fin 2) = (i 0).val / 2000 := e60
  refine ⟨⟨(i 0).val / 2000, hN⟩, flush2_6 _, ?_⟩
  rw [mem_blk2]
  intro a
  match a with
  | ⟨0, _⟩ => show win2_6.index ⟨(i 0).val / 2000, hN⟩ (0 : Fin 2) * 2000 ≤ (i 0).val ∧ (i 0).val < win2_6.index ⟨(i 0).val / 2000, hN⟩ (0 : Fin 2) * 2000 + 2000; omega
  | ⟨1, _⟩ => show win2_6.index ⟨(i 0).val / 2000, hN⟩ (1 : Fin 2) * 128 ≤ (i 1).val ∧ (i 1).val < win2_6.index ⟨(i 0).val / 2000, hN⟩ (1 : Fin 2) * 128 + 128; omega

/-- THE OUTPUT ARRAY after region 2: the layer's value on the whole arrays the region is entered with. -/
theorem final2 (c : Dev nD) : (dat2 V c).arrAt 6 cfg2.N = layerArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => flushed2_eq V c t) (cover2)

end Value2

/-! ## Region 3 -/

section Value3
variable (V : (c : Dev nD) → (b : Ref sig .tc) → Buf (Elt Ideal) ((c : Thread nD τ).loc b))

/-- The printed index maps over the grid: the two row-block windows and the output follow the grid point, the weights and
    the bias rows stay at block 0. -/
theorem idx_facts3 : ∀ t : Fin cfg3.N, win3_0.index t (0 : Fin 2) = t.val ∧ win3_0.index t (1 : Fin 2) = 0 ∧ win3_1.index t (0 : Fin 2) = t.val ∧ win3_1.index t (1 : Fin 2) = 0 ∧ win3_6.index t (0 : Fin 2) = t.val ∧ win3_6.index t (1 : Fin 2) = 0
    ∧ win3_2.index t (0 : Fin 2) = 0 ∧ win3_2.index t (1 : Fin 2) = 0 ∧ win3_3.index t (0 : Fin 2) = 0 ∧ win3_3.index t (1 : Fin 2) = 0 ∧ win3_4.index t (0 : Fin 2) = 0 ∧ win3_4.index t (1 : Fin 2) = 0 ∧ win3_5.index t (0 : Fin 2) = 0 ∧ win3_5.index t (1 : Fin 2) = 0 :=
  (by decide +kernel : ∀ t : Fin grid3.N, _)

theorem pt_lt3 (t : Fin cfg3.N) : t.val < 50 := lt_of_lt_of_eq t.isLt (show cfg3.N = 50 from N_3)

/-- Block `t` of row-block window 0 is rows 2000·t … 2000·t + 1999 of its array. -/
theorem rd3_0 (c : Dev nD) (t : Fin cfg3.N) (p : Fin 2000) (q : Fin 128) :
    iblk3 V c 0 t (ix2 p q) = (V c (Pipeline.arrRef spec3 0)) (ix2 ⟨2000 * t.val + p.val, blockRow_lt ⟨t.val, pt_lt3 t⟩ p⟩ q) := by
  obtain ⟨e00, e01, e10, e11, e60, e61, e20, e21, e30, e31, e40, e41, e50, e51⟩ := idx_facts3 t
  show (V c (Pipeline.arrRef spec3 0)) (((cfg3.win 0).blk t).view.emb (ix2 p q)) = _
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * q.val = q.val; omega
/-- Block `t` of row-block window 1 is rows 2000·t … 2000·t + 1999 of its array. -/
theorem rd3_1 (c : Dev nD) (t : Fin cfg3.N) (p : Fin 2000) (q : Fin 128) :
    iblk3 V c 1 t (ix2 p q) = (V c (Pipeline.arrRef spec3 1)) (ix2 ⟨2000 * t.val + p.val, blockRow_lt ⟨t.val, pt_lt3 t⟩ p⟩ q) := by
  obtain ⟨e00, e01, e10, e11, e60, e61, e20, e21, e30, e31, e40, e41, e50, e51⟩ := idx_facts3 t
  show (V c (Pipeline.arrRef spec3 1)) (((cfg3.win 1).blk t).view.emb (ix2 p q)) = _
  refine congrArg _ (funext fun a => Fin.ext ?_)
  match a with
  | ⟨0, _⟩ => show win3_1.index t (0 : Fin 2) * 2000 + 1 * p.val = 2000 * t.val + p.val; omega
  | ⟨1, _⟩ => show win3_1.index t (1 : Fin 2) * 128 + 1 * q.val = q.val; omega
/-- The one block of weight window 2 is its whole array. -/
theorem rd3_2 (c : Dev nD) (t : Fin cfg3.N) (j k : Fin 128) :
    iblk3 V c 2 t (ix2 j k) = (V c (Pipeline.arrRef spec3 2)) (ix2 j k) := by
  obtain ⟨e00, e01, e10, e11, e60, e61, e20, e21, e30, e31, e40, e41, e50, e51⟩ := idx_facts3 t
  show (V c (Pipeline.arrRef spec3 2)) (((cfg3.win 2).blk t).view.emb (ix2 j k)) = _
  refine congrArg _ (funext fun a => Fin.ext ?_)
  match a with
  | ⟨0, _⟩ => show win3_2.index t (0 : Fin 2) * 128 + 1 * j.val = j.val; omega
  | ⟨1, _⟩ => show win3_2.index t (1 : Fin 2) * 128 + 1 * k.val = k.val; omega
/-- The one block of weight window 4 is its whole array. -/
theorem rd3_4 (c : Dev nD) (t : Fin cfg3.N) (j k : Fin 128) :
    iblk3 V c 4 t (ix2 j k) = (V c (Pipeline.arrRef spec3 4)) (ix2 j k) := by
  obtain ⟨e00, e01, e10, e11, e60, e61, e20, e21, e30, e31, e40, e41, e50, e51⟩ := idx_facts3 t
  show (V c (Pipeline.arrRef spec3 4)) (((cfg3.win 4).blk t).view.emb (ix2 j k)) = _
  refine congrArg _ (funext fun a => Fin.ext ?_)
  match a with
  | ⟨0, _⟩ => show win3_4.index t (0 : Fin 2) * 128 + 1 * j.val = j.val; omega
  | ⟨1, _⟩ => show win3_4.index t (1 : Fin 2) * 128 + 1 * k.val = k.val; omega
/-- The one block of bias window 3 is its whole 1×128 array. -/
theorem rd3_3 (c : Dev nD) (t : Fin cfg3.N) (k : Fin 128) :
    iblk3 V c 3 t (ix2 0 k) = (V c (Pipeline.arrRef spec3 3)) (ix2 0 k) := by
  obtain ⟨e00, e01, e10, e11, e60, e61, e20, e21, e30, e31, e40, e41, e50, e51⟩ := idx_facts3 t
  show (V c (Pipeline.arrRef spec3 3)) (((cfg3.win 3).blk t).view.emb (ix2 0 k)) = _
  refine congrArg _ (funext fun a => Fin.ext ?_)
  match a with
  | ⟨0, _⟩ => show win3_3.index t (0 : Fin 2) * 1 + 1 * (0 : Fin 1).val = (0 : Fin 1).val; omega
  | ⟨1, _⟩ => show win3_3.index t (1 : Fin 2) * 128 + 1 * k.val = k.val; omega
/-- The one block of bias window 5 is its whole 1×128 array. -/
theorem rd3_5 (c : Dev nD) (t : Fin cfg3.N) (k : Fin 128) :
    iblk3 V c 5 t (ix2 0 k) = (V c (Pipeline.arrRef spec3 5)) (ix2 0 k) := by
  obtain ⟨e00, e01, e10, e11, e60, e61, e20, e21, e30, e31, e40, e41, e50, e51⟩ := idx_facts3 t
  show (V c (Pipeline.arrRef spec3 5)) (((cfg3.win 5).blk t).view.emb (ix2 0 k)) = _
  refine congrArg _ (funext fun a => Fin.ext ?_)
  match a with
  | ⟨0, _⟩ => show win3_5.index t (0 : Fin 2) * 1 + 1 * (0 : Fin 1).val = (0 : Fin 1).val; omega
  | ⟨1, _⟩ => show win3_5.index t (1 : Fin 2) * 128 + 1 * k.val = k.val; omega

/-- Row p of output block `t` is row 2000·t + p of the output array. -/
theorem emb3_6 (t : Fin cfg3.N) (p : Fin 2000) (q : Fin 128) :
    ((cfg3.win 6).blk t).view.emb (ix2 p q) = ix2 ⟨2000 * t.val + p.val, blockRow_lt ⟨t.val, pt_lt3 t⟩ p⟩ q := by
  obtain ⟨e00, e01, e10, e11, e60, e61, e20, e21, e30, e31, e40, e41, e50, e51⟩ := idx_facts3 t
  refine funext fun a => Fin.ext ?_
  match a with
  | ⟨0, _⟩ => show win3_6.index t (0 : Fin 2) * 2000 + 1 * p.val = 2000 * t.val + p.val; omega
  | ⟨1, _⟩ => show win3_6.index t (1 : Fin 2) * 128 + 1 * q.val = q.val; omega

set_option maxHeartbeats 1000000 in
/-- WHAT POINT `t` WRITES BACK is block `t` of the layer's value on the whole arrays the region is entered with. -/
theorem flushed3_eq (c : Dev nD) (t : Fin cfg3.N) :
    (dat3 V c).flushed 6 t = ((cfg3.win 6).blk t).view.read (Elt Ideal) (layerArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q)
      = layerArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb (ix2 p q))
  rw [emb3_6 t p q]
  rw [k3_pay1_eq]
  exact k0_pay1_apply (fun r j => (V c (Pipeline.arrRef spec3 0)) (ix2 r j)) (fun r j => (V c (Pipeline.arrRef spec3 1)) (ix2 r j)) (fun j k => (V c (Pipeline.arrRef spec3 2)) (ix2 j k)) (fun j k => (V c (Pipeline.arrRef spec3 4)) (ix2 j k))
    (fun k => (V c (Pipeline.arrRef spec3 3)) (ix2 0 k)) (fun k => (V c (Pipeline.arrRef spec3 5)) (ix2 0 k)) (iblk3 V c 0 t) (iblk3 V c 1 t) (iblk3 V c 2 t) (iblk3 V c 4 t) (iblk3 V c 3 t) (iblk3 V c 5 t)
    ⟨t.val, pt_lt3 t⟩ (rd3_0 V c t) (rd3_1 V c t) (rd3_2 V c t) (rd3_3 V c t) (rd3_4 V c t) (rd3_5 V c t) p q

/-- An index of the output array is in point `t`'s block iff each coordinate is in the block's range. -/
theorem mem_blk3 (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v94).slice (win3_6.rect t)).set ↔ _
  rw [View.set_slice_whole, Rect.mem_set_unit]
  exact Iff.rfl

/-- The 50 blocks of 2000 rows tile the 100000 rows: row `r` is in the block of point `r / 2000`. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : (i 0).val / 2000 < cfg3.N := by rw [show cfg3.N = 50 from N_3]; omega
  obtain ⟨-, -, -, -, e60, e61, -⟩ := idx_facts3 ⟨(i 0).val / 2000, hN⟩
  have e60' : win3_6.index ⟨(i 0).val / 2000, hN⟩ (0 : Fin 2) = (i 0).val / 2000 := e60
  refine ⟨⟨(i 0).val / 2000, hN⟩, flush3_6 _, ?_⟩
  rw [mem_blk3]
  intro a
  match a with
  | ⟨0, _⟩ => show win3_6.index ⟨(i 0).val / 2000, hN⟩ (0 : Fin 2) * 2000 ≤ (i 0).val ∧ (i 0).val < win3_6.index ⟨(i 0).val / 2000, hN⟩ (0 : Fin 2) * 2000 + 2000; omega
  | ⟨1, _⟩ => show win3_6.index ⟨(i 0).val / 2000, hN⟩ (1 : Fin 2) * 128 ≤ (i 1).val ∧ (i 1).val < win3_6.index ⟨(i 0).val / 2000, hN⟩ (1 : Fin 2) * 128 + 128; omega

/-- THE OUTPUT ARRAY after region 3: the layer's value on the whole arrays the region is entered with. -/
theorem final3 (c : Dev nD) : (dat3 V c).arrAt 6 cfg3.N = layerArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed3_eq V c t) (cover3)

end Value3

/-! ## Region 4 -/

section Value4
variable (V : (c : Dev nD) → (b : Ref sig .tc) → Buf (Elt Ideal) ((c : Thread nD τ).loc b))

/-- The printed index maps over the grid: the two row-block windows and the output follow the grid point, the weights and
    the bias rows stay at block 0. -/
theorem idx_facts4 : ∀ t : Fin cfg4.N, win4_0.index t (0 : Fin 2) = t.val ∧ win4_0.index t (1 : Fin 2) = 0 ∧ win4_1.index t (0 : Fin 2) = t.val ∧ win4_1.index t (1 : Fin 2) = 0 ∧ win4_6.index t (0 : Fin 2) = t.val ∧ win4_6.index t (1 : Fin 2) = 0
    ∧ win4_2.index t (0 : Fin 2) = 0 ∧ win4_2.index t (1 : Fin 2) = 0 ∧ win4_3.index t (0 : Fin 2) = 0 ∧ win4_3.index t (1 : Fin 2) = 0 ∧ win4_4.index t (0 : Fin 2) = 0 ∧ win4_4.index t (1 : Fin 2) = 0 ∧ win4_5.index t (0 : Fin 2) = 0 ∧ win4_5.index t (1 : Fin 2) = 0 :=
  (by decide +kernel : ∀ t : Fin grid4.N, _)

theorem pt_lt4 (t : Fin cfg4.N) : t.val < 50 := lt_of_lt_of_eq t.isLt (show cfg4.N = 50 from N_4)

/-- Block `t` of row-block window 0 is rows 2000·t … 2000·t + 1999 of its array. -/
theorem rd4_0 (c : Dev nD) (t : Fin cfg4.N) (p : Fin 2000) (q : Fin 128) :
    iblk4 V c 0 t (ix2 p q) = (V c (Pipeline.arrRef spec4 0)) (ix2 ⟨2000 * t.val + p.val, blockRow_lt ⟨t.val, pt_lt4 t⟩ p⟩ q) := by
  obtain ⟨e00, e01, e10, e11, e60, e61, e20, e21, e30, e31, e40, e41, e50, e51⟩ := idx_facts4 t
  show (V c (Pipeline.arrRef spec4 0)) (((cfg4.win 0).blk t).view.emb (ix2 p q)) = _
  refine congrArg _ (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * q.val = q.val; omega
/-- Block `t` of row-block window 1 is rows 2000·t … 2000·t + 1999 of its array. -/
theorem rd4_1 (c : Dev nD) (t : Fin cfg4.N) (p : Fin 2000) (q : Fin 128) :
    iblk4 V c 1 t (ix2 p q) = (V c (Pipeline.arrRef spec4 1)) (ix2 ⟨2000 * t.val + p.val, blockRow_lt ⟨t.val, pt_lt4 t⟩ p⟩ q) := by
  obtain ⟨e00, e01, e10, e11, e60, e61, e20, e21, e30, e31, e40, e41, e50, e51⟩ := idx_facts4 t
  show (V c (Pipeline.arrRef spec4 1)) (((cfg4.win 1).blk t).view.emb (ix2 p q)) = _
  refine congrArg _ (funext fun a => Fin.ext ?_)
  match a with
  | ⟨0, _⟩ => show win4_1.index t (0 : Fin 2) * 2000 + 1 * p.val = 2000 * t.val + p.val; omega
  | ⟨1, _⟩ => show win4_1.index t (1 : Fin 2) * 128 + 1 * q.val = q.val; omega
/-- The one block of weight window 2 is its whole array. -/
theorem rd4_2 (c : Dev nD) (t : Fin cfg4.N) (j k : Fin 128) :
    iblk4 V c 2 t (ix2 j k) = (V c (Pipeline.arrRef spec4 2)) (ix2 j k) := by
  obtain ⟨e00, e01, e10, e11, e60, e61, e20, e21, e30, e31, e40, e41, e50, e51⟩ := idx_facts4 t
  show (V c (Pipeline.arrRef spec4 2)) (((cfg4.win 2).blk t).view.emb (ix2 j k)) = _
  refine congrArg _ (funext fun a => Fin.ext ?_)
  match a with
  | ⟨0, _⟩ => show win4_2.index t (0 : Fin 2) * 128 + 1 * j.val = j.val; omega
  | ⟨1, _⟩ => show win4_2.index t (1 : Fin 2) * 128 + 1 * k.val = k.val; omega
/-- The one block of weight window 4 is its whole array. -/
theorem rd4_4 (c : Dev nD) (t : Fin cfg4.N) (j k : Fin 128) :
    iblk4 V c 4 t (ix2 j k) = (V c (Pipeline.arrRef spec4 4)) (ix2 j k) := by
  obtain ⟨e00, e01, e10, e11, e60, e61, e20, e21, e30, e31, e40, e41, e50, e51⟩ := idx_facts4 t
  show (V c (Pipeline.arrRef spec4 4)) (((cfg4.win 4).blk t).view.emb (ix2 j k)) = _
  refine congrArg _ (funext fun a => Fin.ext ?_)
  match a with
  | ⟨0, _⟩ => show win4_4.index t (0 : Fin 2) * 128 + 1 * j.val = j.val; omega
  | ⟨1, _⟩ => show win4_4.index t (1 : Fin 2) * 128 + 1 * k.val = k.val; omega
/-- The one block of bias window 3 is its whole 1×128 array. -/
theorem rd4_3 (c : Dev nD) (t : Fin cfg4.N) (k : Fin 128) :
    iblk4 V c 3 t (ix2 0 k) = (V c (Pipeline.arrRef spec4 3)) (ix2 0 k) := by
  obtain ⟨e00, e01, e10, e11, e60, e61, e20, e21, e30, e31, e40, e41, e50, e51⟩ := idx_facts4 t
  show (V c (Pipeline.arrRef spec4 3)) (((cfg4.win 3).blk t).view.emb (ix2 0 k)) = _
  refine congrArg _ (funext fun a => Fin.ext ?_)
  match a with
  | ⟨0, _⟩ => show win4_3.index t (0 : Fin 2) * 1 + 1 * (0 : Fin 1).val = (0 : Fin 1).val; omega
  | ⟨1, _⟩ => show win4_3.index t (1 : Fin 2) * 128 + 1 * k.val = k.val; omega
/-- The one block of bias window 5 is its whole 1×128 array. -/
theorem rd4_5 (c : Dev nD) (t : Fin cfg4.N) (k : Fin 128) :
    iblk4 V c 5 t (ix2 0 k) = (V c (Pipeline.arrRef spec4 5)) (ix2 0 k) := by
  obtain ⟨e00, e01, e10, e11, e60, e61, e20, e21, e30, e31, e40, e41, e50, e51⟩ := idx_facts4 t
  show (V c (Pipeline.arrRef spec4 5)) (((cfg4.win 5).blk t).view.emb (ix2 0 k)) = _
  refine congrArg _ (funext fun a => Fin.ext ?_)
  match a with
  | ⟨0, _⟩ => show win4_5.index t (0 : Fin 2) * 1 + 1 * (0 : Fin 1).val = (0 : Fin 1).val; omega
  | ⟨1, _⟩ => show win4_5.index t (1 : Fin 2) * 128 + 1 * k.val = k.val; omega

/-- Row p of output block `t` is row 2000·t + p of the output array. -/
theorem emb4_6 (t : Fin cfg4.N) (p : Fin 2000) (q : Fin 128) :
    ((cfg4.win 6).blk t).view.emb (ix2 p q) = ix2 ⟨2000 * t.val + p.val, blockRow_lt ⟨t.val, pt_lt4 t⟩ p⟩ q := by
  obtain ⟨e00, e01, e10, e11, e60, e61, e20, e21, e30, e31, e40, e41, e50, e51⟩ := idx_facts4 t
  refine funext fun a => Fin.ext ?_
  match a with
  | ⟨0, _⟩ => show win4_6.index t (0 : Fin 2) * 2000 + 1 * p.val = 2000 * t.val + p.val; omega
  | ⟨1, _⟩ => show win4_6.index t (1 : Fin 2) * 128 + 1 * q.val = q.val; omega

set_option maxHeartbeats 1000000 in
/-- WHAT POINT `t` WRITES BACK is block `t` of the layer's value on the whole arrays the region is entered with. -/
theorem flushed4_eq (c : Dev nD) (t : Fin cfg4.N) :
    (dat4 V c).flushed 6 t = ((cfg4.win 6).blk t).view.read (Elt Ideal) (layerArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (ix2 p q)
      = layerArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (((cfg4.win 6).blk t).view.emb (ix2 p q))
  rw [emb4_6 t p q]
  rw [k4_pay1_eq]
  exact k0_pay1_apply (fun r j => (V c (Pipeline.arrRef spec4 0)) (ix2 r j)) (fun r j => (V c (Pipeline.arrRef spec4 1)) (ix2 r j)) (fun j k => (V c (Pipeline.arrRef spec4 2)) (ix2 j k)) (fun j k => (V c (Pipeline.arrRef spec4 4)) (ix2 j k))
    (fun k => (V c (Pipeline.arrRef spec4 3)) (ix2 0 k)) (fun k => (V c (Pipeline.arrRef spec4 5)) (ix2 0 k)) (iblk4 V c 0 t) (iblk4 V c 1 t) (iblk4 V c 2 t) (iblk4 V c 4 t) (iblk4 V c 3 t) (iblk4 V c 5 t)
    ⟨t.val, pt_lt4 t⟩ (rd4_0 V c t) (rd4_1 V c t) (rd4_2 V c t) (rd4_3 V c t) (rd4_4 V c t) (rd4_5 V c t) p q

/-- An index of the output array is in point `t`'s block iff each coordinate is in the block's range. -/
theorem mem_blk4 (t : Fin cfg4.N) (i : S100000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v115).slice (win4_6.rect t)).set ↔ _
  rw [View.set_slice_whole, Rect.mem_set_unit]
  exact Iff.rfl

/-- The 50 blocks of 2000 rows tile the 100000 rows: row `r` is in the block of point `r / 2000`. -/
theorem cover4 (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : (i 0).val / 2000 < cfg4.N := by rw [show cfg4.N = 50 from N_4]; omega
  obtain ⟨-, -, -, -, e60, e61, -⟩ := idx_facts4 ⟨(i 0).val / 2000, hN⟩
  have e60' : win4_6.index ⟨(i 0).val / 2000, hN⟩ (0 : Fin 2) = (i 0).val / 2000 := e60
  refine ⟨⟨(i 0).val / 2000, hN⟩, flush4_6 _, ?_⟩
  rw [mem_blk4]
  intro a
  match a with
  | ⟨0, _⟩ => show win4_6.index ⟨(i 0).val / 2000, hN⟩ (0 : Fin 2) * 2000 ≤ (i 0).val ∧ (i 0).val < win4_6.index ⟨(i 0).val / 2000, hN⟩ (0 : Fin 2) * 2000 + 2000; omega
  | ⟨1, _⟩ => show win4_6.index ⟨(i 0).val / 2000, hN⟩ (1 : Fin 2) * 128 ≤ (i 1).val ∧ (i 1).val < win4_6.index ⟨(i 0).val / 2000, hN⟩ (1 : Fin 2) * 128 + 128; omega

/-- THE OUTPUT ARRAY after region 4: the layer's value on the whole arrays the region is entered with. -/
theorem final4 (c : Dev nD) : (dat4 V c).arrAt 6 cfg4.N = layerArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 _ (fun t _ => flushed4_eq V c t) (cover4)

end Value4

end Cert.KernelIdeal.Gen

end
-- ==== Proof.IdealStages.lean ====
/-
  The host operations of the program, named: the embedding rows of the nodes' tokens, the edges' source and destination
  columns (a negative node number counting from the end), the aggregation of the neighbours' rows along the edges, the
  layers' slices of the stacked weights and biases; what each stretch of host operations leaves in the buffers the
  regions read, from any contents before it; and the node features after each layer as functions of the arguments.
-/
import proofs.«136333_j35605278884121_1_alg».proof.Proof.IdealLayerValue
import Idealize.ShloMosaic.Lib.StableHlo.Run

set_option maxRecDepth 65536

noncomputable section

namespace Cert.KernelIdeal.Gen

open Idealize.ShloMosaic Idealize.ShloMosaic.TcCoe Idealize.ShloMosaic.ValueIdx Idealize.ShloMosaic.StableHlo
open Idealize.ShloMosaic.Pipeline (Dat)
open Cert.LayerMath

abbrev zerosNodes : (⟨S100000x128, .f32⟩ : BufTy).Contents (Elt Ideal) := broadcastInDim S100000x128 ![] bcast_S_S100000x128 (constant (F := Ideal) S_ .f32 0x00000000#32)

/-- A column of node numbers with the negative ones wrapped round (an index below zero counts from the end). -/
def wrap600 (v : (⟨S600000, .i32⟩ : BufTy).Contents (Elt Ideal)) : (⟨S600000, .i32⟩ : BufTy).Contents (Elt Ideal) :=
  select (cmpi .slt v (broadcastInDim S600000 ![] bcast_S_S600000 (constantI S_ 32 0#32))) (addi v (broadcastInDim S600000 ![] bcast_S_S600000 (constantI S_ 32 100000#32))) v
def wrap100 (v : (⟨S100000, .i32⟩ : BufTy).Contents (Elt Ideal)) : (⟨S100000, .i32⟩ : BufTy).Contents (Elt Ideal) :=
  select (cmpi .slt v (broadcastInDim S100000 ![] bcast_S_S100000 (constantI S_ 32 0#32))) (addi v (broadcastInDim S100000 ![] bcast_S_S100000 (constantI S_ 32 100000#32))) v
/-- The edges' source and destination columns: rows 0 and 1 of the edge table. -/
def srcT (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000
def dstT (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000
/-- The embedding rows of the nodes' tokens. -/
def h0T (x : (⟨S100000, .i32⟩ : BufTy).Contents (Elt Ideal)) (emb : (⟨S100000x128, .f32⟩ : BufTy).Contents (Elt Ideal)) : (⟨S100000x128, .f32⟩ : BufTy).Contents (Elt Ideal) :=
  Host.gather gather_S100000x128_S100000x1_S100000x128_1_0_n_n_0_1_1128 emb (broadcastInDim S100000x1 ![0] bcast_S100000_S100000x1_0 (wrap100 x))
/-- The neighbours' aggregation: the rows of `h` at the edges' sources, summed into the edges' destinations. -/
def aggT (h : (⟨S100000x128, .f32⟩ : BufTy).Contents (Elt Ideal)) (src dst : (⟨S600000, .i32⟩ : BufTy).Contents (Elt Ideal)) : (⟨S100000x128, .f32⟩ : BufTy).Contents (Elt Ideal) :=
  Host.scatterAdd (F := Ideal) (s := S100000x128) (φ := .f32) scatter_S100000x128_S600000x1_S600000x128_1_0_0_1 zerosNodes (broadcastInDim S600000x1 ![0] bcast_S600000_S600000x1_0 dst)
    ((Host.gather gather_S100000x128_S600000x1_S600000x128_1_0_n_n_0_1_1128 h (broadcastInDim S600000x1 ![0] bcast_S600000_S600000x1_0 (wrap600 src))) : (⟨S600000x128, .f32⟩ : BufTy).Contents (Elt Ideal))
/-- Layer 0's slice of a stack of five weight matrices, and of a stack of five bias vectors as a 1×128 row. -/
def matT0 (w : (⟨S5x128x128, .f32⟩ : BufTy).Contents (Elt Ideal)) : (⟨S128x128, .f32⟩ : BufTy).Contents (Elt Ideal) :=
  shapeCast _ (extractStridedSlice S1x128x128 ![0, 0, 0] w slices_S5x128x128_S1x128x128_0_0_0) shapeCasts_S1x128x128_S128x128
def vecT0 (b : (⟨S5x128, .f32⟩ : BufTy).Contents (Elt Ideal)) : (⟨S128, .f32⟩ : BufTy).Contents (Elt Ideal) :=
  shapeCast _ (extractStridedSlice S1x128 ![0, 0] b slices_S5x128_S1x128_0_0) shapeCasts_S1x128_S128
def rowT0 (b : (⟨S5x128, .f32⟩ : BufTy).Contents (Elt Ideal)) : (⟨S1x128, .f32⟩ : BufTy).Contents (Elt Ideal) :=
  shapeCast _ (vecT0 b) shapeCasts_S128_S1x128
/-- Layer 1's slice of a stack of five weight matrices, and of a stack of five bias vectors as a 1×128 row. -/
def matT1 (w : (⟨S5x128x128, .f32⟩ : BufTy).Contents (Elt Ideal)) : (⟨S128x128, .f32⟩ : BufTy).Contents (Elt Ideal) :=
  shapeCast _ (extractStridedSlice S1x128x128 ![1, 0, 0] w slices_S5x128x128_S1x128x128_1_0_0) shapeCasts_S1x128x128_S128x128
def vecT1 (b : (⟨S5x128, .f32⟩ : BufTy).Contents (Elt Ideal)) : (⟨S128, .f32⟩ : BufTy).Contents (Elt Ideal) :=
  shapeCast _ (extractStridedSlice S1x128 ![1, 0] b slices_S5x128_S1x128_1_0) shapeCasts_S1x128_S128
def rowT1 (b : (⟨S5x128, .f32⟩ : BufTy).Contents (Elt Ideal)) : (⟨S1x128, .f32⟩ : BufTy).Contents (Elt Ideal) :=
  shapeCast _ (vecT1 b) shapeCasts_S128_S1x128
/-- Layer 2's slice of a stack of five weight matrices, and of a stack of five bias vectors as a 1×128 row. -/
def matT2 (w : (⟨S5x128x128, .f32⟩ : BufTy).Contents (Elt Ideal)) : (⟨S128x128, .f32⟩ : BufTy).Contents (Elt Ideal) :=
  shapeCast _ (extractStridedSlice S1x128x128 ![2, 0, 0] w slices_S5x128x128_S1x128x128_2_0_0) shapeCasts_S1x128x128_S128x128
def vecT2 (b : (⟨S5x128, .f32⟩ : BufTy).Contents (Elt Ideal)) : (⟨S128, .f32⟩ : BufTy).Contents (Elt Ideal) :=
  shapeCast _ (extractStridedSlice S1x128 ![2, 0] b slices_S5x128_S1x128_2_0) shapeCasts_S1x128_S128
def rowT2 (b : (⟨S5x128, .f32⟩ : BufTy).Contents (Elt Ideal)) : (⟨S1x128, .f32⟩ : BufTy).Contents (Elt Ideal) :=
  shapeCast _ (vecT2 b) shapeCasts_S128_S1x128
/-- Layer 3's slice of a stack of five weight matrices, and of a stack of five bias vectors as a 1×128 row. -/
def matT3 (w : (⟨S5x128x128, .f32⟩ : BufTy).Contents (Elt Ideal)) : (⟨S128x128, .f32⟩ : BufTy).Contents (Elt Ideal) :=
  shapeCast _ (extractStridedSlice S1x128x128 ![3, 0, 0] w slices_S5x128x128_S1x128x128_3_0_0) shapeCasts_S1x128x128_S128x128
def vecT3 (b : (⟨S5x128, .f32⟩ : BufTy).Contents (Elt Ideal)) : (⟨S128, .f32⟩ : BufTy).Contents (Elt Ideal) :=
  shapeCast _ (extractStridedSlice S1x128 ![3, 0] b slices_S5x128_S1x128_3_0) shapeCasts_S1x128_S128
def rowT3 (b : (⟨S5x128, .f32⟩ : BufTy).Contents (Elt Ideal)) : (⟨S1x128, .f32⟩ : BufTy).Contents (Elt Ideal) :=
  shapeCast _ (vecT3 b) shapeCasts_S128_S1x128
/-- Layer 4's slice of a stack of five weight matrices, and of a stack of five bias vectors as a 1×128 row. -/
def matT4 (w : (⟨S5x128x128, .f32⟩ : BufTy).Contents (Elt Ideal)) : (⟨S128x128, .f32⟩ : BufTy).Contents (Elt Ideal) :=
  shapeCast _ (extractStridedSlice S1x128x128 ![4, 0, 0] w slices_S5x128x128_S1x128x128_4_0_0) shapeCasts_S1x128x128_S128x128
def vecT4 (b : (⟨S5x128, .f32⟩ : BufTy).Contents (Elt Ideal)) : (⟨S128, .f32⟩ : BufTy).Contents (Elt Ideal) :=
  shapeCast _ (extractStridedSlice S1x128 ![4, 0] b slices_S5x128_S1x128_4_0) shapeCasts_S1x128_S128
def rowT4 (b : (⟨S5x128, .f32⟩ : BufTy).Contents (Elt Ideal)) : (⟨S1x128, .f32⟩ : BufTy).Contents (Elt Ideal) :=
  shapeCast _ (vecT4 b) shapeCasts_S128_S1x128

section Reads
variable (W : Valuation τ sig (Elt Ideal))

/-! ### What each stretch of host operations leaves in the buffers the regions read, from any contents `W` before it -/

set_option maxHeartbeats 4000000 in
theorem rd_src : StableHlo.after hostOps0 W (Proc.devRef .tc main_v1) = srcT (W (Proc.devRef .tc main_arg1)) := by after_results_simp <;> rfl
set_option maxHeartbeats 4000000 in
theorem rd_dst : StableHlo.after hostOps0 W (Proc.devRef .tc main_v3) = dstT (W (Proc.devRef .tc main_arg1)) := by after_results_simp <;> rfl
set_option maxHeartbeats 4000000 in
theorem rd_h0 : StableHlo.after hostOps0 W (Proc.devRef .tc main_v10) = h0T (W (Proc.devRef .tc main_arg0)) (W (Proc.devRef .tc main_arg2)) := by after_results_simp <;> rfl
set_option maxHeartbeats 4000000 in
theorem rd_agg0 : StableHlo.after hostOps0 W (Proc.devRef .tc main_v20) = aggT (h0T (W (Proc.devRef .tc main_arg0)) (W (Proc.devRef .tc main_arg2))) (srcT (W (Proc.devRef .tc main_arg1))) (dstT (W (Proc.devRef .tc main_arg1))) := by after_results_simp <;> rfl
set_option maxHeartbeats 4000000 in
theorem rd_wa0 : StableHlo.after hostOps0 W (Proc.devRef .tc main_v22) = matT0 (W (Proc.devRef .tc main_arg3)) := by after_results_simp <;> rfl
set_option maxHeartbeats 4000000 in
theorem rd_ba0 : StableHlo.after hostOps0 W (Proc.devRef .tc main_v29) = rowT0 (W (Proc.devRef .tc main_arg4)) := by after_results_simp <;> rfl
set_option maxHeartbeats 4000000 in
theorem rd_wb0 : StableHlo.after hostOps0 W (Proc.devRef .tc main_v26) = matT0 (W (Proc.devRef .tc main_arg5)) := by after_results_simp <;> rfl
set_option maxHeartbeats 4000000 in
theorem rd_bb0 : StableHlo.after hostOps0 W (Proc.devRef .tc main_v30) = rowT0 (W (Proc.devRef .tc main_arg6)) := by after_results_simp <;> rfl
set_option maxHeartbeats 4000000 in
theorem rd_agg1 : StableHlo.after hostOps1 W (Proc.devRef .tc main_v41) = aggT (W (Proc.devRef .tc main_v31)) (W (Proc.devRef .tc main_v1)) (W (Proc.devRef .tc main_v3)) := by after_results_simp <;> rfl
set_option maxHeartbeats 4000000 in
theorem rd_wa1 : StableHlo.after hostOps1 W (Proc.devRef .tc main_v43) = matT1 (W (Proc.devRef .tc main_arg3)) := by after_results_simp <;> rfl
set_option maxHeartbeats 4000000 in
theorem rd_ba1 : StableHlo.after hostOps1 W (Proc.devRef .tc main_v50) = rowT1 (W (Proc.devRef .tc main_arg4)) := by after_results_simp <;> rfl
set_option maxHeartbeats 4000000 in
theorem rd_wb1 : StableHlo.after hostOps1 W (Proc.devRef .tc main_v47) = matT1 (W (Proc.devRef .tc main_arg5)) := by after_results_simp <;> rfl
set_option maxHeartbeats 4000000 in
theorem rd_bb1 : StableHlo.after hostOps1 W (Proc.devRef .tc main_v51) = rowT1 (W (Proc.devRef .tc main_arg6)) := by after_results_simp <;> rfl
set_option maxHeartbeats 4000000 in
theorem rd_agg2 : StableHlo.after hostOps2 W (Proc.devRef .tc main_v62) = aggT (W (Proc.devRef .tc main_v52)) (W (Proc.devRef .tc main_v1)) (W (Proc.devRef .tc main_v3)) := by after_results_simp <;> rfl
set_option maxHeartbeats 4000000 in
theorem rd_wa2 : StableHlo.after hostOps2 W (Proc.devRef .tc main_v64) = matT2 (W (Proc.devRef .tc main_arg3)) := by after_results_simp <;> rfl
set_option maxHeartbeats 4000000 in
theorem rd_ba2 : StableHlo.after hostOps2 W (Proc.devRef .tc main_v71) = rowT2 (W (Proc.devRef .tc main_arg4)) := by after_results_simp <;> rfl
set_option maxHeartbeats 4000000 in
theorem rd_wb2 : StableHlo.after hostOps2 W (Proc.devRef .tc main_v68) = matT2 (W (Proc.devRef .tc main_arg5)) := by after_results_simp <;> rfl
set_option maxHeartbeats 4000000 in
theorem rd_bb2 : StableHlo.after hostOps2 W (Proc.devRef .tc main_v72) = rowT2 (W (Proc.devRef .tc main_arg6)) := by after_results_simp <;> rfl
set_option maxHeartbeats 4000000 in
theorem rd_agg3 : StableHlo.after hostOps3 W (Proc.devRef .tc main_v83) = aggT (W (Proc.devRef .tc main_v73)) (W (Proc.devRef .tc main_v1)) (W (Proc.devRef .tc main_v3)) := by after_results_simp <;> rfl
set_option maxHeartbeats 4000000 in
theorem rd_wa3 : StableHlo.after hostOps3 W (Proc.devRef .tc main_v85) = matT3 (W (Proc.devRef .tc main_arg3)) := by after_results_simp <;> rfl
set_option maxHeartbeats 4000000 in
theorem rd_ba3 : StableHlo.after hostOps3 W (Proc.devRef .tc main_v92) = rowT3 (W (Proc.devRef .tc main_arg4)) := by after_results_simp <;> rfl
set_option maxHeartbeats 4000000 in
theorem rd_wb3 : StableHlo.after hostOps3 W (Proc.devRef .tc main_v89) = matT3 (W (Proc.devRef .tc main_arg5)) := by after_results_simp <;> rfl
set_option maxHeartbeats 4000000 in
theorem rd_bb3 : StableHlo.after hostOps3 W (Proc.devRef .tc main_v93) = rowT3 (W (Proc.devRef .tc main_arg6)) := by after_results_simp <;> rfl
set_option maxHeartbeats 4000000 in
theorem rd_agg4 : StableHlo.after hostOps4 W (Proc.devRef .tc main_v104) = aggT (W (Proc.devRef .tc main_v94)) (W (Proc.devRef .tc main_v1)) (W (Proc.devRef .tc main_v3)) := by after_results_simp <;> rfl
set_option maxHeartbeats 4000000 in
theorem rd_wa4 : StableHlo.after hostOps4 W (Proc.devRef .tc main_v106) = matT4 (W (Proc.devRef .tc main_arg3)) := by after_results_simp <;> rfl
set_option maxHeartbeats 4000000 in
theorem rd_ba4 : StableHlo.after hostOps4 W (Proc.devRef .tc main_v113) = rowT4 (W (Proc.devRef .tc main_arg4)) := by after_results_simp <;> rfl
set_option maxHeartbeats 4000000 in
theorem rd_wb4 : StableHlo.after hostOps4 W (Proc.devRef .tc main_v110) = matT4 (W (Proc.devRef .tc main_arg5)) := by after_results_simp <;> rfl
set_option maxHeartbeats 4000000 in
theorem rd_bb4 : StableHlo.after hostOps4 W (Proc.devRef .tc main_v114) = rowT4 (W (Proc.devRef .tc main_arg6)) := by after_results_simp <;> rfl
set_option maxHeartbeats 4000000 in
theorem rd_blin : StableHlo.after hostOps5 W (Proc.devRef .tc main_v116) = (shapeCast _ (W (Proc.devRef .tc main_arg8)) shapeCasts_S128_S1x128 : (⟨S1x128, .f32⟩ : BufTy).Contents (Elt Ideal)) := by after_results_simp <;> rfl

end Reads

/-! ### The node features after each layer, as functions of the argument arrays -/

def HT0 (x0 : (⟨S100000, .i32⟩ : BufTy).Contents (Elt Ideal)) (x2 : (⟨S100000x128, .f32⟩ : BufTy).Contents (Elt Ideal)) : (⟨S100000x128, .f32⟩ : BufTy).Contents (Elt Ideal) := h0T x0 x2
def HT1 (x0 : (⟨S100000, .i32⟩ : BufTy).Contents (Elt Ideal)) (x1 : (⟨S2x600000, .i32⟩ : BufTy).Contents (Elt Ideal)) (x2 : (⟨S100000x128, .f32⟩ : BufTy).Contents (Elt Ideal)) (x3 : (⟨S5x128x128, .f32⟩ : BufTy).Contents (Elt Ideal)) (x4 : (⟨S5x128, .f32⟩ : BufTy).Contents (Elt Ideal)) (x5 : (⟨S5x128x128, .f32⟩ : BufTy).Contents (Elt Ideal)) (x6 : (⟨S5x128, .f32⟩ : BufTy).Contents (Elt Ideal)) : (⟨S100000x128, .f32⟩ : BufTy).Contents (Elt Ideal) :=
  layerArr (HT0 x0 x2) (aggT (HT0 x0 x2) (srcT x1) (dstT x1)) (matT0 x3) (rowT0 x4) (matT0 x5) (rowT0 x6)
def HT2 (x0 : (⟨S100000, .i32⟩ : BufTy).Contents (Elt Ideal)) (x1 : (⟨S2x600000, .i32⟩ : BufTy).Contents (Elt Ideal)) (x2 : (⟨S100000x128, .f32⟩ : BufTy).Contents (Elt Ideal)) (x3 : (⟨S5x128x128, .f32⟩ : BufTy).Contents (Elt Ideal)) (x4 : (⟨S5x128, .f32⟩ : BufTy).Contents (Elt Ideal)) (x5 : (⟨S5x128x128, .f32⟩ : BufTy).Contents (Elt Ideal)) (x6 : (⟨S5x128, .f32⟩ : BufTy).Contents (Elt Ideal)) : (⟨S100000x128, .f32⟩ : BufTy).Contents (Elt Ideal) :=
  layerArr (HT1 x0 x1 x2 x3 x4 x5 x6) (aggT (HT1 x0 x1 x2 x3 x4 x5 x6) (srcT x1) (dstT x1)) (matT1 x3) (rowT1 x4) (matT1 x5) (rowT1 x6)
def HT3 (x0 : (⟨S100000, .i32⟩ : BufTy).Contents (Elt Ideal)) (x1 : (⟨S2x600000, .i32⟩ : BufTy).Contents (Elt Ideal)) (x2 : (⟨S100000x128, .f32⟩ : BufTy).Contents (Elt Ideal)) (x3 : (⟨S5x128x128, .f32⟩ : BufTy).Contents (Elt Ideal)) (x4 : (⟨S5x128, .f32⟩ : BufTy).Contents (Elt Ideal)) (x5 : (⟨S5x128x128, .f32⟩ : BufTy).Contents (Elt Ideal)) (x6 : (⟨S5x128, .f32⟩ : BufTy).Contents (Elt Ideal)) : (⟨S100000x128, .f32⟩ : BufTy).Contents (Elt Ideal) :=
  layerArr (HT2 x0 x1 x2 x3 x4 x5 x6) (aggT (HT2 x0 x1 x2 x3 x4 x5 x6) (srcT x1) (dstT x1)) (matT2 x3) (rowT2 x4) (matT2 x5) (rowT2 x6)
def HT4 (x0 : (⟨S100000, .i32⟩ : BufTy).Contents (Elt Ideal)) (x1 : (⟨S2x600000, .i32⟩ : BufTy).Contents (Elt Ideal)) (x2 : (⟨S100000x128, .f32⟩ : BufTy).Contents (Elt Ideal)) (x3 : (⟨S5x128x128, .f32⟩ : BufTy).Contents (Elt Ideal)) (x4 : (⟨S5x128, .f32⟩ : BufTy).Contents (Elt Ideal)) (x5 : (⟨S5x128x128, .f32⟩ : BufTy).Contents (Elt Ideal)) (x6 : (⟨S5x128, .f32⟩ : BufTy).Contents (Elt Ideal)) : (⟨S100000x128, .f32⟩ : BufTy).Contents (Elt Ideal) :=
  layerArr (HT3 x0 x1 x2 x3 x4 x5 x6) (aggT (HT3 x0 x1 x2 x3 x4 x5 x6) (srcT x1) (dstT x1)) (matT3 x3) (rowT3 x4) (matT3 x5) (rowT3 x6)
def HT5 (x0 : (⟨S100000, .i32⟩ : BufTy).Contents (Elt Ideal)) (x1 : (⟨S2x600000, .i32⟩ : BufTy).Contents (Elt Ideal)) (x2 : (⟨S100000x128, .f32⟩ : BufTy).Contents (Elt Ideal)) (x3 : (⟨S5x128x128, .f32⟩ : BufTy).Contents (Elt Ideal)) (x4 : (⟨S5x128, .f32⟩ : BufTy).Contents (Elt Ideal)) (x5 : (⟨S5x128x128, .f32⟩ : BufTy).Contents (Elt Ideal)) (x6 : (⟨S5x128, .f32⟩ : BufTy).Contents (Elt Ideal)) : (⟨S100000x128, .f32⟩ : BufTy).Contents (Elt Ideal) :=
  layerArr (HT4 x0 x1 x2 x3 x4 x5 x6) (aggT (HT4 x0 x1 x2 x3 x4 x5 x6) (srcT x1) (dstT x1)) (matT4 x3) (rowT4 x4) (matT4 x5) (rowT4 x6)

/-- A vector recast as a 1×n row, read at column k, is the vector's entry k. -/
theorem row_of_vec (v : (⟨S128, .f32⟩ : BufTy).Contents (Elt Ideal)) (k : Fin 128) :
    (shapeCast S1x128 v shapeCasts_S128_S1x128) (ix2 0 k) = v (ix1 k) := by
  refine (shapeCast_addUnit_apply ![128] v shapeCasts_S128_S1x128 (ix2 0 k)).trans (congrArg v (funext fun a => ?_))
  match a with
  | ⟨0, _⟩ => rfl

end Cert.KernelIdeal.Gen

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.PoolMath.lean ====
/-
  The pooling step, read one entry at a time at the exact (extended-real) values.

  The network's output is  (column sums of h) · Wlin + blin,  h the last layer's 100000×128 features: the
  specification `poolFn` below.  The vector unit takes the column sums block by block: a 1×128 accumulator starts at
  zero, each of the 50 blocks of 2000 consecutive rows adds its own column sums to it, and after the last block the
  accumulator holds the column sums of the whole array — a sum over 100000 rows accumulated in consecutive blocks, which
  only needs addition to be associative and commutative.  The final product and bias are a 1×128 by 128×128 product
  into zero plus a 1×128 row.
-/
import proofs.«136333_j35605278884121_1_alg».proof.Proof.Gen.KernelIdeal.Skeleton
import proofs.«136333_j35605278884121_1_alg».proof.Proof.LibRowDot
import proofs.«136333_j35605278884121_1_alg».proof.Proof.LibBlockSum
import Idealize.ShloMosaic.Lib.ValueLayout
import Idealize.ShloMosaic.Lib.Pipeline.Value

noncomputable section

open scoped BigOperators

namespace Cert.PoolMath

open Idealize.ShloMosaic Idealize.ShloMosaic.ValueIdx Cert.RowDot Cert.BlockSum Cert.KernelIdeal

/-- Entry q of the output: the column sums of h times Wlin, plus the bias. -/
def poolFn (h : Fin 100000 → Fin 128 → EReal) (wl : Fin 128 → Fin 128 → EReal) (bl : Fin 128 → EReal) :
    Fin 128 → EReal :=
  fun q => (∑ k, (∑ r, h r k) * wl k q) + bl q

/-- Row p of block t is row 2000·t + p of the whole array. -/
theorem blockRow_lt (t : Fin 50) (p : Fin 2000) : 2000 * t.val + p.val < 100000 := by
  have := t.isLt; have := p.isLt; omega

/-! ## The three values the pooling program stores -/

/-- The accumulator's first value is the zero row. -/
theorem k5_pay1_apply (k : Fin 128) : Gen.k5_pay1 (F := Ideal) (ix2 0 k) = 0 := by
  unfold Gen.k5_pay1
  rw [shapeCast_self]
  exact Ideal.ofBits_zero_f32

/-- The column sums of a 2000×128 block: entry k of the sum over axis 0 is the sum over the rows p of the entries (p, k). -/
theorem colSum_apply (blk : Vec Ideal S2000x128 .f32) (k : Fin 128) :
    multiReduction (F := Ideal) .add [0] S128 blk 0x00000000#32 Gen.reduces_S2000x128_S128 (.inl rfl) rfl (ix1 k)
      = ∑ p : Fin 2000, blk (ix2 p k) := by
  refine (Ideal.multiReduction_add_single blk 0x00000000#32 Gen.reduces_S2000x128_S128 (.inl rfl) rfl (ix1 k)).trans ?_
  refine Finset.sum_congr rfl fun p _ => congrArg blk ?_
  funext a
  match a with
  | ⟨0, _⟩ => rfl
  | ⟨1, _⟩ => rfl

/-- One accumulation step: the accumulator plus the block's column sums. -/
theorem k5_pay2_apply (acc : Vec Ideal S1x128 .f32) (blk : Vec Ideal S2000x128 .f32) (k : Fin 128) :
    Gen.k5_pay2 (F := Ideal) acc blk (ix2 0 k) = acc (ix2 0 k) + ∑ p : Fin 2000, blk (ix2 p k) := by
  unfold Gen.k5_pay2
  rw [shapeCast_self (s := S1x128), shapeCast_self (s := S2000x128)]
  refine congrArg (fun z : EReal => acc (ix2 0 k) + z) ?_
  refine (shapeCast_a_1a_apply _ Gen.shapeCasts_S128_S1x128 0 k).trans ?_
  exact colSum_apply blk k

/-- The last step: the accumulated row times the 128×128 matrix, plus the bias row. -/
theorem k5_pay3_apply (a : Vec Ideal S1x128 .f32) (w : Vec Ideal S128x128 .f32) (b : Vec Ideal S1x128 .f32) (q : Fin 128) :
    Gen.k5_pay3 (F := Ideal) a w b (ix2 0 q) = (∑ k : Fin 128, a (ix2 0 k) * w (ix2 k q)) + b (ix2 0 q) := by
  unfold Gen.k5_pay3
  rw [shapeCast_self]
  refine congrArg (fun z : EReal => z + b (ix2 0 q)) ?_
  exact matmul_plain_zero_apply (M := 1) (K := 128) (N := 128) none a w (ix2 0 q)

/-! ## Fifty accumulation steps give the column sums of the whole array -/

/-- Adding block n's 2000 terms to the sum of the first 2000·n terms gives the sum of the first 2000·(n+1). -/
theorem partialSum_step (f : Fin 100000 → EReal) (n : Nat) (hn : n < 50) (acc : EReal)
    (hacc : acc = partialSum f (2000 * n)) :
    acc + ∑ p : Fin 2000, f ⟨2000 * n + p.val, blockRow_lt ⟨n, hn⟩ p⟩ = partialSum f (2000 * (n + 1)) := by
  rw [hacc, Nat.mul_succ]
  exact partialSum_add_block f (2000 * n) 2000 (by omega)

/-- The accumulator after block n, for a family of 50 blocks: block 0 is added to the zero row, every later block to
    the accumulator before it. -/
def accN (blk : Fin 50 → Vec Ideal S2000x128 .f32) : (n : Nat) → n < 50 → FVec Ideal S1x128 .f32
  | 0, _ => Gen.k5_pay2 (F := Ideal) (Gen.k5_pay1 (F := Ideal)) (blk 0)
  | n + 1, hn => Gen.k5_pay2 (F := Ideal) (accN blk n (Nat.lt_of_succ_lt hn)) (blk ⟨n + 1, hn⟩)

theorem accN_zero (blk : Fin 50 → Vec Ideal S2000x128 .f32) (h0 : 0 < 50) :
    accN blk 0 h0 = Gen.k5_pay2 (F := Ideal) (Gen.k5_pay1 (F := Ideal)) (blk 0) := rfl

theorem accN_succ (blk : Fin 50 → Vec Ideal S2000x128 .f32) (n : Nat) (hn : n + 1 < 50) :
    accN blk (n + 1) hn = Gen.k5_pay2 (F := Ideal) (accN blk n (Nat.lt_of_succ_lt hn)) (blk ⟨n + 1, hn⟩) := rfl

/-- After block n the accumulator holds, in column k, the sum of the first 2000·(n+1) rows of column k. -/
theorem accN_apply (h : Fin 100000 → Fin 128 → EReal) (blk : Fin 50 → Vec Ideal S2000x128 .f32)
    (hblk : ∀ (t : Fin 50) (p : Fin 2000) (k : Fin 128), blk t (ix2 p k) = h ⟨2000 * t.val + p.val, blockRow_lt t p⟩ k)
    (k : Fin 128) : ∀ (n : Nat) (hn : n < 50),
    accN blk n hn (ix2 0 k) = partialSum (fun r => h r k) (2000 * (n + 1))
  | 0, hn => by
    rw [accN_zero, k5_pay2_apply, k5_pay1_apply]
    refine Eq.trans ?_ (partialSum_step (fun r => h r k) 0 hn 0 (partialSum_zero _).symm)
    exact congrArg (fun z : EReal => 0 + z) (Finset.sum_congr rfl fun p _ => hblk 0 p k)
  | n + 1, hn => by
    rw [accN_succ, k5_pay2_apply]
    refine Eq.trans ?_ (partialSum_step (fun r => h r k) (n + 1) hn _ (accN_apply h blk hblk k n (Nat.lt_of_succ_lt hn)))
    exact congrArg (fun z : EReal => accN blk n (Nat.lt_of_succ_lt hn) (ix2 0 k) + z)
      (Finset.sum_congr rfl fun p _ => hblk ⟨n + 1, hn⟩ p k)

/-- After the last block the accumulator holds the column sums of the whole array. -/
theorem accN_last (h : Fin 100000 → Fin 128 → EReal) (blk : Fin 50 → Vec Ideal S2000x128 .f32)
    (hblk : ∀ (t : Fin 50) (p : Fin 2000) (k : Fin 128), blk t (ix2 p k) = h ⟨2000 * t.val + p.val, blockRow_lt t p⟩ k)
    (k : Fin 128) : accN blk 49 (by omega) (ix2 0 k) = ∑ r : Fin 100000, h r k :=
  (accN_apply h blk hblk k 49 (by omega)).trans (partialSum_full (fun r => h r k))

/-- The same for any family of accumulator values that obeys the recursion. -/
theorem acc_last_of_rec (h : Fin 100000 → Fin 128 → EReal) (blk : Fin 50 → Vec Ideal S2000x128 .f32)
    (hblk : ∀ (t : Fin 50) (p : Fin 2000) (k : Fin 128), blk t (ix2 p k) = h ⟨2000 * t.val + p.val, blockRow_lt t p⟩ k)
    (a : Fin 50 → Vec Ideal S1x128 .f32)
    (h0 : a 0 = Gen.k5_pay2 (F := Ideal) (Gen.k5_pay1 (F := Ideal)) (blk 0))
    (hs : ∀ (n : Nat) (hn : n + 1 < 50),
      a ⟨n + 1, hn⟩ = Gen.k5_pay2 (F := Ideal) (a ⟨n, Nat.lt_of_succ_lt hn⟩) (blk ⟨n + 1, hn⟩))
    (k : Fin 128) : a 49 (ix2 0 k) = ∑ r : Fin 100000, h r k := by
  have key : ∀ (n : Nat) (hn : n < 50), a ⟨n, hn⟩ = accN blk n hn := by
    intro n
    induction n with
    | zero => intro hn; exact h0
    | succ n ih => intro hn; rw [hs n hn, ih (Nat.lt_of_succ_lt hn)]; rfl
  exact (congrFun (key 49 (by omega)) (ix2 0 k)).trans (accN_last h blk hblk k)

/-- The pooling program's output, at entry q, from the accumulated column sums. -/
theorem pool_out_apply (h : Fin 100000 → Fin 128 → EReal) (wl : Fin 128 → Fin 128 → EReal) (bl : Fin 128 → EReal)
    (a : Vec Ideal S1x128 .f32) (w : Vec Ideal S128x128 .f32) (b : Vec Ideal S1x128 .f32)
    (ha : ∀ k : Fin 128, a (ix2 0 k) = ∑ r : Fin 100000, h r k)
    (hw : ∀ (k q : Fin 128), w (ix2 k q) = wl k q) (hb : ∀ q : Fin 128, b (ix2 0 q) = bl q) (q : Fin 128) :
    Gen.k5_pay3 (F := Ideal) a w b (ix2 0 q) = poolFn h wl bl q := by
  rw [k5_pay3_apply, hb]
  unfold poolFn
  exact congrArg (fun z : EReal => z + bl q) (Finset.sum_congr rfl fun k _ => by rw [ha, hw])

end Cert.PoolMath

end
-- ==== Proof.IdealChain.lean ====
/-
  The contents of the buffers the six regions read and write, followed from the launch memory at the exact instance: each
  layer region is entered with the previous layer's output, the neighbours' aggregation of it, and the layer's weights and
  bias rows, and leaves the layer's value of them; the pool region leaves the column sums of the fifth layer's output
  times the final weights plus the final bias. So the result buffer is one closed function of the argument arrays.
-/
import proofs.«136333_j35605278884121_1_alg».proof.Proof.IdealRun
import proofs.«136333_j35605278884121_1_alg».proof.Proof.IdealStages
import proofs.«136333_j35605278884121_1_alg».proof.Proof.PoolMath
import Idealize.ShloMosaic.Lib.StableHlo.Run

set_option maxRecDepth 65536

noncomputable section

namespace Cert.KernelIdeal.Gen

open Idealize.ShloMosaic Idealize.ShloMosaic.TcCoe Idealize.ShloMosaic.ValueIdx Idealize.ShloMosaic.StableHlo
open Idealize.ShloMosaic.Pipeline (Dat)
open Cert.LayerMath

section Chain
variable (m : (ℓ : Loc nD τ sig) → Buf (Elt Ideal) ℓ) (c : Dev nD)

/-! ### Buffers no later stretch or region writes keep what they held -/

theorem back1_main_v1 : Wc2 m c (Proc.devRef .tc main_v1) = Wc1 m c (Proc.devRef .tc main_v1) :=
  calc Wc2 m c (Proc.devRef .tc main_v1)
    _ = Wc1 m c (Proc.devRef .tc main_v1) := Wc2_of_ne m c main_v1 (by decide)
theorem back1_main_v3 : Wc2 m c (Proc.devRef .tc main_v3) = Wc1 m c (Proc.devRef .tc main_v3) :=
  calc Wc2 m c (Proc.devRef .tc main_v3)
    _ = Wc1 m c (Proc.devRef .tc main_v3) := Wc2_of_ne m c main_v3 (by decide)
theorem back1_main_arg3 : Wc2 m c (Proc.devRef .tc main_arg3) = Wc0 m c (Proc.devRef .tc main_arg3) :=
  calc Wc2 m c (Proc.devRef .tc main_arg3)
    _ = Wc1 m c (Proc.devRef .tc main_arg3) := Wc2_of_ne m c main_arg3 (by decide)
    _ = Wc0 m c (Proc.devRef .tc main_arg3) := Wc1_of m c main_arg3 (by decide)
theorem back1_main_arg4 : Wc2 m c (Proc.devRef .tc main_arg4) = Wc0 m c (Proc.devRef .tc main_arg4) :=
  calc Wc2 m c (Proc.devRef .tc main_arg4)
    _ = Wc1 m c (Proc.devRef .tc main_arg4) := Wc2_of_ne m c main_arg4 (by decide)
    _ = Wc0 m c (Proc.devRef .tc main_arg4) := Wc1_of m c main_arg4 (by decide)
theorem back1_main_arg5 : Wc2 m c (Proc.devRef .tc main_arg5) = Wc0 m c (Proc.devRef .tc main_arg5) :=
  calc Wc2 m c (Proc.devRef .tc main_arg5)
    _ = Wc1 m c (Proc.devRef .tc main_arg5) := Wc2_of_ne m c main_arg5 (by decide)
    _ = Wc0 m c (Proc.devRef .tc main_arg5) := Wc1_of m c main_arg5 (by decide)
theorem back1_main_arg6 : Wc2 m c (Proc.devRef .tc main_arg6) = Wc0 m c (Proc.devRef .tc main_arg6) :=
  calc Wc2 m c (Proc.devRef .tc main_arg6)
    _ = Wc1 m c (Proc.devRef .tc main_arg6) := Wc2_of_ne m c main_arg6 (by decide)
    _ = Wc0 m c (Proc.devRef .tc main_arg6) := Wc1_of m c main_arg6 (by decide)
theorem back2_main_v1 : Wc4 m c (Proc.devRef .tc main_v1) = Wc1 m c (Proc.devRef .tc main_v1) :=
  calc Wc4 m c (Proc.devRef .tc main_v1)
    _ = Wc3 m c (Proc.devRef .tc main_v1) := Wc4_of_ne m c main_v1 (by decide)
    _ = Wc2 m c (Proc.devRef .tc main_v1) := Wc3_of m c main_v1 (by decide)
    _ = Wc1 m c (Proc.devRef .tc main_v1) := Wc2_of_ne m c main_v1 (by decide)
theorem back2_main_v3 : Wc4 m c (Proc.devRef .tc main_v3) = Wc1 m c (Proc.devRef .tc main_v3) :=
  calc Wc4 m c (Proc.devRef .tc main_v3)
    _ = Wc3 m c (Proc.devRef .tc main_v3) := Wc4_of_ne m c main_v3 (by decide)
    _ = Wc2 m c (Proc.devRef .tc main_v3) := Wc3_of m c main_v3 (by decide)
    _ = Wc1 m c (Proc.devRef .tc main_v3) := Wc2_of_ne m c main_v3 (by decide)
theorem back2_main_arg3 : Wc4 m c (Proc.devRef .tc main_arg3) = Wc0 m c (Proc.devRef .tc main_arg3) :=
  calc Wc4 m c (Proc.devRef .tc main_arg3)
    _ = Wc3 m c (Proc.devRef .tc main_arg3) := Wc4_of_ne m c main_arg3 (by decide)
    _ = Wc2 m c (Proc.devRef .tc main_arg3) := Wc3_of m c main_arg3 (by decide)
    _ = Wc1 m c (Proc.devRef .tc main_arg3) := Wc2_of_ne m c main_arg3 (by decide)
    _ = Wc0 m c (Proc.devRef .tc main_arg3) := Wc1_of m c main_arg3 (by decide)
theorem back2_main_arg4 : Wc4 m c (Proc.devRef .tc main_arg4) = Wc0 m c (Proc.devRef .tc main_arg4) :=
  calc Wc4 m c (Proc.devRef .tc main_arg4)
    _ = Wc3 m c (Proc.devRef .tc main_arg4) := Wc4_of_ne m c main_arg4 (by decide)
    _ = Wc2 m c (Proc.devRef .tc main_arg4) := Wc3_of m c main_arg4 (by decide)
    _ = Wc1 m c (Proc.devRef .tc main_arg4) := Wc2_of_ne m c main_arg4 (by decide)
    _ = Wc0 m c (Proc.devRef .tc main_arg4) := Wc1_of m c main_arg4 (by decide)
theorem back2_main_arg5 : Wc4 m c (Proc.devRef .tc main_arg5) = Wc0 m c (Proc.devRef .tc main_arg5) :=
  calc Wc4 m c (Proc.devRef .tc main_arg5)
    _ = Wc3 m c (Proc.devRef .tc main_arg5) := Wc4_of_ne m c main_arg5 (by decide)
    _ = Wc2 m c (Proc.devRef .tc main_arg5) := Wc3_of m c main_arg5 (by decide)
    _ = Wc1 m c (Proc.devRef .tc main_arg5) := Wc2_of_ne m c main_arg5 (by decide)
    _ = Wc0 m c (Proc.devRef .tc main_arg5) := Wc1_of m c main_arg5 (by decide)
theorem back2_main_arg6 : Wc4 m c (Proc.devRef .tc main_arg6) = Wc0 m c (Proc.devRef .tc main_arg6) :=
  calc Wc4 m c (Proc.devRef .tc main_arg6)
    _ = Wc3 m c (Proc.devRef .tc main_arg6) := Wc4_of_ne m c main_arg6 (by decide)
    _ = Wc2 m c (Proc.devRef .tc main_arg6) := Wc3_of m c main_arg6 (by decide)
    _ = Wc1 m c (Proc.devRef .tc main_arg6) := Wc2_of_ne m c main_arg6 (by decide)
    _ = Wc0 m c (Proc.devRef .tc main_arg6) := Wc1_of m c main_arg6 (by decide)
theorem back3_main_v1 : Wc6 m c (Proc.devRef .tc main_v1) = Wc1 m c (Proc.devRef .tc main_v1) :=
  calc Wc6 m c (Proc.devRef .tc main_v1)
    _ = Wc5 m c (Proc.devRef .tc main_v1) := Wc6_of_ne m c main_v1 (by decide)
    _ = Wc4 m c (Proc.devRef .tc main_v1) := Wc5_of m c main_v1 (by decide)
    _ = Wc3 m c (Proc.devRef .tc main_v1) := Wc4_of_ne m c main_v1 (by decide)
    _ = Wc2 m c (Proc.devRef .tc main_v1) := Wc3_of m c main_v1 (by decide)
    _ = Wc1 m c (Proc.devRef .tc main_v1) := Wc2_of_ne m c main_v1 (by decide)
theorem back3_main_v3 : Wc6 m c (Proc.devRef .tc main_v3) = Wc1 m c (Proc.devRef .tc main_v3) :=
  calc Wc6 m c (Proc.devRef .tc main_v3)
    _ = Wc5 m c (Proc.devRef .tc main_v3) := Wc6_of_ne m c main_v3 (by decide)
    _ = Wc4 m c (Proc.devRef .tc main_v3) := Wc5_of m c main_v3 (by decide)
    _ = Wc3 m c (Proc.devRef .tc main_v3) := Wc4_of_ne m c main_v3 (by decide)
    _ = Wc2 m c (Proc.devRef .tc main_v3) := Wc3_of m c main_v3 (by decide)
    _ = Wc1 m c (Proc.devRef .tc main_v3) := Wc2_of_ne m c main_v3 (by decide)
theorem back3_main_arg3 : Wc6 m c (Proc.devRef .tc main_arg3) = Wc0 m c (Proc.devRef .tc main_arg3) :=
  calc Wc6 m c (Proc.devRef .tc main_arg3)
    _ = Wc5 m c (Proc.devRef .tc main_arg3) := Wc6_of_ne m c main_arg3 (by decide)
    _ = Wc4 m c (Proc.devRef .tc main_arg3) := Wc5_of m c main_arg3 (by decide)
    _ = Wc3 m c (Proc.devRef .tc main_arg3) := Wc4_of_ne m c main_arg3 (by decide)
    _ = Wc2 m c (Proc.devRef .tc main_arg3) := Wc3_of m c main_arg3 (by decide)
    _ = Wc1 m c (Proc.devRef .tc main_arg3) := Wc2_of_ne m c main_arg3 (by decide)
    _ = Wc0 m c (Proc.devRef .tc main_arg3) := Wc1_of m c main_arg3 (by decide)
theorem back3_main_arg4 : Wc6 m c (Proc.devRef .tc main_arg4) = Wc0 m c (Proc.devRef .tc main_arg4) :=
  calc Wc6 m c (Proc.devRef .tc main_arg4)
    _ = Wc5 m c (Proc.devRef .tc main_arg4) := Wc6_of_ne m c main_arg4 (by decide)
    _ = Wc4 m c (Proc.devRef .tc main_arg4) := Wc5_of m c main_arg4 (by decide)
    _ = Wc3 m c (Proc.devRef .tc main_arg4) := Wc4_of_ne m c main_arg4 (by decide)
    _ = Wc2 m c (Proc.devRef .tc main_arg4) := Wc3_of m c main_arg4 (by decide)
    _ = Wc1 m c (Proc.devRef .tc main_arg4) := Wc2_of_ne m c main_arg4 (by decide)
    _ = Wc0 m c (Proc.devRef .tc main_arg4) := Wc1_of m c main_arg4 (by decide)
theorem back3_main_arg5 : Wc6 m c (Proc.devRef .tc main_arg5) = Wc0 m c (Proc.devRef .tc main_arg5) :=
  calc Wc6 m c (Proc.devRef .tc main_arg5)
    _ = Wc5 m c (Proc.devRef .tc main_arg5) := Wc6_of_ne m c main_arg5 (by decide)
    _ = Wc4 m c (Proc.devRef .tc main_arg5) := Wc5_of m c main_arg5 (by decide)
    _ = Wc3 m c (Proc.devRef .tc main_arg5) := Wc4_of_ne m c main_arg5 (by decide)
    _ = Wc2 m c (Proc.devRef .tc main_arg5) := Wc3_of m c main_arg5 (by decide)
    _ = Wc1 m c (Proc.devRef .tc main_arg5) := Wc2_of_ne m c main_arg5 (by decide)
    _ = Wc0 m c (Proc.devRef .tc main_arg5) := Wc1_of m c main_arg5 (by decide)
theorem back3_main_arg6 : Wc6 m c (Proc.devRef .tc main_arg6) = Wc0 m c (Proc.devRef .tc main_arg6) :=
  calc Wc6 m c (Proc.devRef .tc main_arg6)
    _ = Wc5 m c (Proc.devRef .tc main_arg6) := Wc6_of_ne m c main_arg6 (by decide)
    _ = Wc4 m c (Proc.devRef .tc main_arg6) := Wc5_of m c main_arg6 (by decide)
    _ = Wc3 m c (Proc.devRef .tc main_arg6) := Wc4_of_ne m c main_arg6 (by decide)
    _ = Wc2 m c (Proc.devRef .tc main_arg6) := Wc3_of m c main_arg6 (by decide)
    _ = Wc1 m c (Proc.devRef .tc main_arg6) := Wc2_of_ne m c main_arg6 (by decide)
    _ = Wc0 m c (Proc.devRef .tc main_arg6) := Wc1_of m c main_arg6 (by decide)
theorem back4_main_v1 : Wc8 m c (Proc.devRef .tc main_v1) = Wc1 m c (Proc.devRef .tc main_v1) :=
  calc Wc8 m c (Proc.devRef .tc main_v1)
    _ = Wc7 m c (Proc.devRef .tc main_v1) := Wc8_of_ne m c main_v1 (by decide)
    _ = Wc6 m c (Proc.devRef .tc main_v1) := Wc7_of m c main_v1 (by decide)
    _ = Wc5 m c (Proc.devRef .tc main_v1) := Wc6_of_ne m c main_v1 (by decide)
    _ = Wc4 m c (Proc.devRef .tc main_v1) := Wc5_of m c main_v1 (by decide)
    _ = Wc3 m c (Proc.devRef .tc main_v1) := Wc4_of_ne m c main_v1 (by decide)
    _ = Wc2 m c (Proc.devRef .tc main_v1) := Wc3_of m c main_v1 (by decide)
    _ = Wc1 m c (Proc.devRef .tc main_v1) := Wc2_of_ne m c main_v1 (by decide)
theorem back4_main_v3 : Wc8 m c (Proc.devRef .tc main_v3) = Wc1 m c (Proc.devRef .tc main_v3) :=
  calc Wc8 m c (Proc.devRef .tc main_v3)
    _ = Wc7 m c (Proc.devRef .tc main_v3) := Wc8_of_ne m c main_v3 (by decide)
    _ = Wc6 m c (Proc.devRef .tc main_v3) := Wc7_of m c main_v3 (by decide)
    _ = Wc5 m c (Proc.devRef .tc main_v3) := Wc6_of_ne m c main_v3 (by decide)
    _ = Wc4 m c (Proc.devRef .tc main_v3) := Wc5_of m c main_v3 (by decide)
    _ = Wc3 m c (Proc.devRef .tc main_v3) := Wc4_of_ne m c main_v3 (by decide)
    _ = Wc2 m c (Proc.devRef .tc main_v3) := Wc3_of m c main_v3 (by decide)
    _ = Wc1 m c (Proc.devRef .tc main_v3) := Wc2_of_ne m c main_v3 (by decide)
theorem back4_main_arg3 : Wc8 m c (Proc.devRef .tc main_arg3) = Wc0 m c (Proc.devRef .tc main_arg3) :=
  calc Wc8 m c (Proc.devRef .tc main_arg3)
    _ = Wc7 m c (Proc.devRef .tc main_arg3) := Wc8_of_ne m c main_arg3 (by decide)
    _ = Wc6 m c (Proc.devRef .tc main_arg3) := Wc7_of m c main_arg3 (by decide)
    _ = Wc5 m c (Proc.devRef .tc main_arg3) := Wc6_of_ne m c main_arg3 (by decide)
    _ = Wc4 m c (Proc.devRef .tc main_arg3) := Wc5_of m c main_arg3 (by decide)
    _ = Wc3 m c (Proc.devRef .tc main_arg3) := Wc4_of_ne m c main_arg3 (by decide)
    _ = Wc2 m c (Proc.devRef .tc main_arg3) := Wc3_of m c main_arg3 (by decide)
    _ = Wc1 m c (Proc.devRef .tc main_arg3) := Wc2_of_ne m c main_arg3 (by decide)
    _ = Wc0 m c (Proc.devRef .tc main_arg3) := Wc1_of m c main_arg3 (by decide)
theorem back4_main_arg4 : Wc8 m c (Proc.devRef .tc main_arg4) = Wc0 m c (Proc.devRef .tc main_arg4) :=
  calc Wc8 m c (Proc.devRef .tc main_arg4)
    _ = Wc7 m c (Proc.devRef .tc main_arg4) := Wc8_of_ne m c main_arg4 (by decide)
    _ = Wc6 m c (Proc.devRef .tc main_arg4) := Wc7_of m c main_arg4 (by decide)
    _ = Wc5 m c (Proc.devRef .tc main_arg4) := Wc6_of_ne m c main_arg4 (by decide)
    _ = Wc4 m c (Proc.devRef .tc main_arg4) := Wc5_of m c main_arg4 (by decide)
    _ = Wc3 m c (Proc.devRef .tc main_arg4) := Wc4_of_ne m c main_arg4 (by decide)
    _ = Wc2 m c (Proc.devRef .tc main_arg4) := Wc3_of m c main_arg4 (by decide)
    _ = Wc1 m c (Proc.devRef .tc main_arg4) := Wc2_of_ne m c main_arg4 (by decide)
    _ = Wc0 m c (Proc.devRef .tc main_arg4) := Wc1_of m c main_arg4 (by decide)
theorem back4_main_arg5 : Wc8 m c (Proc.devRef .tc main_arg5) = Wc0 m c (Proc.devRef .tc main_arg5) :=
  calc Wc8 m c (Proc.devRef .tc main_arg5)
    _ = Wc7 m c (Proc.devRef .tc main_arg5) := Wc8_of_ne m c main_arg5 (by decide)
    _ = Wc6 m c (Proc.devRef .tc main_arg5) := Wc7_of m c main_arg5 (by decide)
    _ = Wc5 m c (Proc.devRef .tc main_arg5) := Wc6_of_ne m c main_arg5 (by decide)
    _ = Wc4 m c (Proc.devRef .tc main_arg5) := Wc5_of m c main_arg5 (by decide)
    _ = Wc3 m c (Proc.devRef .tc main_arg5) := Wc4_of_ne m c main_arg5 (by decide)
    _ = Wc2 m c (Proc.devRef .tc main_arg5) := Wc3_of m c main_arg5 (by decide)
    _ = Wc1 m c (Proc.devRef .tc main_arg5) := Wc2_of_ne m c main_arg5 (by decide)
    _ = Wc0 m c (Proc.devRef .tc main_arg5) := Wc1_of m c main_arg5 (by decide)
theorem back4_main_arg6 : Wc8 m c (Proc.devRef .tc main_arg6) = Wc0 m c (Proc.devRef .tc main_arg6) :=
  calc Wc8 m c (Proc.devRef .tc main_arg6)
    _ = Wc7 m c (Proc.devRef .tc main_arg6) := Wc8_of_ne m c main_arg6 (by decide)
    _ = Wc6 m c (Proc.devRef .tc main_arg6) := Wc7_of m c main_arg6 (by decide)
    _ = Wc5 m c (Proc.devRef .tc main_arg6) := Wc6_of_ne m c main_arg6 (by decide)
    _ = Wc4 m c (Proc.devRef .tc main_arg6) := Wc5_of m c main_arg6 (by decide)
    _ = Wc3 m c (Proc.devRef .tc main_arg6) := Wc4_of_ne m c main_arg6 (by decide)
    _ = Wc2 m c (Proc.devRef .tc main_arg6) := Wc3_of m c main_arg6 (by decide)
    _ = Wc1 m c (Proc.devRef .tc main_arg6) := Wc2_of_ne m c main_arg6 (by decide)
    _ = Wc0 m c (Proc.devRef .tc main_arg6) := Wc1_of m c main_arg6 (by decide)
theorem back5_main_arg8 : Wc10 m c (Proc.devRef .tc main_arg8) = Wc0 m c (Proc.devRef .tc main_arg8) :=
  calc Wc10 m c (Proc.devRef .tc main_arg8)
    _ = Wc9 m c (Proc.devRef .tc main_arg8) := Wc10_of_ne m c main_arg8 (by decide)
    _ = Wc8 m c (Proc.devRef .tc main_arg8) := Wc9_of m c main_arg8 (by decide)
    _ = Wc7 m c (Proc.devRef .tc main_arg8) := Wc8_of_ne m c main_arg8 (by decide)
    _ = Wc6 m c (Proc.devRef .tc main_arg8) := Wc7_of m c main_arg8 (by decide)
    _ = Wc5 m c (Proc.devRef .tc main_arg8) := Wc6_of_ne m c main_arg8 (by decide)
    _ = Wc4 m c (Proc.devRef .tc main_arg8) := Wc5_of m c main_arg8 (by decide)
    _ = Wc3 m c (Proc.devRef .tc main_arg8) := Wc4_of_ne m c main_arg8 (by decide)
    _ = Wc2 m c (Proc.devRef .tc main_arg8) := Wc3_of m c main_arg8 (by decide)
    _ = Wc1 m c (Proc.devRef .tc main_arg8) := Wc2_of_ne m c main_arg8 (by decide)
    _ = Wc0 m c (Proc.devRef .tc main_arg8) := Wc1_of m c main_arg8 (by decide)
theorem back5_main_arg7 : Wc10 m c (Proc.devRef .tc main_arg7) = Wc0 m c (Proc.devRef .tc main_arg7) :=
  calc Wc10 m c (Proc.devRef .tc main_arg7)
    _ = Wc9 m c (Proc.devRef .tc main_arg7) := Wc10_of_ne m c main_arg7 (by decide)
    _ = Wc8 m c (Proc.devRef .tc main_arg7) := Wc9_of m c main_arg7 (by decide)
    _ = Wc7 m c (Proc.devRef .tc main_arg7) := Wc8_of_ne m c main_arg7 (by decide)
    _ = Wc6 m c (Proc.devRef .tc main_arg7) := Wc7_of m c main_arg7 (by decide)
    _ = Wc5 m c (Proc.devRef .tc main_arg7) := Wc6_of_ne m c main_arg7 (by decide)
    _ = Wc4 m c (Proc.devRef .tc main_arg7) := Wc5_of m c main_arg7 (by decide)
    _ = Wc3 m c (Proc.devRef .tc main_arg7) := Wc4_of_ne m c main_arg7 (by decide)
    _ = Wc2 m c (Proc.devRef .tc main_arg7) := Wc3_of m c main_arg7 (by decide)
    _ = Wc1 m c (Proc.devRef .tc main_arg7) := Wc2_of_ne m c main_arg7 (by decide)
    _ = Wc0 m c (Proc.devRef .tc main_arg7) := Wc1_of m c main_arg7 (by decide)

theorem src_at (J : Unit) : Wc1 m c (Proc.devRef .tc main_v1) = srcT (m ((c : Thread nD τ).loc main_arg1)) := rd_src (Wc0 m c)
theorem dst_at (J : Unit) : Wc1 m c (Proc.devRef .tc main_v3) = dstT (m ((c : Thread nD τ).loc main_arg1)) := rd_dst (Wc0 m c)

/-! ### What each region is entered with, and what it leaves -/

theorem in_h0 : Vc1 m c main_v10 = HT0 (m ((c : Thread nD τ).loc main_arg0)) (m ((c : Thread nD τ).loc main_arg2)) := rd_h0 (Wc0 m c)
theorem in_agg0 : Vc1 m c main_v20 = aggT (HT0 (m ((c : Thread nD τ).loc main_arg0)) (m ((c : Thread nD τ).loc main_arg2))) (srcT (m ((c : Thread nD τ).loc main_arg1))) (dstT (m ((c : Thread nD τ).loc main_arg1))) := rd_agg0 (Wc0 m c)
theorem in_wa0 : Vc1 m c main_v22 = matT0 (m ((c : Thread nD τ).loc main_arg3)) := by
  refine (rd_wa0 (Wc0 m c)).trans ?_
  rfl
theorem in_ba0 : Vc1 m c main_v29 = rowT0 (m ((c : Thread nD τ).loc main_arg4)) := by
  refine (rd_ba0 (Wc0 m c)).trans ?_
  rfl
theorem in_wb0 : Vc1 m c main_v26 = matT0 (m ((c : Thread nD τ).loc main_arg5)) := by
  refine (rd_wb0 (Wc0 m c)).trans ?_
  rfl
theorem in_bb0 : Vc1 m c main_v30 = rowT0 (m ((c : Thread nD τ).loc main_arg6)) := by
  refine (rd_bb0 (Wc0 m c)).trans ?_
  rfl
/-- Region 0 leaves layer 0's value of what it was entered with in its output array. -/
theorem out0 : Wc2 m c (Proc.devRef .tc main_v31) = HT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Wc2_arr m c 6).trans ?_
  refine (final0 (Vc1 m) c).trans ?_
  show layerArr (Vc1 m c main_v10) (Vc1 m c main_v20) (Vc1 m c main_v22) (Vc1 m c main_v29) (Vc1 m c main_v26) (Vc1 m c main_v30) = _
  rw [in_h0 m c, in_agg0 m c, in_wa0 m c, in_ba0 m c, in_wb0 m c, in_bb0 m c]
  rfl
theorem in_h1 : Vc3 m c main_v31 = HT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Wc3_of m c main_v31 (by decide)).trans (out0 m c)
theorem in_agg1 : Vc3 m c main_v41 = aggT (HT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcT (m ((c : Thread nD τ).loc main_arg1))) (dstT (m ((c : Thread nD τ).loc main_arg1))) := by
  refine (rd_agg1 (Wc2 m c)).trans ?_
  rw [out0 m c, back1_main_v1 m c, back1_main_v3 m c, src_at m c (), dst_at m c ()]
theorem in_wa1 : Vc3 m c main_v43 = matT1 (m ((c : Thread nD τ).loc main_arg3)) := by
  refine (rd_wa1 (Wc2 m c)).trans ?_
  rw [back1_main_arg3 m c]
theorem in_ba1 : Vc3 m c main_v50 = rowT1 (m ((c : Thread nD τ).loc main_arg4)) := by
  refine (rd_ba1 (Wc2 m c)).trans ?_
  rw [back1_main_arg4 m c]
theorem in_wb1 : Vc3 m c main_v47 = matT1 (m ((c : Thread nD τ).loc main_arg5)) := by
  refine (rd_wb1 (Wc2 m c)).trans ?_
  rw [back1_main_arg5 m c]
theorem in_bb1 : Vc3 m c main_v51 = rowT1 (m ((c : Thread nD τ).loc main_arg6)) := by
  refine (rd_bb1 (Wc2 m c)).trans ?_
  rw [back1_main_arg6 m c]
/-- Region 1 leaves layer 1's value of what it was entered with in its output array. -/
theorem out1 : Wc4 m c (Proc.devRef .tc main_v52) = HT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Wc4_arr m c 6).trans ?_
  refine (final1 (Vc3 m) c).trans ?_
  show layerArr (Vc3 m c main_v31) (Vc3 m c main_v41) (Vc3 m c main_v43) (Vc3 m c main_v50) (Vc3 m c main_v47) (Vc3 m c main_v51) = _
  rw [in_h1 m c, in_agg1 m c, in_wa1 m c, in_ba1 m c, in_wb1 m c, in_bb1 m c]
  rfl
theorem in_h2 : Vc5 m c main_v52 = HT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Wc5_of m c main_v52 (by decide)).trans (out1 m c)
theorem in_agg2 : Vc5 m c main_v62 = aggT (HT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcT (m ((c : Thread nD τ).loc main_arg1))) (dstT (m ((c : Thread nD τ).loc main_arg1))) := by
  refine (rd_agg2 (Wc4 m c)).trans ?_
  rw [out1 m c, back2_main_v1 m c, back2_main_v3 m c, src_at m c (), dst_at m c ()]
theorem in_wa2 : Vc5 m c main_v64 = matT2 (m ((c : Thread nD τ).loc main_arg3)) := by
  refine (rd_wa2 (Wc4 m c)).trans ?_
  rw [back2_main_arg3 m c]
theorem in_ba2 : Vc5 m c main_v71 = rowT2 (m ((c : Thread nD τ).loc main_arg4)) := by
  refine (rd_ba2 (Wc4 m c)).trans ?_
  rw [back2_main_arg4 m c]
theorem in_wb2 : Vc5 m c main_v68 = matT2 (m ((c : Thread nD τ).loc main_arg5)) := by
  refine (rd_wb2 (Wc4 m c)).trans ?_
  rw [back2_main_arg5 m c]
theorem in_bb2 : Vc5 m c main_v72 = rowT2 (m ((c : Thread nD τ).loc main_arg6)) := by
  refine (rd_bb2 (Wc4 m c)).trans ?_
  rw [back2_main_arg6 m c]
/-- Region 2 leaves layer 2's value of what it was entered with in its output array. -/
theorem out2 : Wc6 m c (Proc.devRef .tc main_v73) = HT3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Wc6_arr m c 6).trans ?_
  refine (final2 (Vc5 m) c).trans ?_
  show layerArr (Vc5 m c main_v52) (Vc5 m c main_v62) (Vc5 m c main_v64) (Vc5 m c main_v71) (Vc5 m c main_v68) (Vc5 m c main_v72) = _
  rw [in_h2 m c, in_agg2 m c, in_wa2 m c, in_ba2 m c, in_wb2 m c, in_bb2 m c]
  rfl
theorem in_h3 : Vc7 m c main_v73 = HT3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Wc7_of m c main_v73 (by decide)).trans (out2 m c)
theorem in_agg3 : Vc7 m c main_v83 = aggT (HT3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcT (m ((c : Thread nD τ).loc main_arg1))) (dstT (m ((c : Thread nD τ).loc main_arg1))) := by
  refine (rd_agg3 (Wc6 m c)).trans ?_
  rw [out2 m c, back3_main_v1 m c, back3_main_v3 m c, src_at m c (), dst_at m c ()]
theorem in_wa3 : Vc7 m c main_v85 = matT3 (m ((c : Thread nD τ).loc main_arg3)) := by
  refine (rd_wa3 (Wc6 m c)).trans ?_
  rw [back3_main_arg3 m c]
theorem in_ba3 : Vc7 m c main_v92 = rowT3 (m ((c : Thread nD τ).loc main_arg4)) := by
  refine (rd_ba3 (Wc6 m c)).trans ?_
  rw [back3_main_arg4 m c]
theorem in_wb3 : Vc7 m c main_v89 = matT3 (m ((c : Thread nD τ).loc main_arg5)) := by
  refine (rd_wb3 (Wc6 m c)).trans ?_
  rw [back3_main_arg5 m c]
theorem in_bb3 : Vc7 m c main_v93 = rowT3 (m ((c : Thread nD τ).loc main_arg6)) := by
  refine (rd_bb3 (Wc6 m c)).trans ?_
  rw [back3_main_arg6 m c]
/-- Region 3 leaves layer 3's value of what it was entered with in its output array. -/
theorem out3 : Wc8 m c (Proc.devRef .tc main_v94) = HT4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Wc8_arr m c 6).trans ?_
  refine (final3 (Vc7 m) c).trans ?_
  show layerArr (Vc7 m c main_v73) (Vc7 m c main_v83) (Vc7 m c main_v85) (Vc7 m c main_v92) (Vc7 m c main_v89) (Vc7 m c main_v93) = _
  rw [in_h3 m c, in_agg3 m c, in_wa3 m c, in_ba3 m c, in_wb3 m c, in_bb3 m c]
  rfl
theorem in_h4 : Vc9 m c main_v94 = HT4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Wc9_of m c main_v94 (by decide)).trans (out3 m c)
theorem in_agg4 : Vc9 m c main_v104 = aggT (HT4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcT (m ((c : Thread nD τ).loc main_arg1))) (dstT (m ((c : Thread nD τ).loc main_arg1))) := by
  refine (rd_agg4 (Wc8 m c)).trans ?_
  rw [out3 m c, back4_main_v1 m c, back4_main_v3 m c, src_at m c (), dst_at m c ()]
theorem in_wa4 : Vc9 m c main_v106 = matT4 (m ((c : Thread nD τ).loc main_arg3)) := by
  refine (rd_wa4 (Wc8 m c)).trans ?_
  rw [back4_main_arg3 m c]
theorem in_ba4 : Vc9 m c main_v113 = rowT4 (m ((c : Thread nD τ).loc main_arg4)) := by
  refine (rd_ba4 (Wc8 m c)).trans ?_
  rw [back4_main_arg4 m c]
theorem in_wb4 : Vc9 m c main_v110 = matT4 (m ((c : Thread nD τ).loc main_arg5)) := by
  refine (rd_wb4 (Wc8 m c)).trans ?_
  rw [back4_main_arg5 m c]
theorem in_bb4 : Vc9 m c main_v114 = rowT4 (m ((c : Thread nD τ).loc main_arg6)) := by
  refine (rd_bb4 (Wc8 m c)).trans ?_
  rw [back4_main_arg6 m c]
/-- Region 4 leaves layer 4's value of what it was entered with in its output array. -/
theorem out4 : Wc10 m c (Proc.devRef .tc main_v115) = HT5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Wc10_arr m c 6).trans ?_
  refine (final4 (Vc9 m) c).trans ?_
  show layerArr (Vc9 m c main_v94) (Vc9 m c main_v104) (Vc9 m c main_v106) (Vc9 m c main_v113) (Vc9 m c main_v110) (Vc9 m c main_v114) = _
  rw [in_h4 m c, in_agg4 m c, in_wa4 m c, in_ba4 m c, in_wb4 m c, in_bb4 m c]
  rfl

theorem in_h5 : Vc11 m c main_v115 = HT5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Wc11_of m c main_v115 (by decide)).trans (out4 m c)
theorem in_wl : Vc11 m c main_arg7 = (m ((c : Thread nD τ).loc main_arg7)) :=
  (Wc11_of m c main_arg7 (by decide)).trans (back5_main_arg7 m c)
theorem in_bl : Vc11 m c main_v116 = (shapeCast _ (m ((c : Thread nD τ).loc main_arg8)) shapeCasts_S128_S1x128 : (⟨S1x128, .f32⟩ : BufTy).Contents (Elt Ideal)) := by
  refine (rd_blin (Wc10 m c)).trans ?_
  rw [back5_main_arg8 m c]
end Chain

/-! ### The pooled result -/

section PoolValue
variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0 :=
  (by decide +kernel : ∀ t : Fin grid5.N, _)
theorem pt_lt5 (t : Fin cfg5.N) : t.val < 50 := lt_of_lt_of_eq t.isLt (show cfg5.N = 50 from N_5)
theorem lt5 (t : Fin 50) : t.val < cfg5.N := by rw [show cfg5.N = 50 from N_5]; exact t.isLt

/-- Block `t` of the pool region's row window is rows 2000·t … 2000·t + 1999 of the last layer's output. -/
theorem rd5_0 (c : Dev nD) (t : Fin cfg5.N) (p : Fin 2000) (k : Fin 128) :
    iblk5 V c 0 t (ix2 p k) = (V c main_v115) (ix2 ⟨2000 * t.val + p.val, Cert.PoolMath.blockRow_lt ⟨t.val, pt_lt5 t⟩ p⟩ k) := by
  obtain ⟨e0, e1⟩ := idx_facts5 t
  show (V c main_v115) (((cfg5.win 0).blk t).view.emb (ix2 p k)) = _
  refine congrArg _ (funext fun a => Fin.ext ?_)
  match a with
  | ⟨0, _⟩ => show win5_0.index t (0 : Fin 2) * 2000 + 1 * p.val = 2000 * t.val + p.val; omega
  | ⟨1, _⟩ => show win5_0.index t (1 : Fin 2) * 128 + 1 * k.val = k.val; omega

set_option maxHeartbeats 1000000 in
/-- The pool region's output row: the column sums of the array it is entered with, times the weights, plus the bias row. -/
theorem pool_entry (c : Dev nD) (q : Fin 128) :
    (dat5 V c).arrAt 3 cfg5.N (ix2 0 q) = Cert.PoolMath.poolFn (fun r k => (V c main_v115) (ix2 r k)) (fun k q => (V c main_arg7) (ix2 k q)) (fun q => (V c main_v116) (ix2 0 q)) q := by
  rw [final5 V c]
  show k5_pay3 (F := Ideal) (accAt5 V c 49 tLast5.isLt) (iblk5 V c 1 tLast5) (iblk5 V c 2 tLast5) (ix2 0 q) = _
  rw [iblk5_1_eq V c tLast5, iblk5_2_eq V c tLast5]
  refine Cert.PoolMath.pool_out_apply (fun r k => (V c main_v115) (ix2 r k)) (fun k q => (V c main_arg7) (ix2 k q)) (fun q => (V c main_v116) (ix2 0 q))
    (accAt5 V c 49 tLast5.isLt) (V c main_arg7) (V c main_v116) ?_ (fun _ _ => rfl) (fun _ => rfl) q
  intro k
  exact Cert.PoolMath.acc_last_of_rec (fun r k => (V c main_v115) (ix2 r k)) (fun t => iblk5 V c 0 ⟨t.val, lt5 t⟩) (fun t p k => rd5_0 V c ⟨t.val, lt5 t⟩ p k)
    (fun t => accAt5 V c t.val (lt5 t)) rfl (fun n hn => rfl) k

end PoolValue

/-- THE KERNEL'S RESULT, entry by entry: the pooled row of the fifth layer's node features. -/
theorem kernel_value (m : (ℓ : Loc nD τ sig) → Buf (Elt Ideal) ℓ) (c : Dev nD) (q : Fin 128) :
    (dat5 (Vc11 m) c).arrAt 3 cfg5.N (ix2 0 q) = Cert.PoolMath.poolFn (fun r k => (HT5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 r k)) (fun k q => (m ((c : Thread nD τ).loc main_arg7)) (ix2 k q)) (fun q => (m ((c : Thread nD τ).loc main_arg8)) (ix1 q)) q := by
  rw [pool_entry (Vc11 m) c q, in_h5 m c, in_wl m c, in_bl m c]
  refine congrArg (fun b => Cert.PoolMath.poolFn (fun r k => (HT5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 r k)) (fun k q => (m ((c : Thread nD τ).loc main_arg7)) (ix2 k q)) b q) (funext fun q => ?_)
  exact row_of_vec _ q

end Cert.KernelIdeal.Gen

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LayerHostMath.lean ====
/-
  One layer of the network in the host's whole-array spelling, read one entry at a time at the exact values.

  The host computes a layer on the whole 100000×128 array at once:  the sum h + agg, a dot_general with Wa, the bias
  ba (a length-128 vector placed along the columns of a 1×128 row, the row then spread over the rows), the maximum
  with a spread zero constant, and the same again with Wb and bb.  Rows do not mix in any of these steps, so entry
  (r, q) is the specification `layerFn` at row r — the same function the vector unit computes block by block.
-/
import proofs.«136333_j35605278884121_1_alg».proof.Proof.Gen.ReferenceIdeal
import proofs.«136333_j35605278884121_1_alg».proof.Proof.LayerMath
import proofs.«136333_j35605278884121_1_alg».proof.Proof.LibRowBias

noncomputable section

open scoped BigOperators

namespace Cert.LayerHostMath

open Idealize.ShloMosaic Idealize.ShloMosaic.ValueIdx Cert.RowDot Cert.RowBias Cert.LayerMath
open Cert.ReferenceIdeal Cert.ReferenceIdeal.Gen

/-- The host's dense layer with its rectifier on a whole M×K array, at entry (p, q): row p times W at column q, plus
    the bias at q, clamped below at zero. -/
theorem host_relu_dense_apply {M K N : Nat} (X : FVec Ideal (⟨2, ![M, K]⟩ : Shape) .f32)
    (W : FVec Ideal (⟨2, ![K, N]⟩ : Shape) .f32) (B : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf
        (addf (Host.dotGeneral (F := Ideal) (DotDims.plain M K N) none X W)
          (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 p q)
      = max ((∑ k : Fin K, X (ix2 p k) * W (ix2 k q)) + B (ix1 q)) 0 := by
  show max (FloatOps.dotGeneral (DotDims.plain M K N) none _ X W (ix2 p q)
      + broadcastInDim ⟨2, ![M, N]⟩ ![0, 1] h2 (broadcastInDim ⟨2, ![1, N]⟩ ![1] h1 B) (ix2 p q))
      (Ideal.ofBits .f32 0x00000000#32) = _
  rw [Ideal.ofBits_zero_f32]
  refine congrArg (fun z : EReal => max z 0) ?_
  refine congrArg₂ (fun a b : EReal => a + b) (dotGeneral_plain_apply none _ X W (ix2 p q)) ?_
  exact (spreadRowInDim_apply _ h2 (ix2 p q)).trans (rowInDim_apply B h1 q)

/-- One layer as the host spells it, on whole arrays. -/
def hostLayer (H A : FVec Ideal S100000x128 .f32) (Wa Wb : FVec Ideal S128x128 .f32) (Ba Bb : FVec Ideal S128 .f32) :
    FVec Ideal S100000x128 .f32 :=
  maximumf
    (addf
      (Host.dotGeneral (F := Ideal) dot_S100000x128_S128x128_S100000x128_1_0_0_1_n_n none
        (maximumf
          (addf (Host.dotGeneral (F := Ideal) dot_S100000x128_S128x128_S100000x128_1_0_0_1_n_n none (addf H A) Wa)
            (broadcastInDim S100000x128 ![0, 1] bcast_S1x128_S100000x128_0_1
              (broadcastInDim S1x128 ![1] bcast_S128_S1x128_1 Ba)))
          (broadcastInDim S100000x128 ![] bcast_S_S100000x128 (constant (F := Ideal) S_ .f32 0x00000000#32)))
        Wb)
      (broadcastInDim S100000x128 ![0, 1] bcast_S1x128_S100000x128_0_1
        (broadcastInDim S1x128 ![1] bcast_S128_S1x128_1 Bb)))
    (broadcastInDim S100000x128 ![] bcast_S_S100000x128 (constant (F := Ideal) S_ .f32 0x00000000#32))

/-- The host's layer at entry (r, q) is the specification at row r. -/
theorem hostLayer_apply (H A : FVec Ideal S100000x128 .f32) (Wa Wb : FVec Ideal S128x128 .f32)
    (Ba Bb : FVec Ideal S128 .f32) (r : Fin 100000) (q : Fin 128) :
    hostLayer H A Wa Wb Ba Bb (ix2 r q)
      = layerFn (fun r j => H (ix2 r j)) (fun r j => A (ix2 r j)) (fun j k => Wa (ix2 j k)) (fun j k => Wb (ix2 j k))
          (fun k => Ba (ix1 k)) (fun k => Bb (ix1 k)) r q := by
  unfold hostLayer
  refine (host_relu_dense_apply (M := 100000) (K := 128) (N := 128) _ Wb Bb _ _ _ r q).trans ?_
  unfold layerFn
  refine congrArg (fun z : EReal => max (z + Bb (ix1 q)) 0) (Finset.sum_congr rfl fun k _ => ?_)
  refine congrArg (fun z : EReal => z * Wb (ix2 k q)) ?_
  exact host_relu_dense_apply (M := 100000) (K := 128) (N := 128) (addf H A) Wa Ba _ _ _ r k

end Cert.LayerHostMath

end
-- ==== Proof.PoolHostMath.lean ====
/-
  The pooling step in the host's whole-array spelling, read one entry at a time at the exact values.

  The host sums the 100000×128 array along axis 0 from a zero initial value, places the 128 column sums along the
  columns of a 1×128 row, takes the dot_general of that row with Wlin, and adds blin placed the same way.  Entry q of
  the result is the specification `poolFn` — the same numbers the vector unit accumulates block by block.
-/
import proofs.«136333_j35605278884121_1_alg».proof.Proof.Gen.ReferenceIdeal
import proofs.«136333_j35605278884121_1_alg».proof.Proof.PoolMath
import proofs.«136333_j35605278884121_1_alg».proof.Proof.LibRowBias

noncomputable section

open scoped BigOperators

namespace Cert.PoolHostMath

open Idealize.ShloMosaic Idealize.ShloMosaic.ValueIdx Cert.RowDot Cert.RowBias Cert.PoolMath
open Cert.ReferenceIdeal Cert.ReferenceIdeal.Gen

/-- The host's sum along axis 0 from a zero initial value, at column k: the sum over the rows r of the entries (r, k). -/
theorem hostColSum_apply (H : FVec Ideal S100000x128 .f32) (k : Fin 128) :
    Host.reduceAdd (F := Ideal) H (constant (F := Ideal) S_ .f32 0x00000000#32) reducesTo_S100000x128_S128_d0 h_S_ (ix1 k)
      = ∑ r : Fin 100000, H (ix2 r k) := by
  have hr : S100000x128.Reduces [0] S128 := by decide
  refine (Ideal.hostReduceAdd_single reducesTo_S100000x128_S128_d0 hr H _ (ix1 k)).trans ?_
  rw [show (constant (F := Ideal) S_ .f32 0x00000000#32) (Shape.Idx.first h_S_) = 0 from Ideal.ofBits_zero_f32, zero_add]
  refine Finset.sum_congr rfl fun r _ => congrArg H ?_
  funext a
  match a with
  | ⟨0, _⟩ => rfl
  | ⟨1, _⟩ => rfl

/-- The pooling step as the host spells it, on whole arrays. -/
def hostPool (H : FVec Ideal S100000x128 .f32) (Wl : FVec Ideal S128x128 .f32) (Bl : FVec Ideal S128 .f32) :
    FVec Ideal S1x128 .f32 :=
  addf
    (Host.dotGeneral (F := Ideal) dot_S1x128_S128x128_S1x128_1_0_0_1_n_n none
      (broadcastInDim S1x128 ![1] bcast_S128_S1x128_1
        (Host.reduceAdd (F := Ideal) H (constant (F := Ideal) S_ .f32 0x00000000#32) reducesTo_S100000x128_S128_d0 h_S_))
      Wl)
    (broadcastInDim S1x128 ![1] bcast_S128_S1x128_1 Bl)

/-- The host's pooling step at entry q is the specification at q. -/
theorem hostPool_apply (H : FVec Ideal S100000x128 .f32) (Wl : FVec Ideal S128x128 .f32) (Bl : FVec Ideal S128 .f32)
    (q : Fin 128) :
    hostPool H Wl Bl (ix2 0 q)
      = poolFn (fun r k => H (ix2 r k)) (fun k q => Wl (ix2 k q)) (fun q => Bl (ix1 q)) q := by
  unfold hostPool poolFn
  show FloatOps.dotGeneral (DotDims.plain 1 128 128) none _
        (broadcastInDim S1x128 ![1] bcast_S128_S1x128_1
          (Host.reduceAdd (F := Ideal) H (constant (F := Ideal) S_ .f32 0x00000000#32) reducesTo_S100000x128_S128_d0 h_S_))
        Wl (ix2 0 q)
      + broadcastInDim S1x128 ![1] bcast_S128_S1x128_1 Bl (ix2 0 q) = _
  refine congrArg₂ (fun a b : EReal => a + b) ((dotGeneral_plain_apply none _ _ Wl (ix2 0 q)).trans ?_)
    (rowInDim_apply Bl bcast_S128_S1x128_1 q)
  refine Finset.sum_congr rfl fun k _ => congrArg (fun z : EReal => z * Wl (ix2 k q)) ?_
  exact (rowInDim_apply _ bcast_S128_S1x128_1 k).trans (hostColSum_apply H k)

end Cert.PoolHostMath

end
-- ==== Proof.RefChain.lean ====
/-
  The reference program, layer by layer, at the exact (extended-real) values.

  The reference's stages are functions of its arguments.  Five times over, the next node features are the host's
  layer applied to the previous features, their aggregation over the edges, and that layer's two matrices and two
  biases (slices of the stacked parameters); the aggregation is the same function of the features each time (the
  edge index columns are recomputed under other names but are the same arrays); and the output is the host's
  pooling step applied to the last features.  Entry by entry each layer is the specification `layerFn` and the
  output is `poolFn`.
-/
import proofs.«136333_j35605278884121_1_alg».proof.Proof.Gen.ReferenceIdeal.Read
import proofs.«136333_j35605278884121_1_alg».proof.Proof.LayerHostMath
import proofs.«136333_j35605278884121_1_alg».proof.Proof.PoolHostMath

noncomputable section

open scoped BigOperators

namespace Cert.RefChain

open Idealize.ShloMosaic Idealize.ShloMosaic.ValueIdx
open Cert.ReferenceIdeal Cert.ReferenceIdeal.Gen Cert.ReferenceIdeal.Read
open Cert.LayerMath Cert.PoolMath Cert.LayerHostMath Cert.PoolHostMath

/-- The aggregation over the edges as a function of the node features: every edge's source row is gathered and added
    into its target row, starting from the zero array. -/
def aggR (h : (⟨S100000x128, .f32⟩ : BufTy).Contents (Elt Ideal)) (x1 : (⟨S2x600000, .i32⟩ : BufTy).Contents (Elt Ideal)) :
    (⟨S100000x128, .f32⟩ : BufTy).Contents (Elt Ideal) :=
  Host.scatterAdd (F := Ideal) (s := S100000x128) (φ := .f32) scatter_S100000x128_S600000x1_S600000x128_1_0_0_1
    (val_main_v18 (F := Ideal)) (val_main_v19 (F := Ideal) x1)
    (Host.gather gather_S100000x128_S600000x1_S600000x128_1_0_n_n_0_1_1128 h (val_main_v16 (F := Ideal) x1))

variable (x0 : (⟨S100000, .i32⟩ : BufTy).Contents (Elt Ideal)) (x1 : (⟨S2x600000, .i32⟩ : BufTy).Contents (Elt Ideal))
  (x2 : (⟨S100000x128, .f32⟩ : BufTy).Contents (Elt Ideal)) (x3 : (⟨S5x128x128, .f32⟩ : BufTy).Contents (Elt Ideal))
  (x4 : (⟨S5x128, .f32⟩ : BufTy).Contents (Elt Ideal)) (x5 : (⟨S5x128x128, .f32⟩ : BufTy).Contents (Elt Ideal))
  (x6 : (⟨S5x128, .f32⟩ : BufTy).Contents (Elt Ideal)) (x7 : (⟨S128x128, .f32⟩ : BufTy).Contents (Elt Ideal))
  (x8 : (⟨S128, .f32⟩ : BufTy).Contents (Elt Ideal))

/-- Layer 0: the stage after it is the host's layer of the stages before it. -/
theorem layer0_eq :
    val_main_v39 (F := Ideal) x0 x1 x2 x3 x4 x5 x6
      = hostLayer (val_main_v10 (F := Ideal) x0 x2) (val_main_v20 (F := Ideal) x0 x1 x2)
          (val_main_v23 (F := Ideal) x3) (val_main_v32 (F := Ideal) x5) (val_main_v26 (F := Ideal) x4) (val_main_v35 (F := Ideal) x6) := rfl

/-- Layer 0 at entry (r, q): the specification at row r of the stages before it. -/
theorem layer0_apply (r : Fin 100000) (q : Fin 128) :
    (val_main_v39 (F := Ideal) x0 x1 x2 x3 x4 x5 x6) (ix2 r q)
      = layerFn (fun r j => (val_main_v10 (F := Ideal) x0 x2) (ix2 r j)) (fun r j => (val_main_v20 (F := Ideal) x0 x1 x2) (ix2 r j))
          (fun j k => (val_main_v23 (F := Ideal) x3) (ix2 j k)) (fun j k => (val_main_v32 (F := Ideal) x5) (ix2 j k))
          (fun k => (val_main_v26 (F := Ideal) x4) (ix1 k)) (fun k => (val_main_v35 (F := Ideal) x6) (ix1 k)) r q :=
  (congrFun (layer0_eq x0 x1 x2 x3 x4 x5 x6) (ix2 r q)).trans (hostLayer_apply _ _ _ _ _ _ r q)

/-- Layer 0's aggregated neighbour features are the aggregation of the features before it. -/
theorem agg0_eq :
    val_main_v20 (F := Ideal) x0 x1 x2 = aggR (val_main_v10 (F := Ideal) x0 x2) x1 := rfl

/-- Layer 1: the stage after it is the host's layer of the stages before it. -/
theorem layer1_eq :
    val_main_v68 (F := Ideal) x0 x1 x2 x3 x4 x5 x6
      = hostLayer (val_main_v39 (F := Ideal) x0 x1 x2 x3 x4 x5 x6) (val_main_v49 (F := Ideal) x0 x1 x2 x3 x4 x5 x6)
          (val_main_v52 (F := Ideal) x3) (val_main_v61 (F := Ideal) x5) (val_main_v55 (F := Ideal) x4) (val_main_v64 (F := Ideal) x6) := rfl

/-- Layer 1 at entry (r, q): the specification at row r of the stages before it. -/
theorem layer1_apply (r : Fin 100000) (q : Fin 128) :
    (val_main_v68 (F := Ideal) x0 x1 x2 x3 x4 x5 x6) (ix2 r q)
      = layerFn (fun r j => (val_main_v39 (F := Ideal) x0 x1 x2 x3 x4 x5 x6) (ix2 r j)) (fun r j => (val_main_v49 (F := Ideal) x0 x1 x2 x3 x4 x5 x6) (ix2 r j))
          (fun j k => (val_main_v52 (F := Ideal) x3) (ix2 j k)) (fun j k => (val_main_v61 (F := Ideal) x5) (ix2 j k))
          (fun k => (val_main_v55 (F := Ideal) x4) (ix1 k)) (fun k => (val_main_v64 (F := Ideal) x6) (ix1 k)) r q :=
  (congrFun (layer1_eq x0 x1 x2 x3 x4 x5 x6) (ix2 r q)).trans (hostLayer_apply _ _ _ _ _ _ r q)

/-- Layer 1's aggregated neighbour features are the aggregation of the features before it. -/
theorem agg1_eq :
    val_main_v49 (F := Ideal) x0 x1 x2 x3 x4 x5 x6 = aggR (val_main_v39 (F := Ideal) x0 x1 x2 x3 x4 x5 x6) x1 := rfl

/-- Layer 2: the stage after it is the host's layer of the stages before it. -/
theorem layer2_eq :
    val_main_v97 (F := Ideal) x0 x1 x2 x3 x4 x5 x6
      = hostLayer (val_main_v68 (F := Ideal) x0 x1 x2 x3 x4 x5 x6) (val_main_v78 (F := Ideal) x0 x1 x2 x3 x4 x5 x6)
          (val_main_v81 (F := Ideal) x3) (val_main_v90 (F := Ideal) x5) (val_main_v84 (F := Ideal) x4) (val_main_v93 (F := Ideal) x6) := rfl

/-- Layer 2 at entry (r, q): the specification at row r of the stages before it. -/
theorem layer2_apply (r : Fin 100000) (q : Fin 128) :
    (val_main_v97 (F := Ideal) x0 x1 x2 x3 x4 x5 x6) (ix2 r q)
      = layerFn (fun r j => (val_main_v68 (F := Ideal) x0 x1 x2 x3 x4 x5 x6) (ix2 r j)) (fun r j => (val_main_v78 (F := Ideal) x0 x1 x2 x3 x4 x5 x6) (ix2 r j))
          (fun j k => (val_main_v81 (F := Ideal) x3) (ix2 j k)) (fun j k => (val_main_v90 (F := Ideal) x5) (ix2 j k))
          (fun k => (val_main_v84 (F := Ideal) x4) (ix1 k)) (fun k => (val_main_v93 (F := Ideal) x6) (ix1 k)) r q :=
  (congrFun (layer2_eq x0 x1 x2 x3 x4 x5 x6) (ix2 r q)).trans (hostLayer_apply _ _ _ _ _ _ r q)

/-- Layer 2's aggregated neighbour features are the aggregation of the features before it. -/
theorem agg2_eq :
    val_main_v78 (F := Ideal) x0 x1 x2 x3 x4 x5 x6 = aggR (val_main_v68 (F := Ideal) x0 x1 x2 x3 x4 x5 x6) x1 := rfl

/-- Layer 3: the stage after it is the host's layer of the stages before it. -/
theorem layer3_eq :
    val_main_v126 (F := Ideal) x0 x1 x2 x3 x4 x5 x6
      = hostLayer (val_main_v97 (F := Ideal) x0 x1 x2 x3 x4 x5 x6) (val_main_v107 (F := Ideal) x0 x1 x2 x3 x4 x5 x6)
          (val_main_v110 (F := Ideal) x3) (val_main_v119 (F := Ideal) x5) (val_main_v113 (F := Ideal) x4) (val_main_v122 (F := Ideal) x6) := rfl

/-- Layer 3 at entry (r, q): the specification at row r of the stages before it. -/
theorem layer3_apply (r : Fin 100000) (q : Fin 128) :
    (val_main_v126 (F := Ideal) x0 x1 x2 x3 x4 x5 x6) (ix2 r q)
      = layerFn (fun r j => (val_main_v97 (F := Ideal) x0 x1 x2 x3 x4 x5 x6) (ix2 r j)) (fun r j => (val_main_v107 (F := Ideal) x0 x1 x2 x3 x4 x5 x6) (ix2 r j))
          (fun j k => (val_main_v110 (F := Ideal) x3) (ix2 j k)) (fun j k => (val_main_v119 (F := Ideal) x5) (ix2 j k))
          (fun k => (val_main_v113 (F := Ideal) x4) (ix1 k)) (fun k => (val_main_v122 (F := Ideal) x6) (ix1 k)) r q :=
  (congrFun (layer3_eq x0 x1 x2 x3 x4 x5 x6) (ix2 r q)).trans (hostLayer_apply _ _ _ _ _ _ r q)

/-- Layer 3's aggregated neighbour features are the aggregation of the features before it. -/
theorem agg3_eq :
    val_main_v107 (F := Ideal) x0 x1 x2 x3 x4 x5 x6 = aggR (val_main_v97 (F := Ideal) x0 x1 x2 x3 x4 x5 x6) x1 := rfl

/-- Layer 4: the stage after it is the host's layer of the stages before it. -/
theorem layer4_eq :
    val_main_v155 (F := Ideal) x0 x1 x2 x3 x4 x5 x6
      = hostLayer (val_main_v126 (F := Ideal) x0 x1 x2 x3 x4 x5 x6) (val_main_v136 (F := Ideal) x0 x1 x2 x3 x4 x5 x6)
          (val_main_v139 (F := Ideal) x3) (val_main_v148 (F := Ideal) x5) (val_main_v142 (F := Ideal) x4) (val_main_v151 (F := Ideal) x6) := rfl

/-- Layer 4 at entry (r, q): the specification at row r of the stages before it. -/
theorem layer4_apply (r : Fin 100000) (q : Fin 128) :
    (val_main_v155 (F := Ideal) x0 x1 x2 x3 x4 x5 x6) (ix2 r q)
      = layerFn (fun r j => (val_main_v126 (F := Ideal) x0 x1 x2 x3 x4 x5 x6) (ix2 r j)) (fun r j => (val_main_v136 (F := Ideal) x0 x1 x2 x3 x4 x5 x6) (ix2 r j))
          (fun j k => (val_main_v139 (F := Ideal) x3) (ix2 j k)) (fun j k => (val_main_v148 (F := Ideal) x5) (ix2 j k))
          (fun k => (val_main_v142 (F := Ideal) x4) (ix1 k)) (fun k => (val_main_v151 (F := Ideal) x6) (ix1 k)) r q :=
  (congrFun (layer4_eq x0 x1 x2 x3 x4 x5 x6) (ix2 r q)).trans (hostLayer_apply _ _ _ _ _ _ r q)

/-- Layer 4's aggregated neighbour features are the aggregation of the features before it. -/
theorem agg4_eq :
    val_main_v136 (F := Ideal) x0 x1 x2 x3 x4 x5 x6 = aggR (val_main_v126 (F := Ideal) x0 x1 x2 x3 x4 x5 x6) x1 := rfl

/-- The output stage is the host's pooling step of the last layer's stage. -/
theorem pool_eq :
    val_main_v160 (F := Ideal) x0 x1 x2 x3 x4 x5 x6 x7 x8 = hostPool (val_main_v155 (F := Ideal) x0 x1 x2 x3 x4 x5 x6) x7 x8 := rfl

/-- The output at entry q: the specification at q of the last layer's stage. -/
theorem pool_apply (q : Fin 128) :
    (val_main_v160 (F := Ideal) x0 x1 x2 x3 x4 x5 x6 x7 x8) (ix2 0 q)
      = poolFn (fun r k => (val_main_v155 (F := Ideal) x0 x1 x2 x3 x4 x5 x6) (ix2 r k)) (fun k q => x7 (ix2 k q)) (fun q => x8 (ix1 q)) q :=
  (congrFun (pool_eq x0 x1 x2 x3 x4 x5 x6 x7 x8) (ix2 0 q)).trans (hostPool_apply _ x7 x8 q)

end Cert.RefChain

end
-- ==== Proof.Meet.lean ====
/-
  Where the two programs meet, at the exact (extended-real) values.

  Both programs compute the same chain: the embedding rows of the nodes' tokens; five times, the aggregation of the
  neighbours' rows along the edges followed by the layer; then the pooled row.  The program with the layer regions
  names the node features after each layer as whole-array functions of the arguments, the reference names its stages;
  stage by stage these are the same arrays.  The host operations around the regions (index wrapping, gather,
  scatter-add, slices of the stacked parameters) are the same terms in both programs; a layer is the one
  specification read entry by entry on both sides; a bias kept as a 1×128 row and the same bias as a length-128
  vector hold the same numbers.
-/
import proofs.«136333_j35605278884121_1_alg».proof.Proof.IdealStages
import proofs.«136333_j35605278884121_1_alg».proof.Proof.RefChain

set_option maxRecDepth 65536

noncomputable section

open scoped BigOperators

namespace Cert.Meet

open Idealize.ShloMosaic Idealize.ShloMosaic.ValueIdx
open Cert.LayerMath Cert.PoolMath Cert.LayerHostMath Cert.PoolHostMath Cert.RefChain
open Cert.KernelIdeal.Gen (layerArr wrap600 wrap100 srcT dstT h0T aggT row_of_vec
  matT0 matT1 matT2 matT3 matT4 vecT0 vecT1 vecT2 vecT3 vecT4 rowT0 rowT1 rowT2 rowT3 rowT4 HT0 HT1 HT2 HT3 HT4 HT5)
open Cert.ReferenceIdeal.Read (val_main_v10 val_main_v23 val_main_v26 val_main_v32 val_main_v35 val_main_v39
  val_main_v52 val_main_v55 val_main_v61 val_main_v64 val_main_v68 val_main_v81 val_main_v84 val_main_v90 val_main_v93
  val_main_v97 val_main_v110 val_main_v113 val_main_v119 val_main_v122 val_main_v126 val_main_v139 val_main_v142
  val_main_v148 val_main_v151 val_main_v155 val_main_v160)

/-- One layer on whole arrays, the biases kept as 1×128 rows, is the host's layer with the same biases as vectors. -/
theorem layer_meet (H A : Cert.KernelIdeal.S100000x128.Idx → EReal) (Wa Wb : Cert.KernelIdeal.S128x128.Idx → EReal)
    (Ba Bb : Cert.KernelIdeal.S1x128.Idx → EReal) (va vb : Cert.KernelIdeal.S128.Idx → EReal)
    (hBa : ∀ k : Fin 128, Ba (ix2 0 k) = va (ix1 k)) (hBb : ∀ k : Fin 128, Bb (ix2 0 k) = vb (ix1 k)) :
    layerArr H A Wa Ba Wb Bb = hostLayer H A Wa Wb va vb := by
  funext i
  obtain ⟨r, q, rfl⟩ : ∃ (r : Fin 100000) (q : Fin 128), i = ix2 r q := ⟨i 0, i 1, eq_ix2 i⟩
  refine Eq.trans ?_ (hostLayer_apply H A Wa Wb va vb r q).symm
  show layerFn _ _ _ _ (fun k => Ba (ix2 0 k)) (fun k => Bb (ix2 0 k)) r q = _
  rw [show (fun k : Fin 128 => Ba (ix2 0 k)) = (fun k => va (ix1 k)) from funext hBa,
    show (fun k : Fin 128 => Bb (ix2 0 k)) = (fun k => vb (ix1 k)) from funext hBb]

/-- The aggregation along the edges is the same function of the node features in both programs. -/
theorem agg_meet (h : (⟨Cert.KernelIdeal.S100000x128, .f32⟩ : BufTy).Contents (Elt Ideal)) (x1 : (⟨Cert.KernelIdeal.S2x600000, .i32⟩ : BufTy).Contents (Elt Ideal)) :
    aggT h (srcT x1) (dstT x1) = aggR h x1 := rfl

variable (x0 : (⟨Cert.KernelIdeal.S100000, .i32⟩ : BufTy).Contents (Elt Ideal)) (x1 : (⟨Cert.KernelIdeal.S2x600000, .i32⟩ : BufTy).Contents (Elt Ideal))
  (x2 : (⟨Cert.KernelIdeal.S100000x128, .f32⟩ : BufTy).Contents (Elt Ideal)) (x3 : (⟨Cert.KernelIdeal.S5x128x128, .f32⟩ : BufTy).Contents (Elt Ideal))
  (x4 : (⟨Cert.KernelIdeal.S5x128, .f32⟩ : BufTy).Contents (Elt Ideal)) (x5 : (⟨Cert.KernelIdeal.S5x128x128, .f32⟩ : BufTy).Contents (Elt Ideal))
  (x6 : (⟨Cert.KernelIdeal.S5x128, .f32⟩ : BufTy).Contents (Elt Ideal)) (x7 : (⟨Cert.KernelIdeal.S128x128, .f32⟩ : BufTy).Contents (Elt Ideal))
  (x8 : (⟨Cert.KernelIdeal.S128, .f32⟩ : BufTy).Contents (Elt Ideal))

/-- The embedding rows of the nodes' tokens are the same array in both programs. -/
theorem M0 : HT0 x0 x2 = val_main_v10 (F := Ideal) x0 x2 := rfl

/-- Layer 0's slices of the stacked parameters are the reference's stages. -/
theorem matA0 (w : (⟨Cert.KernelIdeal.S5x128x128, .f32⟩ : BufTy).Contents (Elt Ideal)) : matT0 w = val_main_v23 (F := Ideal) w := rfl
theorem matB0 (w : (⟨Cert.KernelIdeal.S5x128x128, .f32⟩ : BufTy).Contents (Elt Ideal)) : matT0 w = val_main_v32 (F := Ideal) w := rfl
theorem vecA0 (b : (⟨Cert.KernelIdeal.S5x128, .f32⟩ : BufTy).Contents (Elt Ideal)) : vecT0 b = val_main_v26 (F := Ideal) b := rfl
theorem vecB0 (b : (⟨Cert.KernelIdeal.S5x128, .f32⟩ : BufTy).Contents (Elt Ideal)) : vecT0 b = val_main_v35 (F := Ideal) b := rfl

/-- After layer 0 the two programs hold the same node features. -/
theorem M1 : HT1 x0 x1 x2 x3 x4 x5 x6 = val_main_v39 (F := Ideal) x0 x1 x2 x3 x4 x5 x6 := by
  refine (layer_meet (HT0 x0 x2) (aggT (HT0 x0 x2) (srcT x1) (dstT x1)) (matT0 x3) (matT0 x5) (rowT0 x4) (rowT0 x6)
    (vecT0 x4) (vecT0 x6) (row_of_vec _) (row_of_vec _)).trans ?_
  rw [layer0_eq x0 x1 x2 x3 x4 x5 x6, agg0_eq x0 x1 x2, ← M0 x0 x2, agg_meet, matA0, matB0, vecA0, vecB0]

/-- Layer 1's slices of the stacked parameters are the reference's stages. -/
theorem matA1 (w : (⟨Cert.KernelIdeal.S5x128x128, .f32⟩ : BufTy).Contents (Elt Ideal)) : matT1 w = val_main_v52 (F := Ideal) w := rfl
theorem matB1 (w : (⟨Cert.KernelIdeal.S5x128x128, .f32⟩ : BufTy).Contents (Elt Ideal)) : matT1 w = val_main_v61 (F := Ideal) w := rfl
theorem vecA1 (b : (⟨Cert.KernelIdeal.S5x128, .f32⟩ : BufTy).Contents (Elt Ideal)) : vecT1 b = val_main_v55 (F := Ideal) b := rfl
theorem vecB1 (b : (⟨Cert.KernelIdeal.S5x128, .f32⟩ : BufTy).Contents (Elt Ideal)) : vecT1 b = val_main_v64 (F := Ideal) b := rfl

/-- After layer 1 the two programs hold the same node features. -/
theorem M2 : HT2 x0 x1 x2 x3 x4 x5 x6 = val_main_v68 (F := Ideal) x0 x1 x2 x3 x4 x5 x6 := by
  refine (layer_meet (HT1 x0 x1 x2 x3 x4 x5 x6) (aggT (HT1 x0 x1 x2 x3 x4 x5 x6) (srcT x1) (dstT x1)) (matT1 x3) (matT1 x5) (rowT1 x4) (rowT1 x6)
    (vecT1 x4) (vecT1 x6) (row_of_vec _) (row_of_vec _)).trans ?_
  rw [layer1_eq x0 x1 x2 x3 x4 x5 x6, agg1_eq x0 x1 x2 x3 x4 x5 x6, ← M1 x0 x1 x2 x3 x4 x5 x6, agg_meet, matA1, matB1, vecA1, vecB1]

/-- Layer 2's slices of the stacked parameters are the reference's stages. -/
theorem matA2 (w : (⟨Cert.KernelIdeal.S5x128x128, .f32⟩ : BufTy).Contents (Elt Ideal)) : matT2 w = val_main_v81 (F := Ideal) w := rfl
theorem matB2 (w : (⟨Cert.KernelIdeal.S5x128x128, .f32⟩ : BufTy).Contents (Elt Ideal)) : matT2 w = val_main_v90 (F := Ideal) w := rfl
theorem vecA2 (b : (⟨Cert.KernelIdeal.S5x128, .f32⟩ : BufTy).Contents (Elt Ideal)) : vecT2 b = val_main_v84 (F := Ideal) b := rfl
theorem vecB2 (b : (⟨Cert.KernelIdeal.S5x128, .f32⟩ : BufTy).Contents (Elt Ideal)) : vecT2 b = val_main_v93 (F := Ideal) b := rfl

/-- After layer 2 the two programs hold the same node features. -/
theorem M3 : HT3 x0 x1 x2 x3 x4 x5 x6 = val_main_v97 (F := Ideal) x0 x1 x2 x3 x4 x5 x6 := by
  refine (layer_meet (HT2 x0 x1 x2 x3 x4 x5 x6) (aggT (HT2 x0 x1 x2 x3 x4 x5 x6) (srcT x1) (dstT x1)) (matT2 x3) (matT2 x5) (rowT2 x4) (rowT2 x6)
    (vecT2 x4) (vecT2 x6) (row_of_vec _) (row_of_vec _)).trans ?_
  rw [layer2_eq x0 x1 x2 x3 x4 x5 x6, agg2_eq x0 x1 x2 x3 x4 x5 x6, ← M2 x0 x1 x2 x3 x4 x5 x6, agg_meet, matA2, matB2, vecA2, vecB2]

/-- Layer 3's slices of the stacked parameters are the reference's stages. -/
theorem matA3 (w : (⟨Cert.KernelIdeal.S5x128x128, .f32⟩ : BufTy).Contents (Elt Ideal)) : matT3 w = val_main_v110 (F := Ideal) w := rfl
theorem matB3 (w : (⟨Cert.KernelIdeal.S5x128x128, .f32⟩ : BufTy).Contents (Elt Ideal)) : matT3 w = val_main_v119 (F := Ideal) w := rfl
theorem vecA3 (b : (⟨Cert.KernelIdeal.S5x128, .f32⟩ : BufTy).Contents (Elt Ideal)) : vecT3 b = val_main_v113 (F := Ideal) b := rfl
theorem vecB3 (b : (⟨Cert.KernelIdeal.S5x128, .f32⟩ : BufTy).Contents (Elt Ideal)) : vecT3 b = val_main_v122 (F := Ideal) b := rfl

/-- After layer 3 the two programs hold the same node features. -/
theorem M4 : HT4 x0 x1 x2 x3 x4 x5 x6 = val_main_v126 (F := Ideal) x0 x1 x2 x3 x4 x5 x6 := by
  refine (layer_meet (HT3 x0 x1 x2 x3 x4 x5 x6) (aggT (HT3 x0 x1 x2 x3 x4 x5 x6) (srcT x1) (dstT x1)) (matT3 x3) (matT3 x5) (rowT3 x4) (rowT3 x6)
    (vecT3 x4) (vecT3 x6) (row_of_vec _) (row_of_vec _)).trans ?_
  rw [layer3_eq x0 x1 x2 x3 x4 x5 x6, agg3_eq x0 x1 x2 x3 x4 x5 x6, ← M3 x0 x1 x2 x3 x4 x5 x6, agg_meet, matA3, matB3, vecA3, vecB3]

/-- Layer 4's slices of the stacked parameters are the reference's stages. -/
theorem matA4 (w : (⟨Cert.KernelIdeal.S5x128x128, .f32⟩ : BufTy).Contents (Elt Ideal)) : matT4 w = val_main_v139 (F := Ideal) w := rfl
theorem matB4 (w : (⟨Cert.KernelIdeal.S5x128x128, .f32⟩ : BufTy).Contents (Elt Ideal)) : matT4 w = val_main_v148 (F := Ideal) w := rfl
theorem vecA4 (b : (⟨Cert.KernelIdeal.S5x128, .f32⟩ : BufTy).Contents (Elt Ideal)) : vecT4 b = val_main_v142 (F := Ideal) b := rfl
theorem vecB4 (b : (⟨Cert.KernelIdeal.S5x128, .f32⟩ : BufTy).Contents (Elt Ideal)) : vecT4 b = val_main_v151 (F := Ideal) b := rfl

/-- After layer 4 the two programs hold the same node features. -/
theorem M5 : HT5 x0 x1 x2 x3 x4 x5 x6 = val_main_v155 (F := Ideal) x0 x1 x2 x3 x4 x5 x6 := by
  refine (layer_meet (HT4 x0 x1 x2 x3 x4 x5 x6) (aggT (HT4 x0 x1 x2 x3 x4 x5 x6) (srcT x1) (dstT x1)) (matT4 x3) (matT4 x5) (rowT4 x4) (rowT4 x6)
    (vecT4 x4) (vecT4 x6) (row_of_vec _) (row_of_vec _)).trans ?_
  rw [layer4_eq x0 x1 x2 x3 x4 x5 x6, agg4_eq x0 x1 x2 x3 x4 x5 x6, ← M4 x0 x1 x2 x3 x4 x5 x6, agg_meet, matA4, matB4, vecA4, vecB4]

/-- The pooled row of the last node features is the reference's output, entry by entry. -/
theorem meet (q : Fin 128) :
    poolFn (fun r k => (HT5 x0 x1 x2 x3 x4 x5 x6) (ix2 r k)) (fun k q => x7 (ix2 k q)) (fun q => x8 (ix1 q)) q
      = (val_main_v160 (F := Ideal) x0 x1 x2 x3 x4 x5 x6 x7 x8) (ix2 0 q) := by
  rw [M5 x0 x1 x2 x3 x4 x5 x6]
  exact (pool_apply x0 x1 x2 x3 x4 x5 x6 x7 x8 q).symm

end Cert.Meet

end
-- ==== Proof.lean ====
/-
  A five-layer graph-isomorphism network over 100000 nodes with 128 features, pooled by a global sum and a linear head.
  The kernel program computes every layer  h ↦ relu(relu((h + agg h)·Wa + ba)·Wb + bb)  in a region tiled in 50 blocks of
  2000 rows (the rows of a block do not mix with any other row), the neighbours' aggregation  agg h  and the embedding
  lookup by host operations between the regions, and the pooled row  (Σ_r h₅ r)·Wlin + blin  in a last region that
  accumulates the column sums block by block. The reference does the same with whole-array operations.

  The three frames: each program runs to the end, nothing faults, and every argument array ends as launched — for the two
  kernel programs from the chain of their six regions and the host operations between them, for the reference from its run.
  The idealization rewrote nothing, so there is nothing to preserve. At the exact instance the two results agree entry by
  entry: a format change is the identity, a product into a zero accumulator is the plain matrix product, the 50 blocks
  tile the rows so the 50 write-backs are one whole-array function, and the column sums accumulated over 50 consecutive
  blocks are the sums over all rows (addition of extended reals is commutative and associative); no entry needs to be
  finite, so the precondition is not used.
-/
import proofs.«136333_j35605278884121_1_alg».proof.Defs
import proofs.«136333_j35605278884121_1_alg».proof.Proof.Gen.Kernel
import proofs.«136333_j35605278884121_1_alg».proof.Proof.Gen.Kernel.Skeleton
import proofs.«136333_j35605278884121_1_alg».proof.Proof.Gen.Kernel.Launch
import proofs.«136333_j35605278884121_1_alg».proof.Proof.Gen.Kernel.Regions
import proofs.«136333_j35605278884121_1_alg».proof.Proof.Gen.Kernel.Points
import proofs.«136333_j35605278884121_1_alg».proof.Proof.Gen.KernelIdeal
import proofs.«136333_j35605278884121_1_alg».proof.Proof.Gen.KernelIdeal.Skeleton
import proofs.«136333_j35605278884121_1_alg».proof.Proof.Gen.KernelIdeal.Launch
import proofs.«136333_j35605278884121_1_alg».proof.Proof.Gen.KernelIdeal.Regions
import proofs.«136333_j35605278884121_1_alg».proof.Proof.Gen.KernelIdeal.Points
import proofs.«136333_j35605278884121_1_alg».proof.Proof.Gen.ReferenceIdeal
import proofs.«136333_j35605278884121_1_alg».proof.Proof.Gen.ReferenceIdeal.Run
import proofs.«136333_j35605278884121_1_alg».proof.Proof.Gen.ReferenceIdeal.Read
import proofs.«136333_j35605278884121_1_alg».proof.Proof.Gen.Pre_finite_inputs
import proofs.«136333_j35605278884121_1_alg».proof.Proof.WordRun
import proofs.«136333_j35605278884121_1_alg».proof.Proof.IdealRun
import proofs.«136333_j35605278884121_1_alg».proof.Proof.IdealChain
import proofs.«136333_j35605278884121_1_alg».proof.Proof.Meet
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel's result row is the reference's, as functions of the argument arrays: entry (0, q) of either is the pooled
    row of the fifth layer's node features at q. -/
theorem result_eq (m : (ℓ : Loc Cert.KernelIdeal.nD Cert.KernelIdeal.τ Cert.KernelIdeal.sig) → Buf (Elt Ideal) ℓ) (c : Dev Cert.KernelIdeal.nD) :
    (Cert.KernelIdeal.Gen.dat5 (Cert.KernelIdeal.Gen.Vc11 m) c).arrAt 3 Cert.KernelIdeal.cfg5.N
      = Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨p, q, rfl⟩ : ∃ (p : Fin 1) (q : Fin 128), i = ix2 p q := ⟨i 0, i 1, eq_ix2 i⟩
  obtain rfl : p = 0 := Subsingleton.elim _ _
  exact (Cert.KernelIdeal.Gen.kernel_value m c q).trans (Cert.Meet.meet _ _ _ _ _ _ _ _ _ q)

theorem frame_k : Cert.frame_Kernel := fun m ρ _ => Cert.Kernel.Gen.frame_all m ρ
theorem frame_ki : Cert.frame_KernelIdeal := fun m ρ _ => Cert.KernelIdeal.Gen.frame_all m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the result rows agree entry by entry. -/
theorem algebraic : Cert.algebraic_KernelIdeal_ReferenceIdeal := by
  intro m ρ m' ρ' _ hagree
  refine ⟨fun c => (Cert.KernelIdeal.Gen.dat5 (Cert.KernelIdeal.Gen.Vc11 m) c).arrAt 3 Cert.KernelIdeal.cfg5.N, Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v160_eq m' c]
  obtain ⟨e0, e1, e2, e3, e4, e5, e6, e7, e8⟩ := hagree c
  rw [e0, e1, e2, e3, e4, e5, e6, e7, e8]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
